-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S320000x2 : Shape := ⟨2, ![320000, 2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x2 : S_.BroadcastsInDim S320000x2 (![] : Fin 0 → Fin S320000x2.rank)
  reducesTo_S320000x2_S_d0_1 : S320000x2.ReducesTo [0, 1] S_

variable [Facts]

def fn {F : FTy → Type} [FloatOps F] (main_arg0 : FVec F S10000x128 .f32) (main_arg1 : IVec S320000x2 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_c_0 : IVec S_ 32 := constantI S_ 32 0#32
  let main_v4 : IVec S320000x2 32 := broadcastInDim S320000x2 ![] bcast_S_S320000x2 main_c_0
  let main_v5 : IVec S320000x2 1 := cmpi .sge main_arg1 main_v4
  let main_c_1 : IVec S_ 32 := constantI S_ 32 9999#32
  let main_v6 : IVec S320000x2 32 := broadcastInDim S320000x2 ![] bcast_S_S320000x2 main_c_1
  let main_v7 : IVec S320000x2 1 := cmpi .sle main_arg1 main_v6
  let main_v8 : IVec S320000x2 1 := andi main_v5 main_v7
  let main_c_2 : IVec S_ 1 := constantI S_ 1 1#1
  let main_v9 : IVec S_ 1 := (fun x v => Host.reduce IntOp.andi x v reducesTo_S320000x2_S_d0_1 h_S_) main_v8 main_c_2
  let main_v10 : IVec S_ 1 := andi main_v3 main_v9
  main_v10
-- ==== Kernel.lean ====
abbrev S10000x128 : Shape := ⟨2, ![10000, 128]⟩
abbrev S320000x2 : Shape := ⟨2, ![320000, 2]⟩
abbrev S320000x1 : Shape := ⟨2, ![320000, 1]⟩
abbrev S320000 : Shape := ⟨1, ![320000]⟩
abbrev S330000x128 : Shape := ⟨2, ![330000, 128]⟩
abbrev S10000 : Shape := ⟨1, ![10000]⟩
abbrev S80x128 : Shape := ⟨2, ![80, 128]⟩
abbrev S_ : Shape := ⟨0, ![]⟩
abbrev S400x128 : Shape := ⟨2, ![400, 128]⟩
abbrev S80 : Shape := ⟨1, ![80]⟩
abbrev S1x16 : Shape := ⟨2, ![1, 16]⟩
abbrev S16 : Shape := ⟨1, ![16]⟩

abbrev nBuf : Table → Nat
  | .hbm => 7
  | .local .scVector .vmem => 5
  | _ => 0

abbrev bufTy : (tb : Table) → Fin (nBuf tb) → BufTy
  | .hbm, ⟨0, _⟩ => ⟨S10000x128, .f32⟩
  | .hbm, ⟨1, _⟩ => ⟨S320000x2, .i32⟩
  | .hbm, ⟨2, _⟩ => ⟨S320000x1, .i32⟩
  | .hbm, ⟨3, _⟩ => ⟨S320000, .i32⟩
  | .hbm, ⟨4, _⟩ => ⟨S320000x1, .i32⟩
  | .hbm, ⟨5, _⟩ => ⟨S320000, .i32⟩
  | .hbm, ⟨6, _⟩ => ⟨S330000x128, .f32⟩
  | .local .scVector .vmem, ⟨0, _⟩ => ⟨S10000, .i32⟩
  | .local .scVector .vmem, ⟨1, _⟩ => ⟨S10000, .i32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 1 := Scalar.cmpi .slt v1 c25_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v7 : BitVec 32 := Scalar.muli v1 c400_i32
  let c0_i32_2_r0 : BitVec 32 := 0#32
  ![v7.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v7 : BitVec 32 := Scalar.muli v1 c400_i32
  let c0_i32_3_r0 : BitVec 32 := 0#32
  ![v7.toNat, 0]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  ![v5.toNat]
@[reducible] def k0_t1_loop : Scf.Loop 32 :=
  let c0_i32_0 : BitVec 32 := 0#32
  let c125_i32 : BitVec 32 := 125#32
  let v6 : BitVec 32 := Scalar.addi c0_i32_0 c125_i32
  let c1_i32 : BitVec 32 := 1#32
  ⟨c0_i32_0, v6, c1_i32⟩
def k0_off4 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let c80_i32 : BitVec 32 := 80#32
  let v7 : BitVec 32 := Scalar.muli arg13 c80_i32
  ![v7.toNat]
@[reducible] def k0_t2_loop : Scf.Loop 32 :=
  let c0_i32_10 : BitVec 32 := 0#32
  let c80_i32_11 : BitVec 32 := 80#32
  let v16 : BitVec 32 := Scalar.addi c0_i32_10 c80_i32_11
  let c1_i32_12 : BitVec 32 := 1#32
  ⟨c0_i32_10, v16, c1_i32_12⟩
def k0_off5 (k0_t2 : Fin k0_t2_loop.trips) : Fin 2 → Nat :=
  let c0_i32_10 : BitVec 32 := 0#32
  let c1_i32_12 : BitVec 32 := 1#32
  let arg14 : BitVec 32 := Scf.iv c0_i32_10 c1_i32_12 k0_t2
  let v19 : Index := Scalar.indexCast arg14
  let c0 : Index := 0#32
  ![v19.toNat, 0]
def k0_off6 (k0_t2 : Fin k0_t2_loop.trips) : Fin 2 → Nat :=
  let c0_i32_10 : BitVec 32 := 0#32
  let c1_i32_12 : BitVec 32 := 1#32
  let arg14 : BitVec 32 := Scf.iv c0_i32_10 c1_i32_12 k0_t2
  let v32 : Index := Scalar.indexCast arg14
  let c16 : Index := 16#32
  ![v32.toNat, 16]
def k0_off7 (k0_t2 : Fin k0_t2_loop.trips) : Fin 2 → Nat :=
  let c0_i32_10 : BitVec 32 := 0#32
  let c1_i32_12 : BitVec 32 := 1#32
  let arg14 : BitVec 32 := Scf.iv c0_i32_10 c1_i32_12 k0_t2
  let v45 : Index := Scalar.indexCast arg14
  let c32 : Index := 32#32
  ![v45.toNat, 32]
def k0_off8 (k0_t2 : Fin k0_t2_loop.trips) : Fin 2 → Nat :=
  let c0_i32_10 : BitVec 32 := 0#32
  let c1_i32_12 : BitVec 32 := 1#32
  let arg14 : BitVec 32 := Scf.iv c0_i32_10 c1_i32_12 k0_t2
  let v58 : Index := Scalar.indexCast arg14
  let c48 : Index := 48#32
  ![v58.toNat, 48]
def k0_off9 (k0_t2 : Fin k0_t2_loop.trips) : Fin 2 → Nat :=
  let c0_i32_10 : BitVec 32 := 0#32
  let c1_i32_12 : BitVec 32 := 1#32
  let arg14 : BitVec 32 := Scf.iv c0_i32_10 c1_i32_12 k0_t2
  let v71 : Index := Scalar.indexCast arg14
  let c64 : Index := 64#32
  ![v71.toNat, 64]
def k0_off10 (k0_t2 : Fin k0_t2_loop.trips) : Fin 2 → Nat :=
  let c0_i32_10 : BitVec 32 := 0#32
  let c1_i32_12 : BitVec 32 := 1#32
  let arg14 : BitVec 32 := Scf.iv c0_i32_10 c1_i32_12 k0_t2
  let v84 : Index := Scalar.indexCast arg14
  let c80 : Index := 80#32
  ![v84.toNat, 80]
def k0_off11 (k0_t2 : Fin k0_t2_loop.trips) : Fin 2 → Nat :=
  let c0_i32_10 : BitVec 32 := 0#32
  let c1_i32_12 : BitVec 32 := 1#32
  let arg14 : BitVec 32 := Scf.iv c0_i32_10 c1_i32_12 k0_t2
  let v97 : Index := Scalar.indexCast arg14
  let c96 : Index := 96#32
  ![v97.toNat, 96]
def k0_off12 (k0_t2 : Fin k0_t2_loop.trips) : Fin 2 → Nat :=
  let c0_i32_10 : BitVec 32 := 0#32
  let c1_i32_12 : BitVec 32 := 1#32
  let arg14 : BitVec 32 := Scf.iv c0_i32_10 c1_i32_12 k0_t2
  let v110 : Index := Scalar.indexCast arg14
  let c112 : Index := 112#32
  ![v110.toNat, 112]
def k0_off13 (i : grid0.Coords) (k0_t1 : Fin k0_t1_loop.trips) : Fin 2 → Nat :=
  let c10000_i32_14 : BitVec 32 := 10000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let v17 : BitVec 32 := Scalar.addi c10000_i32_14 v5
  let c0_i32_0 : BitVec 32 := 0#32
  let c1_i32 : BitVec 32 := 1#32
  let arg13 : BitVec 32 := Scf.iv c0_i32_0 c1_i32 k0_t1
  let c80_i32 : BitVec 32 := 80#32
  let v7 : BitVec 32 := Scalar.muli arg13 c80_i32
  let v18 : BitVec 32 := Scalar.addi v17 v7
  let c0_i32_15_r3 : BitVec 32 := 0#32
  ![v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S320000x2_S320000x1_0_0 : S320000x2.Slices ![0, 0] S320000x1
  shapeCasts_S320000x1_S320000 : S320000x1.ShapeCasts S320000
  slices_S320000x2_S320000x1_0_1 : S320000x2.Slices ![0, 1] S320000x1
  inb_S10000x128_S10000x128_0_0 : ∀ a, (![0, 0] : Fin 2 → Nat) a + S10000x128.size a ≤ S10000x128.size a
  gathers_S10000x128_S80x128 : S10000x128.Gathers 0 S80x128
  h_S1x16 : 0 < S1x16.numel
  shapeCasts_S1x16_S16 : S1x16.ShapeCasts S16
  shapeCasts_S16_S1x16 : S16.ShapeCasts S1x16
  hcc0_scratch5 : 0 + S_.numel ≤ 6
  hcc0_scratch6 : 1 + S_.numel ≤ 6
  hcc0_scoped0 : 2 + S_.numel ≤ 6
  hcc0_scoped1 : 3 + S_.numel ≤ 6
  hcc0_scoped2 : 4 + S_.numel ≤ 6
  hcc0_scoped3 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S400x128.size a ≤ S330000x128.size a
  k0_off2_inb : ∀ i : grid0.Coords, ∀ (k0_h1 : k0_cond1 i = 1#1), ∀ a, (k0_off2 i) a + S400x128.size a ≤ S10000x128.size a
  k0_off3_inb : ∀ i : grid0.Coords, ∀ a, (k0_off3 i) a + S10000.size a ≤ S320000.size a
  k0_t1_ok : k0_t1_loop.OK
  k0_off4_inb : ∀ k0_t1 : Fin k0_t1_loop.trips, ∀ a, (k0_off4 k0_t1) a + S80.size a ≤ S10000.size a
  k0_t2_ok : k0_t2_loop.OK
  k0_off5_inb : ∀ k0_t2 : Fin k0_t2_loop.trips, ∀ a, (k0_off5 k0_t2) a + S1x16.size a ≤ S80x128.size a
  k0_off6_inb : ∀ k0_t2 : Fin k0_t2_loop.trips, ∀ a, (k0_off6 k0_t2) a + S1x16.size a ≤ S80x128.size a
  k0_off7_inb : ∀ k0_t2 : Fin k0_t2_loop.trips, ∀ a, (k0_off7 k0_t2) a + S1x16.size a ≤ S80x128.size a
  k0_off8_inb : ∀ k0_t2 : Fin k0_t2_loop.trips, ∀ a, (k0_off8 k0_t2) a + S1x16.size a ≤ S80x128.size a
  k0_off9_inb : ∀ k0_t2 : Fin k0_t2_loop.trips, ∀ a, (k0_off9 k0_t2) a + S1x16.size a ≤ S80x128.size a
  k0_off10_inb : ∀ k0_t2 : Fin k0_t2_loop.trips, ∀ a, (k0_off10 k0_t2) a + S1x16.size a ≤ S80x128.size a
  k0_off11_inb : ∀ k0_t2 : Fin k0_t2_loop.trips, ∀ a, (k0_off11 k0_t2) a + S1x16.size a ≤ S80x128.size a
  k0_off12_inb : ∀ k0_t2 : Fin k0_t2_loop.trips, ∀ a, (k0_off12 k0_t2) a + S1x16.size a ≤ S80x128.size a
  k0_off13_inb : ∀ (i : grid0.Coords) (k0_t1 : Fin k0_t1_loop.trips), ∀ a, (k0_off13 i k0_t1) a + S80x128.size a ≤ S330000x128.size a

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3

class Facts : Prop extends Facts₀ where

variable [Facts]
-- ==== ReferenceIdeal.lean ====
abbrev S10000x128 : Shape := ⟨2, ![10000, 128]⟩
abbrev S320000x2 : Shape := ⟨2, ![320000, 2]⟩
abbrev S_ : Shape := ⟨0, ![]⟩
abbrev S320000x2x1 : Shape := ⟨3, ![320000, 2, 1]⟩
abbrev S1 : Shape := ⟨1, ![1]⟩
abbrev S1x1x1 : Shape := ⟨3, ![1, 1, 1]⟩
abbrev S320000x2x128 : Shape := ⟨3, ![320000, 2, 128]⟩
abbrev S320000x128 : Shape := ⟨2, ![320000, 128]⟩
abbrev S330000x128 : Shape := ⟨2, ![330000, 128]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x2, .i32⟩
  | .hbm, ⟨2, _⟩ => ⟨S_, .i32⟩
  | .hbm, ⟨3, _⟩ => ⟨S320000x2, .i32⟩
  | .hbm, ⟨4, _⟩ => ⟨S320000x2, .i1⟩
  | .hbm, ⟨5, _⟩ => ⟨S_, .i32⟩
  | .hbm, ⟨6, _⟩ => ⟨S320000x2, .i32⟩
  | .hbm, ⟨7, _⟩ => ⟨S320000x2, .i32⟩
  | .hbm, ⟨8, _⟩ => ⟨S320000x2, .i32⟩
  | .hbm, ⟨9, _⟩ => ⟨S320000x2x1, .i32⟩
  | .hbm, ⟨10, _⟩ => ⟨S1, .i32⟩
  | .hbm, ⟨11, _⟩ => ⟨S_, .i32⟩
  | .hbm, ⟨12, _⟩ => ⟨S320000x2x1, .i32⟩
  | .hbm, ⟨13, _⟩ => ⟨S320000x2x1, .i1⟩
  | .hbm, ⟨14, _⟩ => ⟨S1x1x1, .i32⟩
  | .hbm, ⟨15, _⟩ => ⟨S320000x2x1, .i32⟩
  | .hbm, ⟨16, _⟩ => ⟨S320000x2x1, .i1⟩
  | .hbm, ⟨17, _⟩ => ⟨S320000x2x1, .i1⟩
  | .hbm, ⟨18, _⟩ => ⟨S_, .i1⟩
  | .hbm, ⟨19, _⟩ => ⟨S320000x2, .i1⟩
  | .hbm, ⟨20, _⟩ => ⟨S320000x2x128, .f32⟩
  | .hbm, ⟨21, _⟩ => ⟨S320000x2x128, .i1⟩
  | .hbm, ⟨22, _⟩ => ⟨S_, .f32⟩
  | .hbm, ⟨23, _⟩ => ⟨S320000x2x128, .f32⟩
  | .hbm, ⟨24, _⟩ => ⟨S320000x2x128, .f32⟩
  | .hbm, ⟨25, _⟩ => ⟨S_, .f32⟩
  | .hbm, ⟨26, _⟩ => ⟨S320000x128, .f32⟩
  | .hbm, ⟨27, _⟩ => ⟨S_, .f32⟩
  | .hbm, ⟨28, _⟩ => ⟨S320000x128, .f32⟩
  | .hbm, ⟨29, _⟩ => ⟨S320000x128, .f32⟩
  | .hbm, ⟨30, _⟩ => ⟨S330000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S320000x2 : S_.BroadcastsInDim S320000x2 (![] : Fin 0 → Fin S320000x2.rank)
  bcast_S320000x2_S320000x2x1_0_1 : S320000x2.BroadcastsInDim S320000x2x1 (![0, 1] : Fin 2 → Fin S320000x2x1.rank)
  bcast_S_S320000x2x1 : S_.BroadcastsInDim S320000x2x1 (![] : Fin 0 → Fin S320000x2x1.rank)
  bcast_S1_S1x1x1_2 : S1.BroadcastsInDim S1x1x1 (![2] : Fin 1 → Fin S1x1x1.rank)
  bcast_S1x1x1_S320000x2x1_0_1_2 : S1x1x1.BroadcastsInDim S320000x2x1 (![0, 1, 2] : Fin 3 → Fin S320000x2x1.rank)
  reducesTo_S320000x2x1_S320000x2_d2 : S320000x2x1.ReducesTo [2] S320000x2
  h_S_ : 0 < S_.numel
  bcast_S320000x2_S320000x2x128_0_1 : S320000x2.BroadcastsInDim S320000x2x128 (![0, 1] : Fin 2 → Fin S320000x2x128.rank)
  bcast_S_S320000x2x128 : S_.BroadcastsInDim S320000x2x128 (![] : Fin 0 → Fin S320000x2x128.rank)
  reducesTo_S320000x2x128_S320000x128_d1 : S320000x2x128.ReducesTo [1] S320000x128
  bcast_S_S320000x128 : S_.BroadcastsInDim S320000x128 (![] : Fin 0 → Fin S320000x128.rank)
  concatenates_S10000x128_S320000x128_S330000x128_d0 : Shape.Concatenates [S10000x128, S320000x128] S330000x128 0
  gather_S10000x128_S320000x2x1_S320000x2x128_2_0_n_n_0_2_1128_wf : GatherDims.WF S10000x128 S320000x2x1 S320000x2x128 [2] [0] [] [0] [] 2 ![1, 128]

variable [Facts₀]

def gather_S10000x128_S320000x2x1_S320000x2x128_2_0_n_n_0_2_1128 : GatherDims S10000x128 S320000x2x1 S320000x2x128 where
  offsetDims := [2]
  collapsedSliceDims := [0]
  operandBatchingDims := []
  startIndicesBatchingDims := []
  startIndexMap := [0]
  indexVectorDim := 2
  sliceSizes := ![1, 128]
  wf := gather_S10000x128_S320000x2x1_S320000x2x128_2_0_n_n_0_2_1128_wf

class Facts : Prop extends Facts₀ where

variable [Facts]
-- ==== Proof.PoolSpec.lean ====
import Idealize.ShloMosaic.PureOps
import Idealize.ShloMosaic.Lib.ValueIdx

/-!
# Edge midpoints appended to a table of rows

Let `x` be a table of 10000 rows of 128 entries and let `idx` list 320000 pairs of row numbers.
The result has 330000 rows: the first 10000 are the rows of `x`; row `10000 + e` is the midpoint
of the two rows of `x` that pair `e` names, entry by entry `(x[i₀ e, q] + x[i₁ e, q]) · ½`.
A row number is read from its 32-bit word as a signed integer, a negative one as 0, and clamped to
the last row; on words that already lie in `[0, 9999]` this is the word's own value.
The definitions are stated for every float instance: the sum and the product are the instance's.
-/

noncomputable section

namespace Cert.Pool

open Idealize.ShloMosaic Idealize.ShloMosaic.ValueIdx

variable {F : FTy → Type} [FloatOps F]

/-- The row of the table a 32-bit word names: its signed value, a negative one read as 0, at most 9999. -/
def rowSel (v : BitVec 32) : Fin 10000 := ⟨min v.toInt.toNat 9999, by omega⟩

/-- On a word whose unsigned value is below 10000 the named row is that value. -/
theorem rowSel_of_lt {v : BitVec 32} (h : v.toNat < 10000) : (rowSel v).val = v.toNat := by
  have h2 : v.toInt = (v.toNat : Int) := by
    rw [BitVec.toInt_eq_toNat_cond, if_pos (by omega)]
  show min v.toInt.toNat 9999 = v.toNat
  rw [h2, Int.toNat_natCast]
  omega

/-- The constant one half, the word `0x3F000000` read at the instance. -/
def half : F .f32 := FloatOps.ofBits .f32 0x3F000000#32

/-- The midpoint of two entries: their sum times one half. -/
def mid (a b : F .f32) : F .f32 := FloatOps.mulf (FloatOps.addf a b) (half (F := F))

/-- The table followed by the midpoints of the listed pairs of rows. -/
def pooled (x : FVec F ⟨2, ![10000, 128]⟩ .f32) (idx : IVec ⟨2, ![320000, 2]⟩ 32) : FVec F ⟨2, ![330000, 128]⟩ .f32 :=
  fun j =>
    if h : (j 0).val < 10000 then
      x (ix2 (⟨(j 0).val, h⟩ : Fin 10000) (⟨(j 1).val, idx2_lt1 j⟩ : Fin 128))
    else
      mid (x (ix2 (rowSel (idx (ix2 (⟨(j 0).val - 10000, by have := idx2_lt0 j; omega⟩ : Fin 320000) (0 : Fin 2))))
                  (⟨(j 1).val, idx2_lt1 j⟩ : Fin 128)))
          (x (ix2 (rowSel (idx (ix2 (⟨(j 0).val - 10000, by have := idx2_lt0 j; omega⟩ : Fin 320000) (1 : Fin 2))))
                  (⟨(j 1).val, idx2_lt1 j⟩ : Fin 128)))

/-- A row of the table read back from the result. -/
theorem pooled_table (x : FVec F ⟨2, ![10000, 128]⟩ .f32) (idx : IVec ⟨2, ![320000, 2]⟩ 32) (r : Fin 10000) (q : Fin 128) :
    pooled x idx (ix2 (⟨r.val, by omega⟩ : Fin 330000) q) = x (ix2 r q) := by
  unfold pooled
  rw [dif_pos (show ((ix2 (⟨r.val, by omega⟩ : Fin 330000) q) 0).val < 10000 from r.isLt)]

/-- A midpoint row read back from the result. -/
theorem pooled_mid (x : FVec F ⟨2, ![10000, 128]⟩ .f32) (idx : IVec ⟨2, ![320000, 2]⟩ 32) (e : Fin 320000) (q : Fin 128) :
    pooled x idx (ix2 (⟨10000 + e.val, by omega⟩ : Fin 330000) q)
      = mid (x (ix2 (rowSel (idx (ix2 e (0 : Fin 2)))) q)) (x (ix2 (rowSel (idx (ix2 e (1 : Fin 2)))) q)) := by
  unfold pooled
  rw [dif_neg (show ¬ ((ix2 (⟨10000 + e.val, by omega⟩ : Fin 330000) q) 0).val < 10000 from by
    show ¬ (10000 + e.val < 10000); omega)]
  have he : (⟨((ix2 (⟨10000 + e.val, by omega⟩ : Fin 330000) q) 0).val - 10000, by
      show (10000 + e.val) - 10000 < 320000; omega⟩ : Fin 320000) = e := Fin.ext (by show (10000 + e.val) - 10000 = e.val; omega)
  simp only [he]

end Cert.Pool

end
-- ==== Proof.PreRange.lean ====
import proofs.«208565_g47476568490134_cont_8to1_c_213_4_alg».proof.Pre_input_domain
import proofs.«208565_g47476568490134_cont_8to1_c_213_4_alg».proof.Proof.Gen.Pre_input_domain
import Idealize.ShloMosaic.Lib.ReduceAll
import Idealize.ShloMosaic.Lib.Affine
import Idealize.ShloMosaic.Lib.ValueIdx

/-!
# The pair list names rows of the table

The precondition is the conjunction of two statements, each a conjunction over every entry of an
array: every entry of the table is finite, and every word `w` of the pair list satisfies
`0 ≤ w` and `w ≤ 9999` as a signed 32-bit integer.  Only the second is read here.  A signed
value in `[0, 9999]` is the word's unsigned value, so every word is below 10000 as a natural
number.
-/

namespace Cert.PreRange

open Idealize.ShloMosaic

/-- The shape with no axes has one index. -/
instance : Subsingleton Cert.Pre_input_domain.S_.Idx := ⟨fun a b => funext fun d => d.elim0⟩

/-- Under the precondition every word of the pair list, read as a signed integer, lies in `[0, 9999]`. -/
theorem idx_range {F : FTy → Type} [FloatOps F] (x : FVec F Cert.Pre_input_domain.S10000x128 .f32)
    (p : IVec Cert.Pre_input_domain.S320000x2 32)
    (h : Cert.Pre_input_domain.fn (F := F) x p = fun _ => 1#1) :
    ∀ j, (0 : Int) ≤ (p j).toInt ∧ (p j).toInt ≤ 9999 := by
  intro j
  have h0 := congrFun h ValueIdx.ix0
  dsimp only [Cert.Pre_input_domain.fn] at h0
  have h1 := (IntOp.andi_eq_one.1 h0).2
  have h2 := Host.reduce_andi_all _ _ _ _ _ h1 j
  have h3 := IntOp.andi_eq_one.1 h2
  have hge := IntOp.cmpi_sge.1 h3.1
  have hle := IntOp.cmpi_sle.1 h3.2
  have e0 : (0#32 : BitVec 32).toInt = 0 := by decide
  have e1 : (9999#32 : BitVec 32).toInt = 9999 := by decide
  exact ⟨e0 ▸ hge, e1 ▸ hle⟩

/-- Under the precondition every word of the pair list is below 10000 as a natural number. -/
theorem idx_lt {F : FTy → Type} [FloatOps F] (x : FVec F Cert.Pre_input_domain.S10000x128 .f32)
    (p : IVec Cert.Pre_input_domain.S320000x2 32)
    (h : Cert.Pre_input_domain.fn (F := F) x p = fun _ => 1#1) :
    ∀ j, (p j).toNat < 10000 := by
  intro j
  obtain ⟨h0, h1⟩ := idx_range x p h j
  have e := BitVec.toInt_eq_toNat_cond (p j)
  have := (p j).isLt
  split at e <;> omega

end Cert.PreRange
-- ==== Proof.RefOps.lean ====
import proofs.«208565_g47476568490134_cont_8to1_c_213_4_alg».proof.Proof.Gen.ReferenceIdeal
import Idealize.ShloMosaic.Lib.StableHlo.Run

/-!
# The reference as one straight line of array operations

The reference gathers two rows of the table per pair, sums them, halves the sum, and appends the
result to the table.  Its gather is an outlined function that itself calls an outlined selection;
with both bodies written out at their call sites the whole program is a list of twenty-nine array
operations, each writing one buffer of its own.  Run in order from any memory they terminate, and
every buffer ends at the composition of the operations that lead to it.
-/

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- The twenty-nine operations, in order: the gather's index preparation (a negative word moved up
by the number of rows), the gather, its in-range mask and the masked selection, then the sum over
the pair axis, the product with one half, and the concatenation with the table. -/
abbrev ops : List (HloOp τ sig (Elt F)) :=
  [ TRef.nullary main_call0.c (constantI S_ 32 0#32),
    TRef.unary main_call0.c main_call0.v0 (broadcastInDim S320000x2 ![] bcast_S_S320000x2),
    TRef.binary (.of main_arg1) main_call0.v0 main_call0.v1 (cmpi .slt),
    TRef.nullary main_call0.c_0 (constantI S_ 32 10000#32),
    TRef.unary main_call0.c_0 main_call0.v2 (broadcastInDim S320000x2 ![] bcast_S_S320000x2),
    TRef.binary (.of main_arg1) main_call0.v2 main_call0.v3 addi,
    TRef.ternary main_call0.v1 main_call0.v3 (.of main_arg1) main_call0.call0.v0 select,
    TRef.unary main_call0.call0.v0 main_call0.v5 (broadcastInDim S320000x2x1 ![0, 1] bcast_S320000x2_S320000x2x1_0_1),
    TRef.nullary main_call0.c_1 (constantI S1 32 9999#32),
    TRef.nullary main_call0.c_2 (constantI S_ 32 0#32),
    TRef.unary main_call0.c_2 main_call0.v6 (broadcastInDim S320000x2x1 ![] bcast_S_S320000x2x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S320000x2x1 ![0, 1, 2] bcast_S1x1x1_S320000x2x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x2x1_S320000x2_d2 h_S_),
    TRef.binary (.of main_arg0) main_call0.v5 main_call0.v13 (fun x i => Host.gather gather_S10000x128_S320000x2x1_S320000x2x128_2_0_n_n_0_2_1128 x i),
    TRef.unary main_call0.v12 main_call0.v14 (broadcastInDim S320000x2x128 ![0, 1] bcast_S320000x2_S320000x2x128_0_1),
    TRef.nullary main_call0.cst (constant S_ .f32 0x7FC00000#32),
    TRef.unary main_call0.cst main_call0.v15 (broadcastInDim S320000x2x128 ![] bcast_S_S320000x2x128),
    TRef.ternary main_call0.v14 main_call0.v13 main_call0.v15 main_call0.v16 select,
    nullary main_cst (constant S_ .f32 0x00000000#32),
    binary main_v0 main_cst main_v1 ((fun x v => Host.reduceAdd x v reducesTo_S320000x2x128_S320000x128_d1 h_S_) : (⟨S320000x2x128, .f32⟩ : BufTy).Contents (Elt F) → (⟨S_, .f32⟩ : BufTy).Contents (Elt F) → (⟨S320000x128, .f32⟩ : BufTy).Contents (Elt F)),
    nullary main_cst_0 (constant S_ .f32 0x3F000000#32),
    unary main_cst_0 main_v2 (broadcastInDim S320000x128 ![] bcast_S_S320000x128 : (⟨S_, .f32⟩ : BufTy).Contents (Elt F) → (⟨S320000x128, .f32⟩ : BufTy).Contents (Elt F)),
    binary main_v2 main_v1 main_v3 (mulf : (⟨S320000x128, .f32⟩ : BufTy).Contents (Elt F) → (⟨S320000x128, .f32⟩ : BufTy).Contents (Elt F) → (⟨S320000x128, .f32⟩ : BufTy).Contents (Elt F)),
    binary main_arg0 main_v3 main_v4 ((fun a b => concatenate S330000x128 0 [⟨S10000x128, a⟩, ⟨S320000x128, b⟩] concatenates_S10000x128_S320000x128_S330000x128_d0) : (⟨S10000x128, .f32⟩ : BufTy).Contents (Elt F) → (⟨S320000x128, .f32⟩ : BufTy).Contents (Elt F) → (⟨S330000x128, .f32⟩ : BufTy).Contents (Elt F)) ]

set_option maxRecDepth 1024 in
/-- The program is that straight line: the two outlined bodies unfolded at their calls, the
sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., binary_bufs_sub ..⟩

/-- From any memory with zero counters every weakly fair execution of the program terminates, and
every buffer of the device ends at the operations' fold over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefTerm.lean ====
import proofs.«208565_g47476568490134_cont_8to1_c_213_4_alg».proof.Proof.RefOps

/-!
# What the straight line leaves in the result buffer

Composing the twenty-nine operations gives one array-valued function of the table `x` and the pair
list `idx`, named here stage by stage: the pair list with a negative word moved up by the number of
rows (`wrapped`), the in-range mask of those words spread along the row entries (`inRange`), the
gathered rows with the entries outside the mask replaced by a fill value (`taken`), half the sum
over the pair axis (`mids`), and the table followed by those rows (`out`).  After the run the result
buffer holds `out` of the two input buffers, and the input buffers hold what they held.
-/

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- The pair list with every negative word moved up by 10000, as a `320000 × 2 × 1` array. -/
def wrapped (idx : IVec S320000x2 32) : IVec S320000x2x1 32 :=
  broadcastInDim S320000x2x1 ![0, 1] bcast_S320000x2_S320000x2x1_0_1
    (select (cmpi .slt idx (broadcastInDim S320000x2 ![] bcast_S_S320000x2 (constantI S_ 32 0#32)))
      (addi idx (broadcastInDim S320000x2 ![] bcast_S_S320000x2 (constantI S_ 32 10000#32))) idx)

/-- The mask `0 ≤ w ≤ 9999` of an array of words, one bit per word, repeated along 128 row entries. -/
def inRange (w : IVec S320000x2x1 32) : IVec S320000x2x128 1 :=
  broadcastInDim S320000x2x128 ![0, 1] bcast_S320000x2_S320000x2x128_0_1
    (Host.reduce IntOp.andi
      (andi (cmpi .sge w (broadcastInDim S320000x2x1 ![] bcast_S_S320000x2x1 (constantI S_ 32 0#32)))
        (cmpi .sle w (broadcastInDim S320000x2x1 ![0, 1, 2] bcast_S1x1x1_S320000x2x1_0_1_2
          (broadcastInDim S1x1x1 ![2] bcast_S1_S1x1x1_2 (constantI S1 32 9999#32)))))
      (constantI S_ 1 1#1) reducesTo_S320000x2x1_S320000x2_d2 h_S_)

/-- The rows the pair list names, entries outside the mask replaced by the fill value. -/
def taken (x : FVec F S10000x128 .f32) (idx : IVec S320000x2 32) : FVec F S320000x2x128 .f32 :=
  select (inRange (wrapped idx))
    (Host.gather gather_S10000x128_S320000x2x1_S320000x2x128_2_0_n_n_0_2_1128 x (wrapped idx))
    (broadcastInDim S320000x2x128 ![] bcast_S_S320000x2x128 (constant S_ .f32 0x7FC00000#32))

/-- One half times the sum, from zero, of the two rows of each pair. -/
def mids (x : FVec F S10000x128 .f32) (idx : IVec S320000x2 32) : FVec F S320000x128 .f32 :=
  mulf (broadcastInDim S320000x128 ![] bcast_S_S320000x128 (constant S_ .f32 0x3F000000#32))
    (Host.reduceAdd (taken x idx) (constant S_ .f32 0x00000000#32) reducesTo_S320000x2x128_S320000x128_d1 h_S_)

/-- The table followed by the rows of `mids`. -/
def out (x : FVec F S10000x128 .f32) (idx : IVec S320000x2 32) : FVec F S330000x128 .f32 :=
  concatenate S330000x128 0 [⟨S10000x128, x⟩, ⟨S320000x128, mids x idx⟩] concatenates_S10000x128_S320000x128_S330000x128_d0

attribute [local irreducible] Host.reduce Host.gather Host.reduceAdd concatenate broadcastInDim in
set_option maxRecDepth 8192 in
set_option maxHeartbeats 400000 in
/-- The fold of the operations at the result buffer is `out` of the two input buffers. -/
theorem out_eq (V : Valuation τ sig (Elt F)) :
    after ops V (main_v4 : DevRef τ sig) = out (V (main_arg0 : DevRef τ sig)) (V (main_arg1 : DevRef τ sig)) := by
  simp only [after_cons, after_nil]
  rfl

/-- No operation writes the table's buffer. -/
theorem arg0_eq (V : Valuation τ sig (Elt F)) :
    after ops V (main_arg0 : DevRef τ sig) = V (main_arg0 : DevRef τ sig) := by
  after_results_simp

/-- No operation writes the pair list's buffer. -/
theorem arg1_eq (V : Valuation τ sig (Elt F)) :
    after ops V (main_arg1 : DevRef τ sig) = V (main_arg1 : DevRef τ sig) := by
  after_results_simp

end Cert.Proof.Ref

end
-- ==== Proof.LibGatherRank3.lean ====
import Idealize.ShloMosaic.Lib.ValueIdx

/-!
# A gather of table rows at a rank-3 array of indices, read at an index

Let `x` be a table with `N` rows of `C` entries and let `idx` be an `A × B × 1` array of integer
words.  The gather `Host.gather d x idx` whose dimension numbers `d` collapse axis `0` of the
operand, map the single component of a start index to axis `0`, keep the index vector on the
last axis of `idx`, and put the row entries on the last axis of the result, produces an
`A × B × C` array: entry `(a, b, q)` of the result is entry `q` of row `min idx[a, b, 0] (N - 1)`
of `x`, the word `idx[a, b, 0]` being read as a signed integer and a negative value as `0`.
-/

namespace Cert.Lib.GatherRank3

open Idealize.ShloMosaic Idealize.ShloMosaic.ValueIdx

variable {α : Type}

/-- The dimension numbers of a gather of rows at a rank-3 array of indices: operand `[N, C]`, start
indices `[A, B, 1]`, result `[A, B, C]`; the conditions `wf` are decided on literal shapes. -/
abbrev rowDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather of rows read at `(a, b, q)`: the operand at row `idx[a, b, 0]` (read signed and
clamped into `[0, N - 1]`) and column `q`. -/
theorem gather_row_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rowDims N C A B wf) x idx (ix3 a b q)
      = x (ix2 ⟨min (idx (ix3 a b ⟨0, Nat.one_pos⟩)).toInt.toNat (N - 1), by omega⟩ q) := by
  unfold Host.gather
  congr 1
  funext e
  refine Fin.ext ?_
  match e with
  | ⟨0, _⟩ =>
    -- axis 0 is collapsed and named by the start index map: the clamped start index alone
    show (rowDims N C A B wf).start (ix3 a b q) idx 0 + (rowDims N C A B wf).batchCoord (ix3 a b q) 0
      + (rowDims N C A B wf).offCoord (ix3 a b q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N C A B wf).startIndexMap from
      List.mem_singleton.mpr rfl)]
    have hsi : (rowDims N C A B wf).siIdx (ix3 a b q)
        ⟨List.idxOf (0 : Fin 2) (rowDims N C A B wf).startIndexMap,
          List.idxOf_lt_length_iff.2 (List.mem_singleton.mpr rfl)⟩ = ix3 a b ⟨0, Nat.one_pos⟩ := by
      funext c; refine Fin.ext ?_
      match c with
      | ⟨0, _⟩ => rfl
      | ⟨1, _⟩ => rfl
      | ⟨2, _⟩ => rfl
    rw [hsi]
    rfl
  | ⟨1, _⟩ =>
    -- axis 1 is kept and is not named by the start index map: the column alone
    show (rowDims N C A B wf).start (ix3 a b q) idx 1 + (rowDims N C A B wf).batchCoord (ix3 a b q) 1
      + (rowDims N C A B wf).offCoord (ix3 a b q) 1 = _
    have h1 : (1 : Fin 2) ∉ (rowDims N C A B wf).startIndexMap := by
      intro h
      exact absurd (List.mem_singleton.mp h) (by decide : ¬ (1 : Fin 2) = 0)
    have hk : (1 : Fin 2) ∈ (rowDims N C A B wf).sKept :=
      (GatherDims.mem_sKept _ _).mpr
        ⟨fun h => absurd (List.mem_singleton.mp h) (by decide : ¬ (1 : Fin 2) = 0), List.not_mem_nil⟩
    have hstart : (rowDims N C A B wf).start (ix3 a b q) idx 1 = 0 := by
      unfold GatherDims.start
      rw [dif_neg h1]
    rw [GatherDims.batchCoord_eq_zero _ _ _ List.not_mem_nil, hstart]
    simp only [Nat.add_zero, Nat.zero_add]
    unfold GatherDims.offCoord
    rw [dif_pos hk]
    rfl

end Cert.Lib.GatherRank3
-- ==== Proof.RefValue.lean ====
import proofs.«208565_g47476568490134_cont_8to1_c_213_4_alg».proof.Proof.RefTerm
import proofs.«208565_g47476568490134_cont_8to1_c_213_4_alg».proof.Proof.PoolSpec
import proofs.«208565_g47476568490134_cont_8to1_c_213_4_alg».proof.Proof.LibGatherRank3
import Idealize.ShloMosaic.Lib.ValueIdx
import Idealize.ShloMosaic.Lib.ValueLayout
import Idealize.ShloMosaic.Lib.Pipeline.Value
import Idealize.ShloMosaic.Lib.IdealHost
import Idealize.ShloMosaic.Lib.Affine
import Idealize.ShloMosaic.PureOps.Ideal.Laws
import Idealize.ShloMosaic.PureOps.Reduce

/-!
# The reference's result, entry by entry

Let every word of the pair list be below 10000 as a natural number.  Then its signed value is that
number, so no word is negative and the move up by 10000 changes nothing; every word passes the
in-range test, so the mask is one everywhere and the selection keeps the gathered entry; and the
gathered row, the word clamped into `[0, 9999]`, is the row the shared specification names.  The sum
over the pair axis from zero is the sum of the two gathered entries, and its product with one half
on the left is the specification's midpoint, the product with one half on the right, multiplication
of extended reals being commutative.  The first 10000 rows of the concatenation are the table.
-/

noncomputable section

namespace Cert.Proof.Ref

open Cert.ReferenceIdeal Cert.ReferenceIdeal.Gen Idealize.ShloMosaic Idealize.ShloMosaic.ValueIdx

variable {F : FTy → Type} [FloatOps F]

/-- A word below 10000 as a natural number has that number as its signed value. -/
theorem toInt_of_lt {v : BitVec 32} (h : v.toNat < 10000) : v.toInt = (v.toNat : Int) := by
  rw [BitVec.toInt_eq_toNat_cond, if_pos (by omega)]

/-- Where the word is below 10000 the wrapped pair list is the pair list. -/
theorem wrapped_apply (idx : IVec S320000x2 32) (e : Fin 320000) (b : Fin 2) (z : Fin 1)
    (h : (idx (ix2 e b)).toNat < 10000) : wrapped idx (ix3 e b z) = idx (ix2 e b) := by
  unfold wrapped
  rw [broadcastInDim_apply _ _ _ (ix3 e b z) (ix2 e b) (fun a => by
    match a with
    | ⟨0, _⟩ => rfl
    | ⟨1, _⟩ => rfl)]
  rw [select_apply]
  have hc : cmpi .slt idx (broadcastInDim S320000x2 ![] bcast_S_S320000x2 (constantI S_ 32 0#32)) (ix2 e b) = 0#1 := by
    show IntOp.cmpi .slt (idx (ix2 e b)) 0#32 = 0#1
    apply eq_zero_of_ne_one
    rw [IntOp.cmpi_slt, toInt_of_lt h]
    have e0 : (0#32 : BitVec 32).toInt = 0 := by decide
    rw [e0]
    omega
  rw [hc, select_zero]

/-- With every word below 10000, every wrapped word lies in `[0, 9999]` as a signed integer. -/
theorem wrapped_range (idx : IVec S320000x2 32) (hidx : ∀ j, (idx j).toNat < 10000) (i : S320000x2x1.Idx) :
    (0 : Int) ≤ (wrapped idx i).toInt ∧ (wrapped idx i).toInt ≤ 9999 := by
  obtain ⟨e, b, z, rfl⟩ : ∃ (e : Fin 320000) (b : Fin 2) (z : Fin 1), i = ix3 e b z := ⟨i 0, i 1, i 2, eq_ix3 i⟩
  have h := hidx (ix2 e b)
  rw [wrapped_apply idx e b z h, toInt_of_lt h]
  omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_one f hf l

/-- Over words that all lie in `[0, 9999]` the in-range mask is 1 at every index. -/
theorem inRange_apply (w : IVec S320000x2x1 32) (hw : ∀ i, (0 : Int) ≤ (w i).toInt ∧ (w i).toInt ≤ 9999)
    (e : Fin 320000) (b : Fin 2) (q : Fin 128) : inRange w (ix3 e b q) = 1#1 := by
  unfold inRange
  rw [broadcastInDim_apply _ _ _ (ix3 e b q) (ix2 e b) (fun a => by
    match a with
    | ⟨0, _⟩ => rfl
    | ⟨1, _⟩ => rfl)]
  rw [Host.reduce_eq_foldl]
  refine foldl_andi_one _ (fun i => ?_) _
  show IntOp.andi (IntOp.cmpi .sge (w i) 0#32) (IntOp.cmpi .sle (w i) 9999#32) = 1#1
  have e0 : (0#32 : BitVec 32).toInt = 0 := by decide
  have e1 : (9999#32 : BitVec 32).toInt = 9999 := by decide
  rw [IntOp.andi_eq_one, IntOp.cmpi_sge, IntOp.cmpi_sle, e0, e1]
  exact hw i

/-- With every word below 10000, the masked gather at `(e, b, q)` is entry `q` of the row the word
`idx[e, b]` names. -/
theorem taken_apply (x : FVec F S10000x128 .f32) (idx : IVec S320000x2 32) (hidx : ∀ j, (idx j).toNat < 10000)
    (e : Fin 320000) (b : Fin 2) (q : Fin 128) :
    taken x idx (ix3 e b q) = x (ix2 (Cert.Pool.rowSel (idx (ix2 e b))) q) := by
  unfold taken
  rw [select_apply, inRange_apply _ (wrapped_range idx hidx) e b q, select_one]
  have hg : gather_S10000x128_S320000x2x1_S320000x2x128_2_0_n_n_0_2_1128
      = Cert.Lib.GatherRank3.rowDims 10000 128 320000 2 gather_S10000x128_S320000x2x1_S320000x2x128_2_0_n_n_0_2_1128_wf := rfl
  rw [hg, Cert.Lib.GatherRank3.gather_row_apply (by decide) _ x (wrapped idx) e b q]
  refine congrArg x (congrArg (fun r : Fin 10000 => ix2 r q) (Fin.ext ?_))
  show min (wrapped idx (ix3 e b ⟨0, Nat.one_pos⟩)).toInt.toNat (10000 - 1) = min (idx (ix2 e b)).toInt.toNat 9999
  rw [wrapped_apply idx e b ⟨0, Nat.one_pos⟩ (hidx _)]

/-- Half the sum over the pair axis, at `(e, q)`: the midpoint of the two rows that pair `e` names. -/
theorem mids_apply (x : FVec Ideal S10000x128 .f32) (idx : IVec S320000x2 32) (hidx : ∀ j, (idx j).toNat < 10000)
    (e : Fin 320000) (q : Fin 128) :
    mids x idx (ix2 e q)
      = Cert.Pool.mid (x (ix2 (Cert.Pool.rowSel (idx (ix2 e (0 : Fin 2)))) q))
          (x (ix2 (Cert.Pool.rowSel (idx (ix2 e (1 : Fin 2)))) q)) := by
  have hR : S320000x2x128.Reduces [1] S320000x128 := by decide
  unfold mids
  rw [mulf_apply, hostReduceAdd_apply, Ideal.hostReduceAdd_single reducesTo_S320000x2x128_S320000x128_d1 hR]
  show Ideal.ofBits .f32 0x3F000000#32
      * (Ideal.ofBits .f32 0x00000000#32 + ∑ k : Fin 2, taken x idx (hR.lift (ix2 e q) k)) = _
  have l0 : hR.lift (ix2 e q) (0 : Fin 2) = ix3 e (0 : Fin 2) q := by
    funext c
    apply Fin.ext
    match c with
    | ⟨0, _⟩ => rfl
    | ⟨1, _⟩ => rfl
    | ⟨2, _⟩ => rfl
  have l1 : hR.lift (ix2 e q) (1 : Fin 2) = ix3 e (1 : Fin 2) q := by
    funext c
    apply Fin.ext
    match c with
    | ⟨0, _⟩ => rfl
    | ⟨1, _⟩ => rfl
    | ⟨2, _⟩ => rfl
  rw [Fin.sum_univ_two, l0, l1, taken_apply x idx hidx, taken_apply x idx hidx, Ideal.ofBits_zero_f32, zero_add]
  unfold Cert.Pool.mid Cert.Pool.half
  exact mul_comm (Ideal.ofBits .f32 0x3F000000#32 : EReal) _

/-- With every word below 10000, the reference's result is the table followed by the midpoints. -/
theorem out_eq_pooled (x : FVec Ideal S10000x128 .f32) (idx : IVec S320000x2 32) (hidx : ∀ j, (idx j).toNat < 10000) :
    out x idx = Cert.Pool.pooled x idx := by
  funext j
  obtain ⟨r, q, rfl⟩ : ∃ (r : Fin 330000) (q : Fin 128), j = ix2 r q := ⟨j 0, j 1, eq_ix2 j⟩
  obtain ⟨rv, hrv⟩ := r
  unfold out
  by_cases h : rv < 10000
  · -- a row of the table
    rw [concatenate_pair_apply_left 0 x (mids x idx) _ (ix2 ⟨rv, hrv⟩ q) rfl (ix2 (⟨rv, h⟩ : Fin 10000) q) (fun b => by
      match b with
      | ⟨0, _⟩ => rfl
      | ⟨1, _⟩ => rfl)]
    exact (Cert.Pool.pooled_table x idx ⟨rv, h⟩ q).symm
  · -- a midpoint row
    obtain ⟨ev, rfl⟩ : ∃ ev, rv = 10000 + ev := ⟨rv - 10000, by omega⟩
    have hev : ev < 320000 := by omega
    rw [concatenate_pair_apply_right 0 x (mids x idx) _ (ix2 ⟨10000 + ev, hrv⟩ q) rfl rfl (ix2 (⟨ev, hev⟩ : Fin 320000) q)
      (fun b hb => by
        match b, hb with
        | ⟨0, _⟩, hb => exact absurd rfl hb
        | ⟨1, _⟩, _ => rfl)
      (by show ev + 10000 = 10000 + ev; omega)]
    rw [mids_apply x idx hidx]
    exact (Cert.Pool.pooled_mid x idx ⟨ev, hev⟩ q).symm

end Cert.Proof.Ref

end
-- ==== Proof.RefRun.lean ====
import proofs.«208565_g47476568490134_cont_8to1_c_213_4_alg».proof.Proof.RefValue
import Idealize.ShloMosaic.Lib.StableHlo.Run

/-!
# The reference's run

From any memory with zero counters, if every word of the pair list is below 10000 as a natural
number, every weakly fair execution of the reference terminates; at the end the result buffer holds
the table followed by the midpoints of the listed pairs of rows, and the two input buffers hold what
they held at the start.
-/

noncomputable section

namespace Cert.Proof.Ref

open Idealize.ShloMosaic Idealize.ShloMosaic.TcCoe Idealize.SL.Sem Idealize.ShloMosaic.StableHlo

/-- The run of the reference at the extended reals, read at the result and the two inputs. -/
theorem run (m : (ℓ : Loc Cert.ReferenceIdeal.nD Cert.ReferenceIdeal.τ Cert.ReferenceIdeal.sig) → Buf (Elt Ideal) ℓ)
    (ρ : Dev Cert.ReferenceIdeal.nD → PrngReg)
    (hidx : ∀ c : Dev Cert.ReferenceIdeal.nD, ∀ j,
      ((m ((c.tc : Thread Cert.ReferenceIdeal.nD Cert.ReferenceIdeal.τ).loc Cert.ReferenceIdeal.main_arg1)) j).toNat < 10000) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread Cert.ReferenceIdeal.nD Cert.ReferenceIdeal.τ).loc Cert.ReferenceIdeal.main_v4)
          = Cert.Pool.pooled (F := Ideal) (m ((c.tc : Thread _ _).loc Cert.ReferenceIdeal.main_arg0))
              (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run Cert.ReferenceIdeal.defs _ _).mono
    (fun _ h c => ⟨(h c Cert.ReferenceIdeal.main_v4).trans ((out_eq _).trans (out_eq_pooled _ _ (hidx c))),
      (h c Cert.ReferenceIdeal.main_arg0).trans (arg0_eq _),
      (h c Cert.ReferenceIdeal.main_arg1).trans (arg1_eq _)⟩)
    (run_main m ρ)

end Cert.Proof.Ref

end
-- ==== Proof.KernelIdealSetup.lean ====
import proofs.«208565_g47476568490134_cont_8to1_c_213_4_alg».proof.KernelIdeal
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic
import proofs.«208565_g47476568490134_cont_8to1_c_213_4_alg».proof.Proof.Gen.KernelIdeal
import proofs.«208565_g47476568490134_cont_8to1_c_213_4_alg».proof.Proof.Gen.KernelIdeal.Skeleton
import proofs.«208565_g47476568490134_cont_8to1_c_213_4_alg».proof.Proof.PoolSpec

/-!
# The pooling kernel as the launch theorem sees it

Thirty-two vector subcores share the work: subcore `s` of SparseCore `c` is worker `w = 2 s + c`.
Worker `w` copies rows `[400 w, 400 w + 400)` of the table into the result when `w < 25`, and for
each of its 125 chunks `k` writes the 80 midpoint rows `[10000 + 10000 w + 80 k, … + 80)` of the
result. Every worker reads the table and the two index columns, so those go out as read shares;
the result goes out cut into exactly the pieces each worker writes, and comes back at the
specified contents.
-/

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the buffers and their contents -/

variable (m : (ℓ : Loc nD τ sig) → Buf (Elt F) ℓ) (ρ : Dev nD → PrngReg)

/-- The table `x`, the pairs `pool_idx`, its two columns as the host hands them to the kernel, and the result. -/
abbrev xLoc (d : Dev nD) : Loc nD τ sig := (SparseCore.T d).loc main_arg0
abbrev pLoc (d : Dev nD) : Loc nD τ sig := (SparseCore.T d).loc main_arg1
abbrev i0Loc (d : Dev nD) : Loc nD τ sig := (SparseCore.T d).loc main_v1
abbrev i1Loc (d : Dev nD) : Loc nD τ sig := (SparseCore.T d).loc main_v3
abbrev oLoc (d : Dev nD) : Loc nD τ sig := (SparseCore.T d).loc main_v4

abbrev xV : Memref sig .scVector .hbm S10000x128 .f32 := Memref.whole main_arg0_scv
abbrev i0V : Memref sig .scVector .hbm S320000 .i32 := Memref.whole main_v1_scv
abbrev i1V : Memref sig .scVector .hbm S320000 .i32 := Memref.whole main_v3_scv
abbrev oV : Memref sig .scVector .hbm S330000x128 .f32 := Memref.whole main_v4_scv
/-- A worker's scratch: its 10000 indices of each column, the two gathered blocks, the block of midpoints. -/
abbrev sI0 : Memref sig .scVector .vmem S10000 .i32 := Memref.whole cc0_scratch0
abbrev sI1 : Memref sig .scVector .vmem S10000 .i32 := Memref.whole cc0_scratch1
abbrev sA : Memref sig .scVector .vmem S80x128 .f32 := Memref.whole cc0_scratch2
abbrev sB : Memref sig .scVector .vmem S80x128 .f32 := Memref.whole cc0_scratch3
abbrev sO : Memref sig .scVector .vmem S80x128 .f32 := Memref.whole cc0_scratch4

/-- Column `j` of the pairs: entry `e` is word `j` of pair `e`. -/
def col (p : IVec S320000x2 32) (j : Fin 2) : IVec S320000 32 :=
  fun e => p (ix2 (⟨(e 0).val, (e 0).isLt⟩ : Fin 320000) j)

variable [FloatOps F]

/-- What the result holds at the end: the table followed by the midpoints of the listed pairs of rows. -/
def G (d : Dev nD) : Buf (Elt F) (oLoc d) := Cert.Pool.pooled (F := F) (m (xLoc d)) (m (pLoc d))

/-- What the proof asks of the launch memory: every word of the pairs names a row of the table. -/
def PreOK : Prop := ∀ (d : Dev nD) j, ((m (pLoc d) : IVec S320000x2 32) j).toNat < 10000

/-! ## The pieces of the result a worker writes -/

def coordsV (c : Fin (grid0.bound 0)) (s : Fin (grid0.bound 1)) : grid0.Coords :=
  fun | 0 => c | 1 => s | ⟨_ + 2, h⟩ => absurd h (Nat.not_lt.2 (Nat.le_add_left _ _))

/-- The 400 rows of the table a worker below 25 copies, as the kernel slices them out of the result. -/
abbrev outHead (L : grid0.Coords) (h : k0_cond1 L = 1#1) : Memref sig .scVector .hbm S400x128 .f32 :=
  (oV : Memref sig .scVector .hbm S330000x128 .f32).slice (Rect.unit (s := S330000x128) (k0_off1 L) S400x128.size (k0_off1_inb L h)) (fun _ => rfl)
/-- Chunk `k`'s 80 midpoint rows, as the kernel slices them out of the result. -/
abbrev outChunk (L : grid0.Coords) (k : Fin k0_t1_loop.trips) : Memref sig .scVector .hbm S80x128 .f32 :=
  (oV : Memref sig .scVector .hbm S330000x128 .f32).slice (Rect.unit (s := S330000x128) (k0_off13 L k) S80x128.size (k0_off13_inb L k)) (fun _ => rfl)

/-- The result's elements worker `L` owns, at contents `f`. -/
def outPieces (d : Dev nD) (L : grid0.Coords) (f : Buf (Elt F) (oLoc d)) : sProp 𝕄 :=
  iprop((if h : k0_cond1 L = 1#1 then (oLoc d ↦[(outHead L h).view.set]{fullShare} f : sProp 𝕄) else iprop(emp))
    ∗ bigSep Finset.univ fun k : Fin k0_t1_loop.trips => (oLoc d ↦[(outChunk L k).view.set]{fullShare} f : sProp 𝕄))

/-! ## The read shares -/

/-- A SparseCore's share of what every worker reads, and a worker's share of that. -/
abbrev shC (c : Fin 2) : PosShare TreeShare := pieceOf fullShare 2 (by decide) c
abbrev shT (c : Fin 2) (i : Fin 16) : PosShare TreeShare := pieceOf (shC c) 16 (by decide) i

/-- The table and the two index columns, whole, at share `q`. -/
def reads (d : Dev nD) (q : PosShare TreeShare) : sProp 𝕄 :=
  iprop((xLoc d ↦{q} m (xLoc d)) ∗ (i0Loc d ↦{q} col (m (pLoc d)) 0) ∗ (i1Loc d ↦{q} col (m (pLoc d)) 1))

/-! ## What the handshakes carry -/

/-- The one call hands each SparseCore its share of the reads and its sixteen workers' pieces of the result, each
    worker its share and its pieces, and brings them back, the pieces at the specified contents. -/
def P : (K (F := F)).Pay (nD := nD) (Val := Elt F) (Name := ℕ) (U := UU) where
  st := fun q d c => match q with
    | 0 => iprop(reads m d (shC (Fin.cast nCore_zero c))
        ∗ bigSep Finset.univ fun i : Fin 16 => outPieces d (coordsV (Fin.cast nCore_zero c) i) (m (oLoc d)))
  dn := fun q d c => match q with
    | 0 => iprop(reads m d (shC (Fin.cast nCore_zero c))
        ∗ bigSep Finset.univ fun i : Fin 16 => outPieces d (coordsV (Fin.cast nCore_zero c) i) (G m d))
  go := fun q d c i => match q with
    | 0 => iprop(reads m d (shT (Fin.cast nCore_zero c) (Fin.cast nSub_zero i))
        ∗ outPieces d (coordsV (Fin.cast nCore_zero c) (Fin.cast nSub_zero i)) (m (oLoc d)))
  td := fun q d c i => match q with
    | 0 => iprop(reads m d (shT (Fin.cast nCore_zero c) (Fin.cast nSub_zero i))
        ∗ outPieces d (coordsV (Fin.cast nCore_zero c) (Fin.cast nSub_zero i)) (G m d))
  x := fun _ _ => iprop(emp)

instance outPieces_storable (d : Dev nD) (L : grid0.Coords) (f : Buf (Elt F) (oLoc d)) :
    BI.Storable (upEmb : UEmb _ 𝕄) (outPieces (F := F) d L f) := by
  unfold outPieces; split <;> infer_instance

instance reads_storable (d : Dev nD) (q : PosShare TreeShare) : BI.Storable (upEmb : UEmb _ 𝕄) (reads (F := F) m d q) := by
  unfold reads; infer_instance

/-- A separating conjunction of storable assertions over a finite family is storable. -/
theorem storable_family {I : Type} (s : Finset I) (Φ : I → sProp 𝕄) (h : ∀ i, BI.Storable (upEmb : UEmb _ 𝕄) (Φ i)) :
    BI.Storable (upEmb : UEmb _ 𝕄) (bigSep s Φ) := by
  classical
  induction s using Finset.induction_on with
  | empty => exact BI.Storable.emp _
  | insert i s hi ih => rw [BI.bigSep_insert hi]; exact @BI.Storable.sep _ _ _ _ _ _ _ _ (h i) ih

instance outAll_storable (d : Dev nD) (c : Fin (grid0.bound 0)) (f : Buf (Elt F) (oLoc d)) :
    BI.Storable (upEmb : UEmb _ 𝕄) (bigSep Finset.univ fun i : Fin 16 => outPieces (F := F) d (coordsV c i) f) :=
  storable_family _ _ fun i => outPieces_storable d (coordsV c i) f

instance P_storable : (P (F := F) m).IsStorable where
  st q d c := match q with
    | 0 => (inferInstance : BI.Storable (upEmb : UEmb _ 𝕄) iprop(reads m d (shC (Fin.cast nCore_zero c))
        ∗ bigSep Finset.univ fun i : Fin 16 => outPieces d (coordsV (Fin.cast nCore_zero c) i) (m (oLoc d))))
  dn q d c := match q with
    | 0 => (inferInstance : BI.Storable (upEmb : UEmb _ 𝕄) iprop(reads m d (shC (Fin.cast nCore_zero c))
        ∗ bigSep Finset.univ fun i : Fin 16 => outPieces d (coordsV (Fin.cast nCore_zero c) i) (G m d)))
  go q d c i := match q with
    | 0 => (inferInstance : BI.Storable (upEmb : UEmb _ 𝕄) iprop(reads m d (shT (Fin.cast nCore_zero c) (Fin.cast nSub_zero i))
        ∗ outPieces d (coordsV (Fin.cast nCore_zero c) (Fin.cast nSub_zero i)) (m (oLoc d))))
  td q d c i := match q with
    | 0 => (inferInstance : BI.Storable (upEmb : UEmb _ 𝕄) iprop(reads m d (shT (Fin.cast nCore_zero c) (Fin.cast nSub_zero i))
        ∗ outPieces d (coordsV (Fin.cast nCore_zero c) (Fin.cast nSub_zero i)) (G m d)))

end Cert.Proof.KernelIdealRun

end
-- ==== Proof.Assembly.lean ====
import proofs.«208565_g47476568490134_cont_8to1_c_213_4_alg».proof.Defs
import proofs.«208565_g47476568490134_cont_8to1_c_213_4_alg».proof.Proof.Gen.Kernel
import proofs.«208565_g47476568490134_cont_8to1_c_213_4_alg».proof.Proof.Gen.KernelIdeal
import proofs.«208565_g47476568490134_cont_8to1_c_213_4_alg».proof.Proof.Gen.ReferenceIdeal
import proofs.«208565_g47476568490134_cont_8to1_c_213_4_alg».proof.Proof.Gen.Pre_input_domain
import proofs.«208565_g47476568490134_cont_8to1_c_213_4_alg».proof.Proof.PoolSpec
import proofs.«208565_g47476568490134_cont_8to1_c_213_4_alg».proof.Proof.PreRange
import proofs.«208565_g47476568490134_cont_8to1_c_213_4_alg».proof.Proof.RefRun
import proofs.«208565_g47476568490134_cont_8to1_c_213_4_alg».proof.Proof.KernelIdealSetup

/-!
# The claim from the two kernel runs

Given that the kernel as printed runs and leaves its inputs unchanged, and that the kernel read at
the extended reals runs, leaves its inputs unchanged and ends with the table followed by the
midpoints of the listed pairs of rows in its result, every conjunct of the claim follows.  The
precondition gives that every word of the pair list names a row of the table; under it the
reference ends with the same array in its result, computed from inputs that agree with the
kernel's, so the two results are equal entry by entry.
-/

noncomputable section

namespace Cert.Proof.Assembly

open Idealize.ShloMosaic Idealize.SL.Sem

/-- Under the precondition, on every device every word of the pair list is below 10000. -/
theorem preOK_ideal (m : (ℓ : Loc Cert.KernelIdeal.nD Cert.KernelIdeal.τ Cert.KernelIdeal.sig) → Buf (Elt Ideal) ℓ)
    (h : Cert.Pre_KernelIdeal m) : Cert.Proof.KernelIdealRun.PreOK (F := Ideal) m :=
  fun d j => Cert.PreRange.idx_lt _ _ (h d) j

/-- The five conjuncts: the three programs run and leave their inputs unchanged; the idealization
rewrote nothing; and the idealized kernel and the idealized reference, from inputs that agree, end
with one and the same result, the table followed by the midpoints. -/
theorem claim_of
    (runK : ∀ (m : (ℓ : Loc Cert.Kernel.nD Cert.Kernel.τ Cert.Kernel.sig) → Buf (Elt Bits) ℓ) (g : Dev Cert.Kernel.nD → PrngReg),
      Cert.Pre_Kernel m →
        θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_arg0) = m ((c.tc : Thread _ _).loc Cert.Kernel.main_arg0)
          ∧ r.2.mem ((c.tc : Thread _ _).loc Cert.Kernel.main_arg1) = m ((c.tc : Thread _ _).loc Cert.Kernel.main_arg1)))
    (runKI : ∀ (m : (ℓ : Loc Cert.KernelIdeal.nD Cert.KernelIdeal.τ Cert.KernelIdeal.sig) → Buf (Elt Ideal) ℓ) (g : Dev Cert.KernelIdeal.nD → PrngReg),
      Cert.Pre_KernelIdeal m →
        θ_run (Cert.KernelIdeal.defs (F := Ideal)) (Cert.KernelIdeal.threads (F := Ideal)) ⟨m, fun _ => 0, g⟩ (fun r => ∀ c : Dev Cert.KernelIdeal.nD,
          r.2.mem (Cert.Proof.KernelIdealRun.oLoc c) = Cert.Proof.KernelIdealRun.G (F := Ideal) m c
          ∧ r.2.mem (Cert.Proof.KernelIdealRun.xLoc c) = m (Cert.Proof.KernelIdealRun.xLoc c)
          ∧ r.2.mem (Cert.Proof.KernelIdealRun.pLoc c) = m (Cert.Proof.KernelIdealRun.pLoc c))) :
    Cert.Claim := by
  refine ⟨Cert.Kernel.Gen.facts, Cert.KernelIdeal.Gen.facts, Cert.ReferenceIdeal.Gen.facts, Cert.Pre_input_domain.Gen.facts,
    runK, ?_, ?_, trivial, ?_⟩
  · -- the idealized kernel's run, its result forgotten
    intro m g h
    exact (θ_run _ _ _).mono (fun _ hr c => ⟨(hr c).2.1, (hr c).2.2⟩) (runKI m g h)
  · -- the reference's run, its result forgotten
    intro m g h
    exact (θ_run _ _ _).mono (fun _ hr c => (hr c).2)
      (Cert.Proof.Ref.run m g (fun c j => Cert.PreRange.idx_lt _ _ (h c) j))
  · -- both results are the table followed by the midpoints, of inputs that agree
    intro m g m' g' h hagree
    have hidx : ∀ c : Dev Cert.ReferenceIdeal.nD, ∀ j,
        ((m' ((c.tc : Thread Cert.ReferenceIdeal.nD Cert.ReferenceIdeal.τ).loc Cert.ReferenceIdeal.main_arg1)) j).toNat < 10000 := by
      intro c j
      have hk := Cert.PreRange.idx_lt _ _ (h c) j
      have e := congrFun (hagree c).2 j
      rw [e]
      exact hk
    refine ⟨fun c => Cert.Proof.KernelIdealRun.G (F := Ideal) m c, runKI m g h, ?_⟩
    refine (θ_run _ _ _).mono (fun _ hr c => ⟨(hr c).1.trans ?_, (hr c).2⟩) (Cert.Proof.Ref.run m' g' hidx)
    rw [(hagree c).1, (hagree c).2]
    rfl

end Cert.Proof.Assembly

end
-- ==== Proof.KernelIdealPieces.lean ====
import proofs.«208565_g47476568490134_cont_8to1_c_213_4_alg».proof.Proof.KernelIdealSetup

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-!
# The result, cut into the pieces the workers write

Worker `w = 2 s + c` owns rows `[400 w, 400 w + 400)` of the result when `w < 25` and, for each chunk `k < 125`,
rows `[10000 + 10000 w + 80 k, … + 80)`. Membership in a piece is two inequalities on the row coordinate; the pieces
are pairwise disjoint and cover every row: a row `r < 10000` lies in worker `r / 400`'s first piece
(`25 · 400 = 10000`), a row `r ≥ 10000` with `e = r - 10000` in worker `e / 10000`'s chunk `(e % 10000) / 80`
(`32 · 125 · 80 = 320000`).
-/

theorem trips_eq : k0_t1_loop.trips = 125 := by decide

/-- The kernel's test `w < 25`, in closed form over the grid. -/
theorem cond1_iff : ∀ L : grid0.Coords, k0_cond1 L = 1#1 ↔ 2 * (L 1).val + (L 0).val < 25 := by decide +kernel

/-- An element lies in a worker's first piece when its row lies in the worker's 400 rows of the table. -/
theorem mem_head (L : grid0.Coords) (h : k0_cond1 L = 1#1) (x : S330000x128.Idx) :
    x ∈ (outHead L h).view.set ↔ 800 * (L 1).val + 400 * (L 0).val ≤ (x 0).val ∧ (x 0).val < 800 * (L 1).val + 400 * (L 0).val + 400 := by
  show x ∈ ((View.whole main_v4_scv).slice (Rect.unit (s := S330000x128) (k0_off1 L) S400x128.size (k0_off1_inb L h))).set ↔ _
  rw [View.set_slice_whole, Rect.mem_set_unit, k0_off1_eq]
  show (∀ a : Fin 2, _) ↔ _
  rw [Fin.forall_fin_two]
  have h1 : (x 1).val < 128 := (x 1).isLt
  simp only [Matrix.cons_val_zero, Matrix.cons_val_one]
  constructor
  · rintro ⟨⟨a, b⟩, -⟩; exact ⟨a, b⟩
  · rintro ⟨a, b⟩; exact ⟨⟨a, b⟩, Nat.zero_le _, by omega⟩

/-- An element lies in chunk `k` of a worker when its row lies in that chunk's 80 rows. -/
theorem mem_chunk (L : grid0.Coords) (k : Fin k0_t1_loop.trips) (x : S330000x128.Idx) :
    x ∈ (outChunk L k).view.set ↔ 20000 * (L 1).val + 10000 * (L 0).val + 80 * k.val + 10000 ≤ (x 0).val
      ∧ (x 0).val < 20000 * (L 1).val + 10000 * (L 0).val + 80 * k.val + 10000 + 80 := by
  show x ∈ ((View.whole main_v4_scv).slice (Rect.unit (s := S330000x128) (k0_off13 L k) S80x128.size (k0_off13_inb L k))).set ↔ _
  rw [View.set_slice_whole, Rect.mem_set_unit, k0_off13_eq]
  show (∀ a : Fin 2, _) ↔ _
  rw [Fin.forall_fin_two]
  have h1 : (x 1).val < 128 := (x 1).isLt
  simp only [Matrix.cons_val_zero, Matrix.cons_val_one]
  constructor
  · rintro ⟨⟨a, b⟩, -⟩; exact ⟨a, b⟩
  · rintro ⟨a, b⟩; exact ⟨⟨a, b⟩, Nat.zero_le _, by omega⟩

/-- The pieces' names: a worker (SparseCore, subcore) and either its first piece (`none`) or one of its chunks. -/
abbrev PT : Type := Fin 2 × Fin 16 × Option (Fin k0_t1_loop.trips)

/-- The elements of a piece; a worker from 25 on has no first piece. -/
def pset (t : PT) : Finset S330000x128.Idx :=
  match t.2.2 with
  | none => if h : k0_cond1 (coordsV t.1 t.2.1) = 1#1 then (outHead (coordsV t.1 t.2.1) h).view.set else ∅
  | some k => (outChunk (coordsV t.1 t.2.1) k).view.set

theorem pset_none (c : Fin 2) (i : Fin 16) :
    pset (c, i, none) = if h : k0_cond1 (coordsV c i) = 1#1 then (outHead (coordsV c i) h).view.set else ∅ := rfl
theorem pset_some (c : Fin 2) (i : Fin 16) (k : Fin k0_t1_loop.trips) : pset (c, i, some k) = (outChunk (coordsV c i) k).view.set := rfl

theorem mem_pset_none (c : Fin 2) (i : Fin 16) (x : S330000x128.Idx) :
    x ∈ pset (c, i, none) ↔ 2 * i.val + c.val < 25 ∧ 400 * (2 * i.val + c.val) ≤ (x 0).val ∧ (x 0).val < 400 * (2 * i.val + c.val) + 400 := by
  have e0 : ((coordsV c i) 0).val = c.val := rfl
  have e1 : ((coordsV c i) 1).val = i.val := rfl
  rw [pset_none]
  by_cases h : k0_cond1 (coordsV c i) = 1#1
  · rw [dif_pos h, mem_head]
    have h' := (cond1_iff _).1 h
    omega
  · rw [dif_neg h]
    have h' := mt (cond1_iff _).2 h
    simp only [Finset.notMem_empty, false_iff]
    omega

theorem mem_pset_some (c : Fin 2) (i : Fin 16) (k : Fin k0_t1_loop.trips) (x : S330000x128.Idx) :
    x ∈ pset (c, i, some k) ↔ 10000 + 10000 * (2 * i.val + c.val) + 80 * k.val ≤ (x 0).val
      ∧ (x 0).val < 10000 + 10000 * (2 * i.val + c.val) + 80 * k.val + 80 := by
  have e0 : ((coordsV c i) 0).val = c.val := rfl
  have e1 : ((coordsV c i) 1).val = i.val := rfl
  rw [pset_some, mem_chunk]
  omega

/-- Two different pieces share no element: a common row would give both the same worker and the same chunk. -/
theorem pset_disjoint : ∀ t ∈ (Finset.univ : Finset PT), ∀ t' ∈ (Finset.univ : Finset PT), t ≠ t' → Disjoint (pset t) (pset t') := by
  rintro ⟨c, i, o⟩ - ⟨c', i', o'⟩ - hne
  rw [Finset.disjoint_left]
  intro x hx hx'
  apply hne
  have hc := c.isLt
  have hc' := c'.isLt
  have hi := i.isLt
  have hi' := i'.isLt
  cases o with
  | none =>
    cases o' with
    | none =>
      rw [mem_pset_none] at hx hx'
      obtain rfl : c = c' := Fin.ext (by omega)
      obtain rfl : i = i' := Fin.ext (by omega)
      rfl
    | some k' =>
      rw [mem_pset_none] at hx; rw [mem_pset_some] at hx'
      omega
  | some k =>
    have hk : k.val < 125 := Nat.lt_of_lt_of_le k.isLt (le_of_eq trips_eq)
    cases o' with
    | none =>
      rw [mem_pset_some] at hx; rw [mem_pset_none] at hx'
      omega
    | some k' =>
      have hk' : k'.val < 125 := Nat.lt_of_lt_of_le k'.isLt (le_of_eq trips_eq)
      rw [mem_pset_some] at hx hx'
      obtain rfl : c = c' := Fin.ext (by omega)
      obtain rfl : i = i' := Fin.ext (by omega)
      obtain rfl : k = k' := Fin.ext (by omega)
      rfl

/-- Every element lies in a piece. -/
theorem pset_cover : (Finset.univ : Finset PT).biUnion pset = Finset.univ := by
  rw [Finset.eq_univ_iff_forall]
  intro x
  rw [Finset.mem_biUnion]
  have hx0 : (x 0).val < 330000 := (x 0).isLt
  by_cases hr : (x 0).val < 10000
  · refine ⟨(⟨((x 0).val / 400) % 2, by omega⟩, ⟨((x 0).val / 400) / 2, by omega⟩, none), Finset.mem_univ _, ?_⟩
    rw [mem_pset_none]; dsimp only; omega
  · refine ⟨(⟨(((x 0).val - 10000) / 10000) % 2, by omega⟩, ⟨(((x 0).val - 10000) / 10000) / 2, by omega⟩,
      some ⟨(((x 0).val - 10000) % 10000) / 80, by rw [trips_eq]; omega⟩), Finset.mem_univ _, ?_⟩
    rw [mem_pset_some]; dsimp only; omega

/-- A family over the pieces of one worker is its first piece's member and its chunks'. -/
theorem bigSep_option {α : Type} [Fintype α] (Φ : Option α → sProp 𝕄) :
    bigSep Finset.univ Φ = iprop(Φ none ∗ bigSep Finset.univ fun a => Φ (some a)) := by
  classical
  rw [show (Finset.univ : Finset (Option α)) = insert none (Finset.univ.map Function.Embedding.some) from by
      ext o; cases o <;> simp, bigSep_insert (by simp), bigSep_map]
  rfl

/-- The result whole is every worker's pieces of it. -/
theorem out_split (d : Dev nD) (f : Buf (Elt F) (oLoc d)) :
    (oLoc d ↦{fullShare} f : sProp 𝕄)
      = bigSep Finset.univ fun c : Fin 2 => bigSep Finset.univ fun i : Fin 16 => outPieces (F := F) d (coordsV c i) f := by
  have h1 : (oLoc d ↦{fullShare} f : sProp 𝕄) = bigSep Finset.univ fun t : PT => oLoc d ↦[pset t]{fullShare} f := by
    rw [← pointsTo_biUnion Finset.univ (ℓ := oLoc d) pset pset_disjoint, pset_cover]; try rfl
  rw [h1, bigSep_univ_prod]
  refine bigSep_congr fun c _ => ?_
  rw [bigSep_univ_prod]
  refine bigSep_congr fun i _ => ?_
  rw [bigSep_option]
  have e1 : (oLoc d ↦[pset (c, i, none)]{fullShare} f : sProp 𝕄)
      = (if h : k0_cond1 (coordsV c i) = 1#1 then (oLoc d ↦[(outHead (coordsV c i) h).view.set]{fullShare} f : sProp 𝕄) else iprop(emp)) := by
    rw [pset_none]
    by_cases h : k0_cond1 (coordsV c i) = 1#1
    · rw [dif_pos h, dif_pos h]
    · rw [dif_neg h, dif_neg h, pointsTo_empty]
  unfold outPieces
  rw [e1]
  simp only [pset_some]

end Cert.Proof.KernelIdealRun

end
-- ==== Proof.KernelIdealLaunch.lean ====
import proofs.«208565_g47476568490134_cont_8to1_c_213_4_alg».proof.Proof.KernelIdealPieces
import Idealize.ShloMosaic.Lib.Pipeline.Value

/-!
# The launch of the pooling kernel

The TensorCore cuts the pairs into their two columns (a slice and a reshape each), hands the two SparseCores their shares
of the table and the columns and their workers' pieces of the result, and takes them back, the result at the specified
contents. A SparseCore hands each of its sixteen workers a share of its share and that worker's pieces.
-/

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after after_cons after_nil)

variable {F : FTy → Type}

local notation "𝕄" => MT nD τ sig (HIx 1) (Elt F) ℕ UU ℕ

variable (m : (ℓ : Loc nD τ sig) → Buf (Elt F) ℓ) (ρ : Dev nD → PrngReg)

/-! ## The two columns, as the host computes them -/

/-- The reshape of the slice of the pairs at column `n`, read at entry `e`, is word `n` of pair `e`: the entry has
    the row-major position of `(e, 0)` in the slice, which is `(e, n)` of the pairs. -/
theorem col_read (p : IVec S320000x2 32) (n : Nat) (hn : n < 2) (hs : S320000x2.Slices ![0, n] S320000x1)
    (hc : S320000x1.ShapeCasts S320000) (e : S320000.Idx) :
    shapeCast S320000 (extractStridedSlice S320000x1 ![0, n] p hs) hc e = col p ⟨n, hn⟩ e := by
  have he : (e 0).val < 320000 := (e 0).isLt
  refine (shapeCast_apply _ hc e (ix2 (⟨(e 0).val, he⟩ : Fin 320000) (0 : Fin 1)) ?_).trans ?_
  · rw [Shape.rowMajor_val_two, Shape.rowMajor_val_one]
    show (e 0).val * 1 + 0 = (e 0).val
    omega
  · exact extractStridedSlice_apply _ p hs _ (ix2 (⟨(e 0).val, he⟩ : Fin 320000) (⟨n, hn⟩ : Fin 2)) fun a =>
      match a with
      | ⟨0, _⟩ => by show (e 0).val = 0 + (e 0).val; omega
      | ⟨1, _⟩ => by show n = n + 0; rfl

/-! ## A share of the reads, cut -/

variable [FloatOps F]

/-- The reads at a share are the reads at its pieces. -/
theorem reads_pieces (d : Dev nD) (q : PosShare TreeShare) {o : ℕ} (ho : 0 < o) :
    reads (F := F) m d q = bigSep Finset.univ fun j : Fin o => reads (F := F) m d (pieceOf q o ho j) := by
  unfold reads
  have hx : (xLoc d ↦{q} m (xLoc d) : sProp 𝕄) = bigSep Finset.univ fun j : Fin o => xLoc d ↦{pieceOf q o ho j} m (xLoc d) :=
    pointsTo_piecesOf _ _ ho q
  have h0 : (i0Loc d ↦{q} col (m (pLoc d)) 0 : sProp 𝕄) = bigSep Finset.univ fun j : Fin o => i0Loc d ↦{pieceOf q o ho j} col (m (pLoc d)) 0 :=
    pointsTo_piecesOf _ _ ho q
  have h1 : (i1Loc d ↦{q} col (m (pLoc d)) 1 : sProp 𝕄) = bigSep Finset.univ fun j : Fin o => i1Loc d ↦{pieceOf q o ho j} col (m (pLoc d)) 1 :=
    pointsTo_piecesOf _ _ ho q
  rw [bigSep_sep', bigSep_sep', ← hx, ← h0, ← h1]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem P_st (d : Dev nD) (c : Fin ((K (F := F)).nCore 0)) :
    (P (F := F) m).st 0 d c = iprop(reads m d (shC (Fin.cast nCore_zero c))
      ∗ bigSep Finset.univ fun i : Fin 16 => outPieces d (coordsV (Fin.cast nCore_zero c) i) (m (oLoc d))) := rfl
theorem P_dn (d : Dev nD) (c : Fin ((K (F := F)).nCore 0)) :
    (P (F := F) m).dn 0 d c = iprop(reads m d (shC (Fin.cast nCore_zero c))
      ∗ bigSep Finset.univ fun i : Fin 16 => outPieces d (coordsV (Fin.cast nCore_zero c) i) (G m d)) := rfl
theorem P_go (d : Dev nD) (c : Fin ((K (F := F)).nCore 0)) (i : Fin ((K (F := F)).nSub 0)) :
    (P (F := F) m).go 0 d c i = iprop(reads m d (shT (Fin.cast nCore_zero c) (Fin.cast nSub_zero i))
      ∗ outPieces d (coordsV (Fin.cast nCore_zero c) (Fin.cast nSub_zero i)) (m (oLoc d))) := rfl
theorem P_td (d : Dev nD) (c : Fin ((K (F := F)).nCore 0)) (i : Fin ((K (F := F)).nSub 0)) :
    (P (F := F) m).td 0 d c i = iprop(reads m d (shT (Fin.cast nCore_zero c) (Fin.cast nSub_zero i))
      ∗ outPieces d (coordsV (Fin.cast nCore_zero c) (Fin.cast nSub_zero i)) (G m d)) := rfl

/-! ## A SparseCore's share among its workers -/

/-- A SparseCore's share of the reads is its sixteen workers' shares; the pieces of the result are already per worker.
    The split is an equality, and the join is the same equality at the specified contents. -/
theorem vecSplit : (K (F := F)).VecSplit' (P m) 0 := by
  intro d c
  have hgo : (bigSep Finset.univ fun i : Fin ((K (F := F)).nSub 0) => (P (F := F) m).go 0 d c i)
      = bigSep Finset.univ fun i : Fin 16 => iprop(reads m d (shT (Fin.cast nCore_zero c) i) ∗ outPieces d (coordsV (Fin.cast nCore_zero c) i) (m (oLoc d))) :=
    bigSep_tasks (F := F) fun i => iprop(reads m d (shT (Fin.cast nCore_zero c) i) ∗ outPieces d (coordsV (Fin.cast nCore_zero c) i) (m (oLoc d)))
  have htd : (bigSep Finset.univ fun i : Fin ((K (F := F)).nSub 0) => (P (F := F) m).td 0 d c i)
      = bigSep Finset.univ fun i : Fin 16 => iprop(reads m d (shT (Fin.cast nCore_zero c) i) ∗ outPieces d (coordsV (Fin.cast nCore_zero c) i) (G m d)) :=
    bigSep_tasks (F := F) fun i => iprop(reads m d (shT (Fin.cast nCore_zero c) i) ∗ outPieces d (coordsV (Fin.cast nCore_zero c) i) (G m d))
  rw [hgo, htd, P_st, P_dn, bigSep_sep', bigSep_sep', ← reads_pieces m d (shC (Fin.cast nCore_zero c)) (o := 16) (by decide)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = iprop(emp) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## @main on the TensorCore -/

abbrev rX : DevRef τ sig := Proc.devRef .tc (main_arg0 : Ref sig .tc)
abbrev rP : DevRef τ sig := Proc.devRef .tc (main_arg1 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

/-- The TensorCore's arrays, all unscoped: the table, the pairs, the two slices, the two columns, the result. -/
abbrev S7 : Finset (DevRef τ sig) := {rX, rP, r0, r1, r2, r3, r4}

/-- The host's four operations: column 0 sliced out of the pairs and flattened, then column 1. -/
abbrev op0 : HloOp τ sig (Elt F) :=
  StableHlo.unary main_arg1 main_v0 ((extractStridedSlice S320000x1 ![0, 0] · slices_S320000x2_S320000x1_0_0) : (⟨S320000x2, .i32⟩ : BufTy).Contents (Elt F) → (⟨S320000x1, .i32⟩ : BufTy).Contents (Elt F))
abbrev op1 : HloOp τ sig (Elt F) := StableHlo.reshape main_v0 main_v1 rfl shapeCasts_S320000x1_S320000
abbrev op2 : HloOp τ sig (Elt F) :=
  StableHlo.unary main_arg1 main_v2 ((extractStridedSlice S320000x1 ![0, 1] · slices_S320000x2_S320000x1_0_1) : (⟨S320000x2, .i32⟩ : BufTy).Contents (Elt F) → (⟨S320000x1, .i32⟩ : BufTy).Contents (Elt F))
abbrev op3 : HloOp τ sig (Elt F) := StableHlo.reshape main_v2 main_v3 rfl shapeCasts_S320000x1_S320000

omit [FloatOps F] in
theorem held_S7 (d : Dev nD) (W : Valuation τ sig (Elt F)) :
    (held (T d) S7 W : sProp 𝕄) = iprop((xLoc d ↦{fullShare} W rX) ∗ (pLoc d ↦{fullShare} W rP) ∗ ((SparseCore.T d).loc main_v0 ↦{fullShare} W r0)
      ∗ (i0Loc d ↦{fullShare} W r1) ∗ ((SparseCore.T d).loc main_v2 ↦{fullShare} W r2) ∗ (i1Loc d ↦{fullShare} W r3) ∗ (oLoc d ↦{fullShare} W r4)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ ((SparseCore.T d).loc main_v0 ↦{fullShare} W main_v0)
      ∗ (i0Loc d ↦{fullShare} W main_v1) ∗ ((SparseCore.T d).loc main_v2 ↦{fullShare} W main_v2) ∗ (i1Loc d ↦{fullShare} W main_v3) ∗ (oLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and what the four operations make of it. -/
def V0 (d : Dev nD) : Valuation τ sig (Elt F) := fun b => m (d, b)
def V4 (d : Dev nD) : Valuation τ sig (Elt F) := after [op0, op1, op2, op3] (V0 m d)

theorem unscoped_held (d : Dev nD) : (unscopedBufs d (fun b => m ((SparseCore.T d).loc b)) : sProp 𝕄) = held (T d) S7 (V0 m d) := by
  rw [unscopedBufs_eq, held_S7]; rfl

theorem V4_x (d : Dev nD) : V4 m d rX = m (xLoc d) := by
  unfold V4; after_results; rfl
theorem V4_p (d : Dev nD) : V4 m d rP = m (pLoc d) := by
  unfold V4; after_results; rfl
theorem V4_o (d : Dev nD) : V4 m d r4 = m (oLoc d) := by
  unfold V4; after_results; rfl
theorem V4_1 (d : Dev nD) : V4 m d r1 = col (m (pLoc d)) 0 := by
  unfold V4; after_results
  funext e
  exact col_read (m (pLoc d)) 0 (by decide) _ _ e
theorem V4_3 (d : Dev nD) : V4 m d r3 = col (m (pLoc d)) 1 := by
  unfold V4; after_results
  funext e
  exact col_read (m (pLoc d)) 1 (by decide) _ _ e

/-- After the four operations: the table, the pairs and the result as launched, the two columns in their buffers. -/
theorem held_V4 (d : Dev nD) :
    (held (T d) S7 (V4 m d) : sProp 𝕄) = iprop((xLoc d ↦{fullShare} m (xLoc d)) ∗ (pLoc d ↦{fullShare} m (pLoc d)) ∗ ((SparseCore.T d).loc main_v0 ↦{fullShare} V4 m d r0)
      ∗ (i0Loc d ↦{fullShare} col (m (pLoc d)) 0) ∗ ((SparseCore.T d).loc main_v2 ↦{fullShare} V4 m d r2) ∗ (i1Loc d ↦{fullShare} col (m (pLoc d)) 1)
      ∗ (oLoc d ↦{fullShare} m (oLoc d))) := by
  rw [held_S7, V4_x, V4_p, V4_1, V4_3, V4_o]

theorem held_V4' (d : Dev nD) :
    (held (T d) S7 ((op3 (F := F)).result ((op2 (F := F)).result ((op1 (F := F)).result ((op0 (F := F)).result (V0 m d))))) : sProp 𝕄)
      = iprop((xLoc d ↦{fullShare} m (xLoc d)) ∗ (pLoc d ↦{fullShare} m (pLoc d)) ∗ ((SparseCore.T d).loc main_v0 ↦{fullShare} V4 m d r0)
      ∗ (i0Loc d ↦{fullShare} col (m (pLoc d)) 0) ∗ ((SparseCore.T d).loc main_v2 ↦{fullShare} V4 m d r2) ∗ (i1Loc d ↦{fullShare} col (m (pLoc d)) 1)
      ∗ (oLoc d ↦{fullShare} m (oLoc d))) := held_V4 m d

theorem h0 : (op0 (F := F)).bufs ⊆ S7 := show ({rP, r0} : Finset (DevRef τ sig)) ⊆ S7 by decide
theorem h1 : (op1 (F := F)).bufs ⊆ S7 := show ({r0, r1} : Finset (DevRef τ sig)) ⊆ S7 by decide
theorem h2 : (op2 (F := F)).bufs ⊆ S7 := show ({rP, r2} : Finset (DevRef τ sig)) ⊆ S7 by decide
theorem h3 : (op3 (F := F)).bufs ⊆ S7 := show ({r2, r3} : Finset (DevRef τ sig)) ⊆ S7 by decide

/-- What the call takes for the two SparseCores — the reads and the result, whole — and what it hands back. -/
theorem st0_eq (d : Dev nD) :
    (bigSep Finset.univ fun c : Fin ((K (F := F)).nCore 0) => (P m).st 0 d c) = iprop(reads m d fullShare ∗ (oLoc d ↦{fullShare} m (oLoc d))) := by
  refine (bigSep_cores (F := F) fun c => iprop(reads m d (shC c) ∗ bigSep Finset.univ fun i : Fin 16 => outPieces d (coordsV c i) (m (oLoc d)))).trans ?_
  rw [bigSep_sep', ← reads_pieces m d fullShare (o := 2) (by decide), ← out_split]
theorem dn0_eq (d : Dev nD) :
    (bigSep Finset.univ fun c : Fin ((K (F := F)).nCore 0) => (P m).dn 0 d c) = iprop(reads m d fullShare ∗ (oLoc d ↦{fullShare} G m d)) := by
  refine (bigSep_cores (F := F) fun c => iprop(reads m d (shC c) ∗ bigSep Finset.univ fun i : Fin 16 => outPieces d (coordsV c i) (G m d))).trans ?_
  rw [bigSep_sep', ← reads_pieces m d fullShare (o := 2) (by decide), ← out_split]

/-- What @main leaves the claim: the table and the pairs as launched, the result at the specified contents. -/
abbrev FIN (d : Dev nD) : sProp 𝕄 := iprop((xLoc d ↦{fullShare} m (xLoc d)) ∗ (pLoc d ↦{fullShare} m (pLoc d)) ∗ (oLoc d ↦{fullShare} G m d))

/-- @main on device `d`'s TensorCore: the two columns cut out of the pairs, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S7) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S7) h1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S7) h2 (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S7) h3
    (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  ihave Hh := (Entails.of_eq (held_V4' (F := F) m d)) $$ Hheld
  icases Hh with ⟨Hx, Hp, -, H1, -, H3, Ho⟩
  -- the call: the reads and the result to the two SparseCores and back
  iapply ((K (F := F)).wp_run (D (F := F)) 𝒱 (EH := EH) (P := P m) κ d 0) $$ [Hst Hx Hp H1 H3 Ho]
  isplitr; · iexact Hctx
  isplitl [Hst]; · iexact Hst
  isplitl [Hx H1 H3 Ho]
  · rw [st0_eq]; unfold reads
    isplitl [Hx H1 H3]
    · isplitl [Hx]; · iexact Hx
      isplitl [H1]; · iexact H1
      iexact H3
    · iexact Ho
  iintro ⟨Hst, Hdn⟩
  ihave Hdn' := (Entails.of_eq (dn0_eq m d)) $$ Hdn
  unfold reads
  icases Hdn' with ⟨⟨Hx, -, -⟩, Ho⟩
  imodintro
  isplitl [Hst]; · iexact Hst
  isplitl [Hx]; · iexact Hx
  isplitl [Hp]; · iexact Hp
  iexact Ho

def fq (d : Dev nD) (s' : Phys nD τ sig (Elt F)) : Prop :=
  s'.mem.mem (oLoc d) = G m d ∧ s'.mem.mem (xLoc d) = m (xLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Hx, Hp, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the device's threads ends with the result at the specified contents and the two
    arguments as launched, given one worker's task proved at a symbolic place. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (oLoc c) = G m c ∧ r.2.mem (xLoc c) = m (xLoc c) ∧ r.2.mem (pLoc c) = m (pLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KernelIdealRun

end
-- ==== Proof.LibChunkFamilies.lean ====
import Idealize.SL.ProofMode.BigOp

/-!
# Families of assertions indexed by `Fin N`, cut at a threshold

For a family `Φ : Fin N → sProp M` over a unital resource algebra `M` and a number `n`,
`todo Φ n` is the separating conjunction of the members with index at least `n`, and
`done Φ n` the one of the members with index below `n`.

* At `n = 0`, `todo` is the whole family and `done` is `emp`; at any `n ≥ N` it is the other
  way round (`todo_zero`, `done_zero`, `todo_top`, `done_top`).
* For `n < N`, raising the threshold from `n` to `n + 1` moves member `n` across:
  `todo Φ n = Φ n ∗ todo Φ (n + 1)` and `done Φ (n + 1) = done Φ n ∗ Φ n`
  (`todo_peel`, `done_push`).

All six are equalities of assertions: the index set `{j | n ≤ j}` is `{n}` together with
`{j | n + 1 ≤ j}`, which does not contain `n`, and likewise `{j | j < n + 1}` is `{n}` together
with `{j | j < n}`; a separating conjunction over a set with one new member inserted is that
member's assertion times the conjunction over the set.
-/

namespace Cert.Lib.ChunkFamilies

open Idealize.SL.BI Idealize.SL.BI.BIBase

universe u

variable {M : Type u} [Idealize.SL.RA.URA M] {N : ℕ}

/-- The members of the family from index `n` on. -/
def todo (Φ : Fin N → sProp M) (n : ℕ) : sProp M :=
  bigSep (Finset.univ.filter fun j : Fin N => n ≤ j.val) Φ

/-- The members of the family below index `n`. -/
def done (Φ : Fin N → sProp M) (n : ℕ) : sProp M :=
  bigSep (Finset.univ.filter fun j : Fin N => j.val < n) Φ

variable (Φ : Fin N → sProp M)

/-- `{j | n ≤ j} = {n} ∪ {j | n + 1 ≤ j}`. -/
private theorem filter_le_eq_insert (n : ℕ) (h : n < N) :
    (Finset.univ.filter fun j : Fin N => n ≤ j.val) =
      insert (⟨n, h⟩ : Fin N) (Finset.univ.filter fun j : Fin N => n + 1 ≤ j.val) := by
  ext j
  simp only [Finset.mem_filter, Finset.mem_univ, true_and, Finset.mem_insert, Fin.ext_iff]
  omega

/-- `{j | j < n + 1} = {n} ∪ {j | j < n}`. -/
private theorem filter_lt_succ_eq_insert (n : ℕ) (h : n < N) :
    (Finset.univ.filter fun j : Fin N => j.val < n + 1) =
      insert (⟨n, h⟩ : Fin N) (Finset.univ.filter fun j : Fin N => j.val < n) := by
  ext j
  simp only [Finset.mem_filter, Finset.mem_univ, true_and, Finset.mem_insert, Fin.ext_iff]
  omega

/-- From index 0 on: the whole family. -/
theorem todo_zero : todo Φ 0 = bigSep Finset.univ Φ := by
  unfold todo
  rw [Finset.filter_true_of_mem fun j _ => Nat.zero_le j.val]

/-- For `n < N`, the members from `n` on are member `n` and the members from `n + 1` on. -/
theorem todo_peel (n : ℕ) (h : n < N) : todo Φ n = iprop(Φ ⟨n, h⟩ ∗ todo Φ (n + 1)) := by
  unfold todo
  rw [filter_le_eq_insert n h]
  exact bigSep_insert (by simp only [Finset.mem_filter, Finset.mem_univ, true_and]; omega)

/-- From an index `n ≥ N` on there is no member. -/
theorem todo_top (n : ℕ) (h : N ≤ n) : todo Φ n = iprop(emp) := by
  unfold todo
  rw [Finset.filter_false_of_mem fun j _ => by have := j.isLt; omega]
  rfl

/-- Below index 0 there is no member. -/
theorem done_zero : done Φ 0 = iprop(emp) := by
  unfold done
  rw [Finset.filter_false_of_mem fun j _ => Nat.not_lt_zero j.val]
  rfl

/-- For `n < N`, the members below `n + 1` are the members below `n` and member `n`. -/
theorem done_push (n : ℕ) (h : n < N) : done Φ (n + 1) = iprop(done Φ n ∗ Φ ⟨n, h⟩) := by
  unfold done
  rw [filter_lt_succ_eq_insert n h,
    bigSep_insert (by simp only [Finset.mem_filter, Finset.mem_univ, true_and]; omega)]
  exact Std.Commutative.comm (op := fun P Q : sProp M => Idealize.SL.BI.sep P Q) _ _

/-- Below an index `n ≥ N`: the whole family. -/
theorem done_top (n : ℕ) (h : N ≤ n) : done Φ n = bigSep Finset.univ Φ := by
  unfold done
  rw [Finset.filter_true_of_mem fun j _ => by have := j.isLt; omega]

end Cert.Lib.ChunkFamilies
-- ==== Proof.KernelIdealRows.lean ====
import proofs.«208565_g47476568490134_cont_8to1_c_213_4_alg».proof.Proof.Gen.KernelIdeal.Skeleton
import proofs.«208565_g47476568490134_cont_8to1_c_213_4_alg».proof.Proof.PoolSpec
import Idealize.ShloMosaic.Lib.Writes
import Idealize.ShloMosaic.Lib.ValueIdx
import Idealize.ShloMosaic.Lib.Pipeline.Value

/-!
# One block of 80 midpoint rows

The kernel fills its 80 × 128 block of midpoints row by row, each row in eight stores of 16 lanes:
lanes `[16 j, 16 j + 16)` of row `r` receive `(a + b) · ½` of the same lanes of row `r` of the two
gathered blocks `A` and `B`. A 16-lane group travels as a 1 × 16 row, is flattened to 16 entries
for the arithmetic and cast back; the casts keep each entry in its lane. Hence after the trips
below `n` every row below `n` of the block holds the midpoints of `A` and `B`, whatever the block
held before, and one more trip extends this to `n + 1`.
-/

noncomputable section

namespace Cert.Proof.KernelIdealRun

open Cert.KernelIdeal Cert.KernelIdeal.Gen
open Idealize.ShloMosaic Idealize.ShloMosaic.ValueIdx

variable {F : FTy → Type} [FloatOps F]

/-- The lane of a 1 × 16 row index, as an index of the flat 16-vector. -/
abbrev lane (x : S1x16.Idx) : S16.Idx := ix1 (⟨(x 1).val, (x 1).isLt⟩ : Fin 16)

theorem rowMajor_lane (x : S1x16.Idx) : (S1x16.rowMajor x).val = (S16.rowMajor (lane x)).val := by
  rw [Shape.rowMajor_val_two, Shape.rowMajor_val_one]
  have h1 : (x 0).val < 1 := (x 0).isLt
  have h0 : (x 0).val = 0 := by omega
  show (x 0).val * 16 + (x 1).val = (x 1).val
  omega

/-- A 1 × 16 row flattened reads, at a lane, the row's entry in that lane. -/
theorem flat_apply (v : Vec F S1x16 .f32) (x : S1x16.Idx) : shapeCast S16 v shapeCasts_S1x16_S16 (lane x) = v x :=
  shapeCast_apply v shapeCasts_S1x16_S16 (lane x) x (rowMajor_lane x)

/-- A flat 16-vector cast to a 1 × 16 row reads, at an index, the vector's entry in that lane. -/
theorem unflat_apply (w : FVec F S16 .f32) (x : S1x16.Idx) : shapeCast S1x16 w shapeCasts_S16_S1x16 x = w (lane x) :=
  shapeCast_apply w shapeCasts_S16_S1x16 x (lane x) (rowMajor_lane x).symm

/-- The stored 16 lanes are the midpoints of the two loaded groups, lane by lane. -/
theorem pay3_apply (va vb : Vec F S1x16 .f32) (x : S1x16.Idx) : k0_pay3 va vb x = Cert.Pool.mid (va x) (vb x) := by
  unfold k0_pay3
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay4_apply (va vb : Vec F S1x16 .f32) (x : S1x16.Idx) : k0_pay4 va vb x = Cert.Pool.mid (va x) (vb x) := by
  unfold k0_pay4
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay5_apply (va vb : Vec F S1x16 .f32) (x : S1x16.Idx) : k0_pay5 va vb x = Cert.Pool.mid (va x) (vb x) := by
  unfold k0_pay5
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay8_apply (va vb : Vec F S1x16 .f32) (x : S1x16.Idx) : k0_pay8 va vb x = Cert.Pool.mid (va x) (vb x) := by
  unfold k0_pay8
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay9_apply (va vb : Vec F S1x16 .f32) (x : S1x16.Idx) : k0_pay9 va vb x = Cert.Pool.mid (va x) (vb x) := by
  unfold k0_pay9
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay2_apply (va vb : Vec F S1x16 .f32) (x : S1x16.Idx) : k0_pay2 va vb x = Cert.Pool.mid (va x) (vb x) := by
  unfold k0_pay2
  rw [unflat_apply]
  show FloatOps.mulf (FloatOps.addf (shapeCast S16 va shapeCasts_S1x16_S16 (lane x)) (shapeCast S16 vb shapeCasts_S1x16_S16 (lane x))) _ = _
  rw [flat_apply, flat_apply]; rfl
/-- The fourth group's first operand is flattened in one part of the body and used in the next. -/
theorem pay7_apply (va vb : Vec F S1x16 .f32) (x : S1x16.Idx) : k0_pay7 (k0_pay6 va) vb x = Cert.Pool.mid (va x) (vb x) := by
  unfold k0_pay7 k0_pay6
  rw [unflat_apply]
  show FloatOps.mulf (FloatOps.addf (shapeCast S16 va shapeCasts_S1x16_S16 (lane x)) (shapeCast S16 vb shapeCasts_S1x16_S16 (lane x))) _ = _
  rw [flat_apply, flat_apply]; rfl
/-- The seventh group's sum and the constant are formed in one part of the body and multiplied in the next. -/
theorem pay1_apply (va vb : Vec F S1x16 .f32) (x : S1x16.Idx) : k0_pay1 (k0_pay10 va vb) (k0_pay11 (F := F)) x = Cert.Pool.mid (va x) (vb x) := by
  unfold k0_pay1 k0_pay10 k0_pay11
  rw [unflat_apply]
  show FloatOps.mulf (FloatOps.addf (shapeCast S16 va shapeCasts_S1x16_S16 (lane x)) (shapeCast S16 vb shapeCasts_S1x16_S16 (lane x))) _ = _
  rw [flat_apply, flat_apply]; rfl

/-- Rows below `n` of the block `fo` hold the midpoints of the blocks `A` and `B`. -/
def RowsDone (A B fo : S80x128.Idx → F .f32) (n : ℕ) : Prop :=
  ∀ y : S80x128.Idx, (y 0).val < n → fo y = Cert.Pool.mid (A y) (B y)

theorem RowsDone.zero (A B fo : S80x128.Idx → F .f32) : RowsDone A B fo 0 := fun _ h => absurd h (Nat.not_lt_zero _)

/-- Stores that all lie in row `r`, cover it, and each store the midpoints, extend the finished rows from `r` to `r + 1`. -/
theorem RowsDone.step {sig : RefSig} {κ : Kind} {sp : Space} (v : View sig κ sp S80x128 .f32)
    (A B : S80x128.Idx → F .f32) (f : v.ty.Contents (Elt F)) (r : ℕ)
    (L : List (View.Piece (Elt F) S80x128 .f32))
    (hpay : ∀ p ∈ L, ∀ x : p.1.shape.Idx, p.2 x = Cert.Pool.mid (A (p.1.emb x)) (B (p.1.emb x)))
    (hrow : ∀ p ∈ L, ∀ y : S80x128.Idx, y ∈ p.1.set → (y 0).val = r)
    (hcov : ∀ y : S80x128.Idx, (y 0).val = r → ∃ p ∈ L, y ∈ p.1.set)
    (h : RowsDone A B (v.read (Elt F) f) r) :
    RowsDone A B (v.read (Elt F) (v.writes (Elt F) f L)) (r + 1) := by
  intro y hy
  by_cases hr : (y 0).val = r
  · exact View.read_writes_apply_of_pieces (v := v) (f := f) (fun y => Cert.Pool.mid (A y) (B y)) L hpay y (hcov y hr)
  · rw [View.read_writes_apply_of_forall_not_mem (v := v) (f := f) y L fun p hp hm => hr (hrow p hp y hm)]
    exact h y (by omega)

end Cert.Proof.KernelIdealRun

end
-- ==== Proof.KernelIdealTileDefs.lean ====
import proofs.«208565_g47476568490134_cont_8to1_c_213_4_alg».proof.Proof.KernelIdealSetup
import proofs.«208565_g47476568490134_cont_8to1_c_213_4_alg».proof.Proof.LibChunkFamilies
import proofs.«208565_g47476568490134_cont_8to1_c_213_4_alg».proof.Proof.KernelIdealRows
import Idealize.ShloMosaic.Lib.Writes

/-!
# One worker's task: its storage, its invariants

A vector subcore's own storage is the kernel's five scratch buffers and six DMA semaphores. The
task copies its 10000 words of each index column into two scratches, then runs 125 chunks; a chunk
gathers 80 rows of the table under each column's words into two blocks (two gathers in flight at
once, each reading the table under its own half of the worker's read share), fills the third block
with the midpoints row by row, and copies it out to the chunk's 80 rows of the result.
The chunk loop's invariant keeps the chunks not yet written at the launch contents and the written
ones at the specified contents; the row loop's keeps the rows below the current one at the midpoints.
-/

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- One of the subcore's DMA semaphores, as a cell of the device. -/
abbrev cell (d : Dev nD) (L : grid0.Coords) (s : DmaSems sig S_) : GSem nD τ sig := (V d (cV L) (jV L), .dma s.sem)

omit [FloatOps F] in
/-- A vector subcore's own semaphores at zero are the kernel's six DMA semaphores at zero and the rest. -/
theorem ownSems0_V :
    (ownSems0 (V d (cV L) (jV L)) : sProp 𝕄)
      = iprop(semVal (cell d L cc0_scratch5) 0 ∗ semVal (cell d L cc0_scratch6) 0 ∗ semVal (cell d L cc0_scoped0) 0 ∗ semVal (cell d L cc0_scoped1) 0 ∗ semVal (cell d L cc0_scoped2) 0 ∗ semVal (cell d L cc0_scoped3) 0
          ∗ bigSep (((((((ownCells (V d (cV L) (jV L))).erase (cell d L cc0_scratch5)).erase (cell d L cc0_scratch6)).erase (cell d L cc0_scoped0)).erase (cell d L cc0_scoped1)).erase (cell d L cc0_scoped2)).erase (cell d L cc0_scoped3)) fun g => semVal g 0) := by
  unfold SparseCore.Cfg.ownSems0
  rw [SparseCore.bigSep_erase' ((mem_ownCells (g := cell d L cc0_scratch5)).mpr ⟨rfl, by show (SemLoc.dma cc0_scratch5.sem : SemLoc sig).isScoped .scVector = true; decide⟩),
    SparseCore.bigSep_erase' (Finset.mem_erase.mpr ⟨fun e => absurd (Prod.mk.inj e).2 (show (SemLoc.dma cc0_scratch6.sem : SemLoc sig) ≠ SemLoc.dma cc0_scratch5.sem by decide), (mem_ownCells (g := cell d L cc0_scratch6)).mpr ⟨rfl, by show (SemLoc.dma cc0_scratch6.sem : SemLoc sig).isScoped .scVector = true; decide⟩⟩),
    SparseCore.bigSep_erase' (Finset.mem_erase.mpr ⟨fun e => absurd (Prod.mk.inj e).2 (show (SemLoc.dma cc0_scoped0.sem : SemLoc sig) ≠ SemLoc.dma cc0_scratch6.sem by decide), Finset.mem_erase.mpr ⟨fun e => absurd (Prod.mk.inj e).2 (show (SemLoc.dma cc0_scoped0.sem : SemLoc sig) ≠ SemLoc.dma cc0_scratch5.sem by decide), (mem_ownCells (g := cell d L cc0_scoped0)).mpr ⟨rfl, by show (SemLoc.dma cc0_scoped0.sem : SemLoc sig).isScoped .scVector = true; decide⟩⟩⟩),
    SparseCore.bigSep_erase' (Finset.mem_erase.mpr ⟨fun e => absurd (Prod.mk.inj e).2 (show (SemLoc.dma cc0_scoped1.sem : SemLoc sig) ≠ SemLoc.dma cc0_scoped0.sem by decide), Finset.mem_erase.mpr ⟨fun e => absurd (Prod.mk.inj e).2 (show (SemLoc.dma cc0_scoped1.sem : SemLoc sig) ≠ SemLoc.dma cc0_scratch6.sem by decide), Finset.mem_erase.mpr ⟨fun e => absurd (Prod.mk.inj e).2 (show (SemLoc.dma cc0_scoped1.sem : SemLoc sig) ≠ SemLoc.dma cc0_scratch5.sem by decide), (mem_ownCells (g := cell d L cc0_scoped1)).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (show (SemLoc.dma cc0_scoped2.sem : SemLoc sig) ≠ SemLoc.dma cc0_scoped1.sem by decide), Finset.mem_erase.mpr ⟨fun e => absurd (Prod.mk.inj e).2 (show (SemLoc.dma cc0_scoped2.sem : SemLoc sig) ≠ SemLoc.dma cc0_scoped0.sem by decide), Finset.mem_erase.mpr ⟨fun e => absurd (Prod.mk.inj e).2 (show (SemLoc.dma cc0_scoped2.sem : SemLoc sig) ≠ SemLoc.dma cc0_scratch6.sem by decide), Finset.mem_erase.mpr ⟨fun e => absurd (Prod.mk.inj e).2 (show (SemLoc.dma cc0_scoped2.sem : SemLoc sig) ≠ SemLoc.dma cc0_scratch5.sem by decide), (mem_ownCells (g := cell d L cc0_scoped2)).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (show (SemLoc.dma cc0_scoped3.sem : SemLoc sig) ≠ SemLoc.dma cc0_scoped2.sem by decide), Finset.mem_erase.mpr ⟨fun e => absurd (Prod.mk.inj e).2 (show (SemLoc.dma cc0_scoped3.sem : SemLoc sig) ≠ SemLoc.dma cc0_scoped1.sem by decide), Finset.mem_erase.mpr ⟨fun e => absurd (Prod.mk.inj e).2 (show (SemLoc.dma cc0_scoped3.sem : SemLoc sig) ≠ SemLoc.dma cc0_scoped0.sem by decide), Finset.mem_erase.mpr ⟨fun e => absurd (Prod.mk.inj e).2 (show (SemLoc.dma cc0_scoped3.sem : SemLoc sig) ≠ SemLoc.dma cc0_scratch6.sem by decide), Finset.mem_erase.mpr ⟨fun e => absurd (Prod.mk.inj e).2 (show (SemLoc.dma cc0_scoped3.sem : SemLoc sig) ≠ SemLoc.dma cc0_scratch5.sem by decide), (mem_ownCells (g := cell d L cc0_scoped3)).mpr ⟨rfl, by show (SemLoc.dma cc0_scoped3.sem : SemLoc sig).isScoped .scVector = true; decide⟩⟩⟩⟩⟩⟩)]

omit [FloatOps F] in
/-- A vector subcore's own buffers are the kernel's five scratch buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

omit [FloatOps F] in
theorem pts_x (q : PosShare TreeShare) (f : Buf (Elt F) (xLoc d)) :
    ((xV : Memref sig .scVector .hbm S10000x128 .f32).view.loc (V d (cV L) (jV L)) ↦{q} f : sProp 𝕄) = xLoc d ↦{q} f := rfl
omit [FloatOps F] in
theorem pts_i0 (q : PosShare TreeShare) (f : Buf (Elt F) (i0Loc d)) :
    ((i0V : Memref sig .scVector .hbm S320000 .i32).view.loc (V d (cV L) (jV L)) ↦{q} f : sProp 𝕄) = i0Loc d ↦{q} f := rfl
omit [FloatOps F] in
theorem pts_i1 (q : PosShare TreeShare) (f : Buf (Elt F) (i1Loc d)) :
    ((i1V : Memref sig .scVector .hbm S320000 .i32).view.loc (V d (cV L) (jV L)) ↦{q} f : sProp 𝕄) = i1Loc d ↦{q} f := rfl
omit [FloatOps F] in
theorem pts_sI0 (f : Buf (Elt F) ((V d (cV L) (jV L)).loc cc0_scratch0)) :
    ((sI0 : Memref sig .scVector .vmem S10000 .i32).view.loc (V d (cV L) (jV L)) ↦{fullShare} f : sProp 𝕄) = (V d (cV L) (jV L)).loc cc0_scratch0 ↦{fullShare} f := rfl
omit [FloatOps F] in
theorem pts_sI1 (f : Buf (Elt F) ((V d (cV L) (jV L)).loc cc0_scratch1)) :
    ((sI1 : Memref sig .scVector .vmem S10000 .i32).view.loc (V d (cV L) (jV L)) ↦{fullShare} f : sProp 𝕄) = (V d (cV L) (jV L)).loc cc0_scratch1 ↦{fullShare} f := rfl
omit [FloatOps F] in
theorem pts_sA (f : Buf (Elt F) ((V d (cV L) (jV L)).loc cc0_scratch2)) :
    ((sA : Memref sig .scVector .vmem S80x128 .f32).view.loc (V d (cV L) (jV L)) ↦{fullShare} f : sProp 𝕄) = (V d (cV L) (jV L)).loc cc0_scratch2 ↦{fullShare} f := rfl
omit [FloatOps F] in
theorem pts_sB (f : Buf (Elt F) ((V d (cV L) (jV L)).loc cc0_scratch3)) :
    ((sB : Memref sig .scVector .vmem S80x128 .f32).view.loc (V d (cV L) (jV L)) ↦{fullShare} f : sProp 𝕄) = (V d (cV L) (jV L)).loc cc0_scratch3 ↦{fullShare} f := rfl
omit [FloatOps F] in
theorem pts_sO (f : Buf (Elt F) ((V d (cV L) (jV L)).loc cc0_scratch4)) :
    ((sO : Memref sig .scVector .vmem S80x128 .f32).view.loc (V d (cV L) (jV L)) ↦{fullShare} f : sProp 𝕄) = (V d (cV L) (jV L)).loc cc0_scratch4 ↦{fullShare} f := rfl
omit [FloatOps F] in
theorem pts_chunk (k : Fin k0_t1_loop.trips) (f : Buf (Elt F) (oLoc d)) :
    ((outChunk L k).view.loc (V d (cV L) (jV L)) ↦[(outChunk L k).view.set]{fullShare} f : sProp 𝕄) = oLoc d ↦[(outChunk L k).view.set]{fullShare} f := rfl
omit [FloatOps F] in
theorem pts_head (h : k0_cond1 L = 1#1) (f : Buf (Elt F) (oLoc d)) :
    ((outHead L h).view.loc (V d (cV L) (jV L)) ↦[(outHead L h).view.set]{fullShare} f : sProp 𝕄) = oLoc d ↦[(outHead L h).view.set]{fullShare} f := rfl

omit [FloatOps F] in
theorem outPieces_pos (f : Buf (Elt F) (oLoc d)) (h : k0_cond1 L = 1#1) :
    (outPieces (F := F) d L f : sProp 𝕄) = iprop((oLoc d ↦[(outHead L h).view.set]{fullShare} f : sProp 𝕄)
      ∗ bigSep Finset.univ fun k : Fin k0_t1_loop.trips => (oLoc d ↦[(outChunk L k).view.set]{fullShare} f : sProp 𝕄)) := by
  unfold outPieces; rw [dif_pos h]
omit [FloatOps F] in
theorem outPieces_neg (f : Buf (Elt F) (oLoc d)) (h : ¬ k0_cond1 L = 1#1) :
    (outPieces (F := F) d L f : sProp 𝕄) = iprop(emp
      ∗ bigSep Finset.univ fun k : Fin k0_t1_loop.trips => (oLoc d ↦[(outChunk L k).view.set]{fullShare} f : sProp 𝕄)) := by
  unfold outPieces; rw [dif_neg h]

/-! ## The loops' invariants -/

/-- The worker's 10000 words of each index column, as the kernel slices them out of the column. -/
abbrev idxSlice0 (L : grid0.Coords) : Memref sig .scVector .hbm S10000 .i32 :=
  (i0V : Memref sig .scVector .hbm S320000 .i32).slice (Rect.unit (s := S320000) (k0_off3 L) S10000.size (k0_off3_inb L)) (fun _ => rfl)
abbrev idxSlice1 (L : grid0.Coords) : Memref sig .scVector .hbm S10000 .i32 :=
  (i1V : Memref sig .scVector .hbm S320000 .i32).slice (Rect.unit (s := S320000) (k0_off3 L) S10000.size (k0_off3_inb L)) (fun _ => rfl)

/-- What the worker's two index scratches hold once its copies have landed. -/
def J0 : Buf (Elt F) ((V d (cV L) (jV L)).loc cc0_scratch0) := (idxSlice0 L).view.read (Elt F) (col (m (pLoc d)) 0)
def J1 : Buf (Elt F) ((V d (cV L) (jV L)).loc cc0_scratch1) := (idxSlice1 L).view.read (Elt F) (col (m (pLoc d)) 1)

/-- Chunk `k`'s 80 words of a scratch, as the kernel slices them for a gather's offsets. -/
abbrev offs0 (k : Fin k0_t1_loop.trips) : Memref sig .scVector .vmem S80 .i32 :=
  (sI0 : Memref sig .scVector .vmem S10000 .i32).slice (Rect.unit (s := S10000) (k0_off4 k) S80.size (k0_off4_inb k)) (fun _ => rfl)
abbrev offs1 (k : Fin k0_t1_loop.trips) : Memref sig .scVector .vmem S80 .i32 :=
  (sI1 : Memref sig .scVector .vmem S10000 .i32).slice (Rect.unit (s := S10000) (k0_off4 k) S80.size (k0_off4_inb k)) (fun _ => rfl)

omit [FloatOps F] in
theorem write_sI0 (f w : Buf (Elt F) ((V d (cV L) (jV L)).loc cc0_scratch0)) :
    View.write (Elt F) (sI0 : Memref sig .scVector .vmem S10000 .i32).view f w Finset.univ = w := View.write_whole_univ _ _ _
omit [FloatOps F] in
theorem write_sI1 (f w : Buf (Elt F) ((V d (cV L) (jV L)).loc cc0_scratch1)) :
    View.write (Elt F) (sI1 : Memref sig .scVector .vmem S10000 .i32).view f w Finset.univ = w := View.write_whole_univ _ _ _
omit [FloatOps F] in
theorem write_sA (f w : Buf (Elt F) ((V d (cV L) (jV L)).loc cc0_scratch2)) :
    View.write (Elt F) (sA : Memref sig .scVector .vmem S80x128 .f32).view f w Finset.univ = w := View.write_whole_univ _ _ _
omit [FloatOps F] in
theorem write_sB (f w : Buf (Elt F) ((V d (cV L) (jV L)).loc cc0_scratch3)) :
    View.write (Elt F) (sB : Memref sig .scVector .vmem S80x128 .f32).view f w Finset.univ = w := View.write_whole_univ _ _ _

omit [FloatOps F] in
/-- A read share of the table is its two halves: the two gathers of a chunk read the table at once, each under its own half. -/
theorem x_halves (q : PosShare TreeShare) (f : Buf (Elt F) (xLoc d)) :
    ((xV : Memref sig .scVector .hbm S10000x128 .f32).view.loc (V d (cV L) (jV L)) ↦{q} f : sProp 𝕄)
      = iprop(((xV : Memref sig .scVector .hbm S10000x128 .f32).view.loc (V d (cV L) (jV L)) ↦{q.left} f)
          ∗ ((xV : Memref sig .scVector .hbm S10000x128 .f32).view.loc (V d (cV L) (jV L)) ↦{q.right} f)) :=
  BI.Entails.antisymm (pointsTo_share (PosShare.mem_left_op_right q)).1 (pointsTo_share (PosShare.mem_left_op_right q)).2

/-- Chunk `k`'s piece of the result at contents `f`. -/
def chunkAt (f : Buf (Elt F) (oLoc d)) (k : Fin k0_t1_loop.trips) : sProp 𝕄 :=
  (oLoc d ↦[(outChunk L k).view.set]{fullShare} f : sProp 𝕄)

/-- Before row `n` of a chunk: the two gathered blocks as they landed, the block of midpoints finished below row `n`. -/
def invRow (A : Buf (Elt F) ((V d (cV L) (jV L)).loc cc0_scratch2)) (B : Buf (Elt F) ((V d (cV L) (jV L)).loc cc0_scratch3))
    (n : Nat) (_ : Unit) : sProp 𝕄 :=
  iprop(((sA : Memref sig .scVector .vmem S80x128 .f32).view.loc (V d (cV L) (jV L)) ↦{fullShare} A)
    ∗ ((sB : Memref sig .scVector .vmem S80x128 .f32).view.loc (V d (cV L) (jV L)) ↦{fullShare} B)
    ∗ ∃ fo : Buf (Elt F) ((V d (cV L) (jV L)).loc cc0_scratch4),
        ((sO : Memref sig .scVector .vmem S80x128 .f32).view.loc (V d (cV L) (jV L)) ↦{fullShare} fo) ∗ ⌜RowsDone (F := F) A B fo n⌝)

/-- Before chunk `n`: the table's share, the index scratches at the worker's words, the three blocks at some contents, the
    semaphores at zero, the chunks from `n` on still at the launch contents and those below `n` at the specified ones. -/
def invChunk (q : PosShare TreeShare) (O : CellTallies nD τ sig (HIx 1)) (W : Waits sig (HIx 1)) (n : Nat) (_ : Unit) : sProp 𝕄 :=
  iprop(Transfers.MayWaits (V d (cV L) (jV L)) (none : HIx 1) O
    ∗ ((xV : Memref sig .scVector .hbm S10000x128 .f32).view.loc (V d (cV L) (jV L)) ↦{q.left} m (xLoc d))
    ∗ ((xV : Memref sig .scVector .hbm S10000x128 .f32).view.loc (V d (cV L) (jV L)) ↦{q.right} m (xLoc d))
    ∗ ((sI0 : Memref sig .scVector .vmem S10000 .i32).view.loc (V d (cV L) (jV L)) ↦{fullShare} J0 m d L)
    ∗ ((sI1 : Memref sig .scVector .vmem S10000 .i32).view.loc (V d (cV L) (jV L)) ↦{fullShare} J1 m d L)
    ∗ (∃ fa, (sA : Memref sig .scVector .vmem S80x128 .f32).view.loc (V d (cV L) (jV L)) ↦{fullShare} fa)
    ∗ (∃ fb, (sB : Memref sig .scVector .vmem S80x128 .f32).view.loc (V d (cV L) (jV L)) ↦{fullShare} fb)
    ∗ (∃ fo, (sO : Memref sig .scVector .vmem S80x128 .f32).view.loc (V d (cV L) (jV L)) ↦{fullShare} fo)
    ∗ semVal (cell d L cc0_scratch5) 0 ∗ semVal (cell d L cc0_scratch6) 0 ∗ semVal (cell d L cc0_scoped3) 0
    ∗ Cert.Lib.ChunkFamilies.todo (chunkAt (F := F) d L (m (oLoc d))) n
    ∗ Cert.Lib.ChunkFamilies.done (chunkAt (F := F) d L (G m d)) n
    ∗ ∃ W', ⌜∀ p ∈ W', p ∈ W ∨ p.2 = none⌝ ∗ owes (V d (cV L) (jV L)) O W')

omit [FloatOps F] in
/-- A 1 × 16 store at row `r`, lanes from `c`, holds exactly the entries of row `r` in lanes `[c, c + 16)`. -/
theorem lane_mem (r c : ℕ) (off : Fin 2 → ℕ) (hoff : off = ![r, c]) (inb : ∀ a, off a + S1x16.size a ≤ S80x128.size a) (y : S80x128.Idx) :
    y ∈ (Rect.unit (s := S80x128) off S1x16.size inb).set ↔ (y 0).val = r ∧ c ≤ (y 1).val ∧ (y 1).val < c + 16 := by
  subst hoff
  rw [Rect.mem_set_unit]
  constructor
  · intro h
    have h0 := h 0
    have h1 := h 1
    have e0 : (![r, c] : Fin 2 → ℕ) 0 = r := rfl
    have e1 : (![r, c] : Fin 2 → ℕ) 1 = c := rfl
    have s0 : S1x16.size 0 = 1 := rfl
    have s1 : S1x16.size 1 = 16 := rfl
    rw [e0, s0] at h0; rw [e1, s1] at h1
    omega
  · rintro ⟨h0, h1, h2⟩ a
    match a with
    | ⟨0, _⟩ => show r ≤ (y 0).val ∧ (y 0).val < r + 1; omega
    | ⟨1, _⟩ => show c ≤ (y 1).val ∧ (y 1).val < c + 16; omega

/-- The step of the finished rows, at the midpoint scratch: its view is the whole buffer, which reads as its contents. -/
theorem rows_step_sO (A B fo : S80x128.Idx → F .f32) (r : ℕ) (Lp : List (View.Piece (Elt F) S80x128 .f32))
    (hpay : ∀ p ∈ Lp, ∀ x : p.1.shape.Idx, p.2 x = Cert.Pool.mid (A (p.1.emb x)) (B (p.1.emb x)))
    (hrow : ∀ p ∈ Lp, ∀ y : S80x128.Idx, y ∈ p.1.set → (y 0).val = r)
    (hcov : ∀ y : S80x128.Idx, (y 0).val = r → ∃ p ∈ Lp, y ∈ p.1.set)
    (h : RowsDone A B fo r) :
    RowsDone A B ((sO : Memref sig .scVector .vmem S80x128 .f32).view.writes (Elt F) fo Lp) (r + 1) :=
  RowsDone.step (sO : Memref sig .scVector .vmem S80x128 .f32).view A B fo r Lp hpay hrow hcov h

end Tile
end Cert.Proof.KernelIdealRun
end
-- ==== Proof.LibReadWritesWhole.lean ====
import Idealize.ShloMosaic.Lib.Writes

/-!
# One write through the whole rectangle, read back

`View.writes v Val f L` is the contents of a view's buffer after the listed unmasked writes `L`
over the contents `f`, each a rectangle of the view's shape with a payload indexed by that
rectangle's own shape.  When the list is ONE write through the whole rectangle of the shape,
the view reads back the payload: the whole rectangle places every index at itself, and an
element under the last write reads that write's payload.

The whole rectangle's own shape `(Rect.whole s).shape` is the shape `s` by computation (same rank,
same sizes), so a payload `w : (Rect.whole s).shape.Idx → Val e` is a function on `s.Idx`, and
the statements below typecheck without casts: pointwise (`read_writes_whole_apply`), as an
equality of functions (`read_writes_whole`), and for the view of a memref's unit-stride slice
at a rectangle `R`, whose shape is `R.shape` (`read_writes_whole_slice`, an instance of the first).
-/

namespace Cert.Lib.ReadWritesWhole

open Idealize.ShloMosaic

variable {sig : RefSig} {κ : Kind} {sp : Space} {s : Shape} {e : EltTy} {Val : EltTy → Type}

/-- After one write of `w` through the whole rectangle, the view reads `w x` at every index `x`. -/
theorem read_writes_whole_apply (v : View sig κ sp s e) (f : v.ty.Contents Val)
    (w : (Rect.whole s).shape.Idx → Val e) (x : (Rect.whole s).shape.Idx) :
    v.read Val (v.writes Val f [⟨Rect.whole s, w⟩]) x = w x := by
  -- the whole rectangle places `x` at `x`; an element under the last write reads its payload
  have h := v.read_writes_cons_emb f (Rect.whole s) w [] x
  rwa [Rect.emb_whole_apply] at h

/-- After one write of `w` through the whole rectangle, the view reads `w`. -/
theorem read_writes_whole (v : View sig κ sp s e) (f : v.ty.Contents Val)
    (w : (Rect.whole s).shape.Idx → Val e) :
    v.read Val (v.writes Val f [⟨Rect.whole s, w⟩]) = w :=
  funext fun x => read_writes_whole_apply v f w x

/-- The same for the view of a memref's slice at a unit-stride rectangle `R`: its shape is `R.shape`,
    and the write is through the whole rectangle of that shape. -/
theorem read_writes_whole_slice (M : Memref sig κ sp s e) (R : Rect s) (hh : ∀ a, R.stride a = 1)
    (f : (M.slice R hh).view.ty.Contents Val) (w : (Rect.whole R.shape).shape.Idx → Val e)
    (x : (Rect.whole R.shape).shape.Idx) :
    (M.slice R hh).view.read Val ((M.slice R hh).view.writes Val f [⟨Rect.whole R.shape, w⟩]) x = w x :=
  read_writes_whole_apply (M.slice R hh).view f w x

end Cert.Lib.ReadWritesWhole
-- ==== Proof.KernelIdealTileValue.lean ====
import proofs.«208565_g47476568490134_cont_8to1_c_213_4_alg».proof.Proof.KernelIdealTileDefs
import proofs.«208565_g47476568490134_cont_8to1_c_213_4_alg».proof.Proof.LibReadWritesWhole
import Idealize.ShloMosaic.Lib.SparseCore.Stream

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-!
## What a chunk's blocks hold, entry by entry

Worker `L` works on the pairs `[wOff L, wOff L + 10000)`. Word `j` of its first index scratch is
word 0 of pair `wOff L + j`; chunk `k`'s offsets are words `[80 k, 80 k + 80)` of the scratch; so row
`p` of the first gathered block is the table's row named by word 0 of pair `wOff L + 80 k + p`, and the
same for the second block and word 1. The words lie below 10000, so the row they name is the row
the specification reads.
-/

/-- The pairs, as an array of words. -/
abbrev pairs : IVec S320000x2 32 := m (pLoc d)
/-- The table, as an array of entries. -/
abbrev table : FVec F S10000x128 .f32 := m (xLoc d)

/-- The first pair the worker reads. -/
def wOff (L : grid0.Coords) : ℕ := 20000 * (L 1).val + 10000 * (L 0).val

omit [FloatOps F] in
theorem wOff_le : wOff L + 10000 ≤ 320000 := by
  have h0 : (L 0).val < 2 := (L 0).isLt
  have h1 : (L 1).val < 16 := (L 1).isLt
  unfold wOff; omega

omit [FloatOps F] in
theorem trips1_le (k : Fin k0_t1_loop.trips) : k.val < 125 := Nat.lt_of_lt_of_le k.isLt k0_t1_abs.2.1

/-- Pair number `wOff L + j`, for a position `j` in the worker's 10000. -/
abbrev pairAt (j : ℕ) (hj : j < 10000) : Fin 320000 := ⟨wOff L + j, by have := wOff_le L; omega⟩

omit [FloatOps F] in
theorem J0_apply (j : S10000.Idx) :
    J0 m d L j = pairs m d (ix2 (pairAt L (j 0).val (j 0).isLt) (0 : Fin 2)) := by
  refine ((View.read_apply _ _).trans (cast_eq _ _)).trans ?_
  show col (m (pLoc d)) 0 ((idxSlice0 L).view.emb j) = _
  unfold col
  refine congrArg (pairs m d) (congrArg (fun t : Fin 320000 => ix2 t (0 : Fin 2)) (Fin.ext ?_))
  show k0_off3 L 0 + 1 * (j 0).val = wOff L + (j 0).val
  rw [k0_off3_eq]
  show (20000 * (L 1).val + 10000 * (L 0).val) + 1 * (j 0).val = wOff L + (j 0).val
  unfold wOff; omega

omit [FloatOps F] in
theorem J1_apply (j : S10000.Idx) :
    J1 m d L j = pairs m d (ix2 (pairAt L (j 0).val (j 0).isLt) (1 : Fin 2)) := by
  refine ((View.read_apply _ _).trans (cast_eq _ _)).trans ?_
  show col (m (pLoc d)) 1 ((idxSlice1 L).view.emb j) = _
  unfold col
  refine congrArg (pairs m d) (congrArg (fun t : Fin 320000 => ix2 t (1 : Fin 2)) (Fin.ext ?_))
  show k0_off3 L 0 + 1 * (j 0).val = wOff L + (j 0).val
  rw [k0_off3_eq]
  show (20000 * (L 1).val + 10000 * (L 0).val) + 1 * (j 0).val = wOff L + (j 0).val
  unfold wOff; omega

omit [FloatOps F] in
/-- Chunk `k`'s offsets read word `80 k + x` of the scratch. -/
theorem offs0_read (k : Fin k0_t1_loop.trips) (f : Buf (Elt F) ((V d (cV L) (jV L)).loc cc0_scratch0)) (x : S80.Idx) :
    (offs0 k).view.read (Elt F) f x = f ((offs0 k).view.emb x) := (View.read_apply _ _).trans (cast_eq _ _)
omit [FloatOps F] in
theorem offs1_read (k : Fin k0_t1_loop.trips) (f : Buf (Elt F) ((V d (cV L) (jV L)).loc cc0_scratch1)) (x : S80.Idx) :
    (offs1 k).view.read (Elt F) f x = f ((offs1 k).view.emb x) := (View.read_apply _ _).trans (cast_eq _ _)
omit [FloatOps F] in
theorem offs0_emb (k : Fin k0_t1_loop.trips) (x : S80.Idx) : (((offs0 k).view.emb x) 0).val = 80 * k.val + (x 0).val := by
  show k0_off4 k 0 + 1 * (x 0).val = _
  rw [k0_off4_eq]
  show 80 * k.val + 1 * (x 0).val = _
  omega
omit [FloatOps F] in
theorem offs1_emb (k : Fin k0_t1_loop.trips) (x : S80.Idx) : (((offs1 k).view.emb x) 0).val = 80 * k.val + (x 0).val := by
  show k0_off4 k 0 + 1 * (x 0).val = _
  rw [k0_off4_eq]
  show 80 * k.val + 1 * (x 0).val = _
  omega

omit [FloatOps F] in
/-- The words a gather reads as offsets name rows of the table. -/
theorem hin0 (hpre : PreOK m) (k : Fin k0_t1_loop.trips) (x : S80.Idx) :
    (((offs0 k).view.read (Elt F) (J0 m d L)) x).toNat < 10000 := by
  rw [offs0_read, J0_apply]; exact hpre d _
omit [FloatOps F] in
theorem hin1 (hpre : PreOK m) (k : Fin k0_t1_loop.trips) (x : S80.Idx) :
    (((offs1 k).view.read (Elt F) (J1 m d L)) x).toNat < 10000 := by
  rw [offs1_read, J1_apply]; exact hpre d _

/-! ## The gathered blocks -/

/-- The table as the kernel slices it for a gather's source: the whole of it. -/
abbrev xSlice : Memref sig .scVector .hbm S10000x128 .f32 :=
  (xV : Memref sig .scVector .hbm S10000x128 .f32).slice (Rect.unit (s := S10000x128) ![0, 0] S10000x128.size inb_S10000x128_S10000x128_0_0) (fun _ => rfl)

/-- What chunk `k`'s first gather delivers: row `p` is the table's row named by word `80 k + p` of the first index scratch. -/
def GA (k : Fin k0_t1_loop.trips) (h : ∀ x, (((offs0 k).view.read (Elt F) (J0 m d L)) x).toNat < S10000x128.size (gathers_S10000x128_S80x128).axis) :
    S80x128.Idx → F .f32 :=
  SparseCore.gatherPayload gathers_S10000x128_S80x128 ((xSlice).view.read (Elt F) (m (xLoc d)))
    (SparseCore.rows ((offs0 k).view.read (Elt F) (J0 m d L)) rfl h)
/-- The same for the second gather and the second index scratch. -/
def GB (k : Fin k0_t1_loop.trips) (h : ∀ x, (((offs1 k).view.read (Elt F) (J1 m d L)) x).toNat < S10000x128.size (gathers_S10000x128_S80x128).axis) :
    S80x128.Idx → F .f32 :=
  SparseCore.gatherPayload gathers_S10000x128_S80x128 ((xSlice).view.read (Elt F) (m (xLoc d)))
    (SparseCore.rows ((offs1 k).view.read (Elt F) (J1 m d L)) rfl h)

omit [FloatOps F] in
/-- One write through the whole rectangle of a gathered block reads back as what was written. -/
theorem writes_whole_sA (f : Buf (Elt F) ((V d (cV L) (jV L)).loc cc0_scratch2)) (w : S80x128.Idx → F .f32) :
    (sA : Memref sig .scVector .vmem S80x128 .f32).view.writes (Elt F) f [⟨Rect.whole S80x128, w⟩] = w :=
  Cert.Lib.ReadWritesWhole.read_writes_whole (sA : Memref sig .scVector .vmem S80x128 .f32).view f w
omit [FloatOps F] in
theorem writes_whole_sB (f : Buf (Elt F) ((V d (cV L) (jV L)).loc cc0_scratch3)) (w : S80x128.Idx → F .f32) :
    (sB : Memref sig .scVector .vmem S80x128 .f32).view.writes (Elt F) f [⟨Rect.whole S80x128, w⟩] = w :=
  Cert.Lib.ReadWritesWhole.read_writes_whole (sB : Memref sig .scVector .vmem S80x128 .f32).view f w

end Tile
end Cert.Proof.KernelIdealRun
end
-- ==== Proof.KernelIdealChunkValue.lean ====
import proofs.«208565_g47476568490134_cont_8to1_c_213_4_alg».proof.Proof.KernelIdealTileValue

/-!
# The value of one chunk

Element `x` of chunk `k` of worker `L` is row `10000 + e`, column `x 1`, of the result, with
`e = wOff L + 80 k + x 0` a pair number. The first gathered block holds there the table at the row named
by word 0 of pair `e` (offset `x 0` of the chunk's 80-word list is word `80 k + x 0` of the scratch,
which is word 0 of pair `e`), the second the same with word 1; the words lie below 10000, so the row
each names is the row the specification reads, and the midpoint of the two entries is the
specified entry.
-/

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- At rank one the index at row-major position `p` has coordinate `p`. -/
theorem rm1_symm_val {n : ℕ} (p : Fin (⟨1, ![n]⟩ : Shape).numel) : (((⟨1, ![n]⟩ : Shape).rowMajor.symm p) 0).val = p.val := by
  have h := Shape.rowMajor_val_one ((⟨1, ![n]⟩ : Shape).rowMajor.symm p)
  rw [Equiv.apply_symm_apply] at h
  exact h.symm

theorem chunkPair_lt (k : Fin k0_t1_loop.trips) (x : S80x128.Idx) : 80 * k.val + (x 0).val < 10000 := by
  have h1 := trips1_le k
  have h2 : (x 0).val < 80 := idx2_lt0 x
  omega

/-- The pair whose midpoint is row `x 0` of chunk `k`. -/
abbrev chunkPair (k : Fin k0_t1_loop.trips) (x : S80x128.Idx) : Fin 320000 := pairAt L (80 * k.val + (x 0).val) (chunkPair_lt k x)

/-- The row the first gather reads for element `x`: word 0 of the element's pair. -/
theorem rowsA_val (k : Fin k0_t1_loop.trips)
    (hA : ∀ x, (((offs0 k).view.read (Elt F) (J0 m d L)) x).toNat < S10000x128.size (gathers_S10000x128_S80x128).axis) (x : S80x128.Idx) :
    (SparseCore.rows ((offs0 k).view.read (Elt F) (J0 m d L)) rfl hA (x (gathers_S10000x128_S80x128).axis')).val
      = (pairs m d (ix2 (chunkPair L k x) (0 : Fin 2))).toNat := by
  show (((offs0 k).view.read (Elt F) (J0 m d L)) (S80.rowMajor.symm ((x (gathers_S10000x128_S80x128).axis').cast rfl))).toNat = _
  rw [offs0_read, J0_apply]
  refine congrArg (fun e : Fin 320000 => (pairs m d (ix2 e (0 : Fin 2))).toNat) (Fin.ext ?_)
  show wOff L + (((offs0 k).view.emb (S80.rowMajor.symm ((x (gathers_S10000x128_S80x128).axis').cast rfl))) 0).val = wOff L + (80 * k.val + (x 0).val)
  rw [offs0_emb, rm1_symm_val]
  rfl

/-- The same for the second gather and word 1. -/
theorem rowsB_val (k : Fin k0_t1_loop.trips)
    (hB : ∀ x, (((offs1 k).view.read (Elt F) (J1 m d L)) x).toNat < S10000x128.size (gathers_S10000x128_S80x128).axis) (x : S80x128.Idx) :
    (SparseCore.rows ((offs1 k).view.read (Elt F) (J1 m d L)) rfl hB (x (gathers_S10000x128_S80x128).axis')).val
      = (pairs m d (ix2 (chunkPair L k x) (1 : Fin 2))).toNat := by
  show (((offs1 k).view.read (Elt F) (J1 m d L)) (S80.rowMajor.symm ((x (gathers_S10000x128_S80x128).axis').cast rfl))).toNat = _
  rw [offs1_read, J1_apply]
  refine congrArg (fun e : Fin 320000 => (pairs m d (ix2 e (1 : Fin 2))).toNat) (Fin.ext ?_)
  show wOff L + (((offs1 k).view.emb (S80.rowMajor.symm ((x (gathers_S10000x128_S80x128).axis').cast rfl))) 0).val = wOff L + (80 * k.val + (x 0).val)
  rw [offs1_emb, rm1_symm_val]
  rfl

/-- The table read through the gather's source slice (the whole of it) at the gather's source index for element `x`,
    when the row the offset list names for `x` is the row `w` names: the table at that row, column `x 1`. -/
theorem gather_entry (hpre : PreOK m) (r : Fin (S80x128.size (gathers_S10000x128_S80x128).axis') → Fin (S10000x128.size (gathers_S10000x128_S80x128).axis))
    (x : S80x128.Idx) (e : Fin 320000) (j : Fin 2) (hr : (r (x (gathers_S10000x128_S80x128).axis')).val = (pairs m d (ix2 e j)).toNat) :
    SparseCore.gatherPayload gathers_S10000x128_S80x128 ((xSlice).view.read (Elt F) (m (xLoc d))) r x
      = table m d (ix2 (Cert.Pool.rowSel (pairs m d (ix2 e j))) (⟨(x 1).val, idx2_lt1 x⟩ : Fin 128)) := by
  show (xSlice).view.read (Elt F) (m (xLoc d)) ((gathers_S10000x128_S80x128).idx r x) = _
  refine ((View.read_apply _ _).trans (cast_eq _ _)).trans ?_
  refine congrArg (table m d) (funext fun a => Fin.ext ?_)
  match a with
  | ⟨0, _⟩ =>
    show 0 + 1 * (((gathers_S10000x128_S80x128).idx r x) (gathers_S10000x128_S80x128).axis).val = (Cert.Pool.rowSel (pairs m d (ix2 e j))).val
    rw [Shape.Gathers.idx_axis, hr, Cert.Pool.rowSel_of_lt (hpre d _)]
    show 0 + 1 * (pairs m d (ix2 e j)).toNat = (pairs m d (ix2 e j)).toNat
    omega
  | ⟨1, h1⟩ =>
    show 0 + 1 * (((gathers_S10000x128_S80x128).idx r x) ⟨1, h1⟩).val = (x 1).val
    rw [Shape.Gathers.idx_of_ne gathers_S10000x128_S80x128 r x ⟨1, h1⟩ Nat.one_ne_zero]
    show 0 + 1 * (x 1).val = (x 1).val
    omega

/-- Element `x` of the first gathered block is the table at the row word 0 of the element's pair names. -/
theorem GA_apply (hpre : PreOK m) (k : Fin k0_t1_loop.trips)
    (hA : ∀ x, (((offs0 k).view.read (Elt F) (J0 m d L)) x).toNat < S10000x128.size (gathers_S10000x128_S80x128).axis) (x : S80x128.Idx) :
    GA m d L k hA x = table m d (ix2 (Cert.Pool.rowSel (pairs m d (ix2 (chunkPair L k x) (0 : Fin 2)))) (⟨(x 1).val, idx2_lt1 x⟩ : Fin 128)) :=
  gather_entry m d hpre _ x (chunkPair L k x) 0 (rowsA_val m d L k hA x)

/-- Element `x` of the second gathered block is the table at the row word 1 of the element's pair names. -/
theorem GB_apply (hpre : PreOK m) (k : Fin k0_t1_loop.trips)
    (hB : ∀ x, (((offs1 k).view.read (Elt F) (J1 m d L)) x).toNat < S10000x128.size (gathers_S10000x128_S80x128).axis) (x : S80x128.Idx) :
    GB m d L k hB x = table m d (ix2 (Cert.Pool.rowSel (pairs m d (ix2 (chunkPair L k x) (1 : Fin 2)))) (⟨(x 1).val, idx2_lt1 x⟩ : Fin 128)) :=
  gather_entry m d hpre _ x (chunkPair L k x) 1 (rowsB_val m d L k hB x)

theorem chunkRow_lt (k : Fin k0_t1_loop.trips) (x : S80x128.Idx) : 10000 + (chunkPair L k x).val < 330000 := by
  have h := (chunkPair L k x).isLt
  omega

/-- Element `x` of chunk `k` sits at row `10000 + e`, `e` the element's pair, and column `x 1` of the result. -/
theorem chunk_emb (k : Fin k0_t1_loop.trips) (x : S80x128.Idx) :
    (outChunk L k).view.emb x = ix2 (⟨10000 + (chunkPair L k x).val, chunkRow_lt L k x⟩ : Fin 330000) (⟨(x 1).val, idx2_lt1 x⟩ : Fin 128) := by
  funext a
  apply Fin.ext
  match a with
  | ⟨0, _⟩ =>
    show k0_off13 L k 0 + 1 * (x 0).val = 10000 + (wOff L + (80 * k.val + (x 0).val))
    rw [k0_off13_eq]
    show (20000 * (L 1).val + 10000 * (L 0).val + 80 * k.val + 10000) + 1 * (x 0).val = 10000 + (wOff L + (80 * k.val + (x 0).val))
    unfold wOff; omega
  | ⟨1, _⟩ =>
    show k0_off13 L k 1 + 1 * (x 1).val = (x 1).val
    rw [k0_off13_eq]
    show 0 + 1 * (x 1).val = (x 1).val
    omega

/-- The midpoint of the two gathered entries is the specified entry of the result. -/
theorem chunk_entry (hpre : PreOK m) (k : Fin k0_t1_loop.trips)
    (hA : ∀ x, (((offs0 k).view.read (Elt F) (J0 m d L)) x).toNat < S10000x128.size (gathers_S10000x128_S80x128).axis)
    (hB : ∀ x, (((offs1 k).view.read (Elt F) (J1 m d L)) x).toNat < S10000x128.size (gathers_S10000x128_S80x128).axis)
    (x : S80x128.Idx) :
    Cert.Pool.mid (GA m d L k hA x) (GB m d L k hB x) = G m d ((outChunk L k).view.emb x) := by
  rw [GA_apply m d L hpre k hA x, GB_apply m d L hpre k hB x]
  refine Eq.trans ?_ (congrArg (G m d) (chunk_emb L k x).symm)
  exact (Cert.Pool.pooled_mid (m (xLoc d)) (m (pLoc d)) (chunkPair L k x) (⟨(x 1).val, idx2_lt1 x⟩ : Fin 128)).symm

end Tile
end Cert.Proof.KernelIdealRun
end
-- ==== Proof.KernelIdealHeadValue.lean ====
import proofs.«208565_g47476568490134_cont_8to1_c_213_4_alg».proof.Proof.KernelIdealChunkValue
import proofs.«208565_g47476568490134_cont_8to1_c_213_4_alg».proof.Proof.KernelIdealPieces

/-!
# The value of the copied rows

A worker `w = 2 s + c` below 25 copies rows `[400 w, 400 w + 400)` of the table onto the same rows of the
result. Such a row lies below 10000, where the specified result is the table itself, at the same
row and column the copy reads.
-/

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- The 400 rows of the table a worker below 25 copies, as the kernel slices them out of the table. -/
abbrev xHead (L : grid0.Coords) (h : k0_cond1 L = 1#1) : Memref sig .scVector .hbm S400x128 .f32 :=
  (xV : Memref sig .scVector .hbm S10000x128 .f32).slice (Rect.unit (s := S10000x128) (k0_off2 L) S400x128.size (k0_off2_inb L h)) (fun _ => rfl)

/-- A copied row is a row of the table: `400 w + x 0 < 10000` when `w < 25`. -/
theorem head_row_lt (h : k0_cond1 L = 1#1) (x : S400x128.Idx) : 800 * (L 1).val + 400 * (L 0).val + (x 0).val < 10000 := by
  have h' := (cond1_iff L).1 h
  have hx : (x 0).val < 400 := idx2_lt0 x
  omega

theorem head_row_lt' (h : k0_cond1 L = 1#1) (x : S400x128.Idx) : 800 * (L 1).val + 400 * (L 0).val + (x 0).val < 330000 := by
  have h' := head_row_lt L h x
  omega

/-- Element `x` of the copied rows, in the table: row `400 w + x 0`, column `x 1`. -/
theorem xHead_emb (h : k0_cond1 L = 1#1) (x : S400x128.Idx) :
    (xHead L h).view.emb x
      = ix2 (⟨800 * (L 1).val + 400 * (L 0).val + (x 0).val, head_row_lt L h x⟩ : Fin 10000) (⟨(x 1).val, idx2_lt1 x⟩ : Fin 128) := by
  funext a
  apply Fin.ext
  match a with
  | ⟨0, _⟩ =>
    show k0_off2 L 0 + 1 * (x 0).val = 800 * (L 1).val + 400 * (L 0).val + (x 0).val
    rw [k0_off2_eq]
    show (800 * (L 1).val + 400 * (L 0).val) + 1 * (x 0).val = 800 * (L 1).val + 400 * (L 0).val + (x 0).val
    omega
  | ⟨1, _⟩ =>
    show k0_off2 L 1 + 1 * (x 1).val = (x 1).val
    rw [k0_off2_eq]
    show 0 + 1 * (x 1).val = (x 1).val
    omega

/-- The same element in the result: the same row and column. -/
theorem outHead_emb (h : k0_cond1 L = 1#1) (x : S400x128.Idx) :
    (outHead L h).view.emb x
      = ix2 (⟨800 * (L 1).val + 400 * (L 0).val + (x 0).val, head_row_lt' L h x⟩ : Fin 330000) (⟨(x 1).val, idx2_lt1 x⟩ : Fin 128) := by
  funext a
  apply Fin.ext
  match a with
  | ⟨0, _⟩ =>
    show k0_off1 L 0 + 1 * (x 0).val = 800 * (L 1).val + 400 * (L 0).val + (x 0).val
    rw [k0_off1_eq]
    show (800 * (L 1).val + 400 * (L 0).val) + 1 * (x 0).val = 800 * (L 1).val + 400 * (L 0).val + (x 0).val
    omega
  | ⟨1, _⟩ =>
    show k0_off1 L 1 + 1 * (x 1).val = (x 1).val
    rw [k0_off1_eq]
    show 0 + 1 * (x 1).val = (x 1).val
    omega

/-- What the copy reads is the specified entry of the result where it lands. -/
theorem head_entry (h : k0_cond1 L = 1#1) (x : S400x128.Idx) :
    (xHead L h).view.read (Elt F) (m (xLoc d)) x = G m d ((outHead L h).view.emb x) := by
  refine ((View.read_apply _ _).trans (cast_eq _ _)).trans ?_
  refine (congrArg (table m d) (xHead_emb L h x)).trans ?_
  refine Eq.trans ?_ (congrArg (G m d) (outHead_emb L h x).symm)
  exact (Cert.Pool.pooled_table (m (xLoc d)) (m (pLoc d))
    (⟨800 * (L 1).val + 400 * (L 0).val + (x 0).val, head_row_lt L h x⟩ : Fin 10000) (⟨(x 1).val, idx2_lt1 x⟩ : Fin 128)).symm

end Tile
end Cert.Proof.KernelIdealRun
end
-- ==== Proof.KernelIdealBody.lean ====
import proofs.«208565_g47476568490134_cont_8to1_c_213_4_alg».proof.Proof.KernelIdealTileValue
import proofs.«208565_g47476568490134_cont_8to1_c_213_4_alg».proof.Proof.KernelIdealChunkValue
import proofs.«208565_g47476568490134_cont_8to1_c_213_4_alg».proof.Proof.KernelIdealHeadValue

/-!
# One worker's task, proved

The task of vector subcore `(c, s)`, from its share of the reads, its pieces of the result at the
launch contents and its own storage, to the same with the pieces at the specified contents.
A worker below 25 first copies its 400 rows of the table; every worker then copies its 10000
words of each index column into its scratches and runs its 125 chunks. In a chunk the two gathers
are issued, both awaited, the 80 rows of midpoints computed (`row_region`), and the block copied
out; the written block is the specified result on the chunk's elements because each gathered
row is the table's row its word names and the midpoint of two entries is what the specification
puts there.
-/

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

omit [FloatOps F] in
theorem pts_sA_whole (f : Buf (Elt F) ((V d (cV L) (jV L)).loc cc0_scratch2)) (w : S80x128.Idx → F .f32) :
    ((sA : Memref sig .scVector .vmem S80x128 .f32).view.loc (V d (cV L) (jV L)) ↦{fullShare}
        (sA : Memref sig .scVector .vmem S80x128 .f32).view.writes (Elt F) f [⟨Rect.whole S80x128, w⟩] : sProp 𝕄)
      = ((sA : Memref sig .scVector .vmem S80x128 .f32).view.loc (V d (cV L) (jV L)) ↦{fullShare} w) := by
  rw [writes_whole_sA]
omit [FloatOps F] in
theorem pts_sB_whole (f : Buf (Elt F) ((V d (cV L) (jV L)).loc cc0_scratch3)) (w : S80x128.Idx → F .f32) :
    ((sB : Memref sig .scVector .vmem S80x128 .f32).view.loc (V d (cV L) (jV L)) ↦{fullShare}
        (sB : Memref sig .scVector .vmem S80x128 .f32).view.writes (Elt F) f [⟨Rect.whole S80x128, w⟩] : sProp 𝕄)
      = ((sB : Memref sig .scVector .vmem S80x128 .f32).view.loc (V d (cV L) (jV L)) ↦{fullShare} w) := by
  rw [writes_whole_sB]

omit [FloatOps F] in
/-- A chunk's piece written whole with a block that is the specified result entry by entry holds the specified result. -/
theorem chunk_congr (k : Fin k0_t1_loop.trips) (f₀ : Buf (Elt F) (oLoc d)) (w : S80x128.Idx → F .f32) (g : Buf (Elt F) (oLoc d))
    (hw : ∀ x, w x = g ((outChunk L k).view.emb x)) :
    ∀ i ∈ (outChunk L k).view.set, ((outChunk L k).view.writes (Elt F) f₀ [⟨Rect.whole S80x128, w⟩]) i = g i := by
  intro i hi
  obtain ⟨x, -, rfl⟩ := Finset.mem_map.mp hi
  have h1 := Cert.Lib.ReadWritesWhole.read_writes_whole_apply (outChunk L k).view f₀ w x
  rw [View.read_apply, cast_eq] at h1
  exact h1.trans (hw x)

omit [FloatOps F] in
/-- The head piece written whole with a block that is the specified result entry by entry holds the specified result. -/
theorem head_congr (h : k0_cond1 L = 1#1) (f₀ : Buf (Elt F) (oLoc d)) (w : S400x128.Idx → F .f32) (g : Buf (Elt F) (oLoc d))
    (hw : ∀ x, w x = g ((outHead L h).view.emb x)) :
    ∀ i ∈ (outHead L h).view.set, ((outHead L h).view.writes (Elt F) f₀ [⟨Rect.whole S400x128, w⟩]) i = g i := by
  intro i hi
  obtain ⟨x, -, rfl⟩ := Finset.mem_map.mp hi
  have h1 := Cert.Lib.ReadWritesWhole.read_writes_whole_apply (outHead L h).view f₀ w x
  rw [View.read_apply, cast_eq] at h1
  exact h1.trans (hw x)

set_option maxHeartbeats 2000000 in

/-- One row of a chunk: 24 loads and 8 stores of 16 lanes, from rows below `r` finished to rows below `r + 1`. -/
theorem row_region (A : Buf (Elt F) ((V d (cV L) (jV L)).loc cc0_scratch2)) (B : Buf (Elt F) ((V d (cV L) (jV L)).loc cc0_scratch3))
    (r : Fin k0_t2_loop.trips) (acc : Unit) :
    invRow (F := F) d L A B r.val acc
      ⊢ wp frame (wpE (defs₀ (F := F)) 𝒱₀ (V d (cV L) (jV L)) none) Set.univ
          (k0_t2_body L xV (Memref.isWhole_whole _) i0V (Memref.isWhole_whole _) i1V (Memref.isWhole_whole _) oV (Memref.isWhole_whole _)
            sI0 (Memref.isWhole_whole _) sI1 (Memref.isWhole_whole _) sA (Memref.isWhole_whole _) sB (Memref.isWhole_whole _) sO (Memref.isWhole_whole _)
            cc0_scratch5 cc0_scratch6 cc0_scoped0 cc0_scoped1 cc0_scoped2 cc0_scoped3 r acc)
          (invRow (F := F) d L A B (r.val + 1)) := by
  unfold k0_t2_body invRow
  iintro ⟨Ha, Hb, %fo, Ho, %hfo⟩
  sl_exec
  sl_step
  isplitl [Ha]; · iexact Ha
  isplitl [Hb]; · iexact Hb
  iexists _
  isplitl [Ho]; · iexact Ho
  ipureintro
  refine rows_step_sO A B fo r.val _ ?hpay ?hrow ?hcov hfo
  case hpay =>
    intro p hp
    simp only [List.mem_cons, List.not_mem_nil, or_false] at hp
    rcases hp with rfl | rfl | rfl | rfl | rfl | rfl | rfl | rfl
    · exact fun x => pay2_apply _ _ x
    · exact fun x => pay1_apply _ _ x
    · exact fun x => pay9_apply _ _ x
    · exact fun x => pay8_apply _ _ x
    · exact fun x => pay7_apply _ _ x
    · exact fun x => pay5_apply _ _ x
    · exact fun x => pay4_apply _ _ x
    · exact fun x => pay3_apply _ _ x
  case hrow =>
    intro p hp
    simp only [List.mem_cons, List.not_mem_nil, or_false] at hp
    rcases hp with rfl | rfl | rfl | rfl | rfl | rfl | rfl | rfl
    · exact fun y hy => ((lane_mem r.val 112 _ (k0_off12_eq r) (k0_off12_inb r) y).mp hy).1
    · exact fun y hy => ((lane_mem r.val 96 _ (k0_off11_eq r) (k0_off11_inb r) y).mp hy).1
    · exact fun y hy => ((lane_mem r.val 80 _ (k0_off10_eq r) (k0_off10_inb r) y).mp hy).1
    · exact fun y hy => ((lane_mem r.val 64 _ (k0_off9_eq r) (k0_off9_inb r) y).mp hy).1
    · exact fun y hy => ((lane_mem r.val 48 _ (k0_off8_eq r) (k0_off8_inb r) y).mp hy).1
    · exact fun y hy => ((lane_mem r.val 32 _ (k0_off7_eq r) (k0_off7_inb r) y).mp hy).1
    · exact fun y hy => ((lane_mem r.val 16 _ (k0_off6_eq r) (k0_off6_inb r) y).mp hy).1
    · exact fun y hy => ((lane_mem r.val 0 _ (k0_off5_eq r) (k0_off5_inb r) y).mp hy).1
  case hcov =>
    intro y hr
    have h128 : (y 1).val < 128 := (y 1).isLt
    rcases (by omega : (112 ≤ (y 1).val ∧ (y 1).val < 112 + 16) ∨ (96 ≤ (y 1).val ∧ (y 1).val < 96 + 16) ∨ (80 ≤ (y 1).val ∧ (y 1).val < 80 + 16)
        ∨ (64 ≤ (y 1).val ∧ (y 1).val < 64 + 16) ∨ (48 ≤ (y 1).val ∧ (y 1).val < 48 + 16) ∨ (32 ≤ (y 1).val ∧ (y 1).val < 32 + 16)
        ∨ (16 ≤ (y 1).val ∧ (y 1).val < 16 + 16) ∨ (0 ≤ (y 1).val ∧ (y 1).val < 0 + 16)) with h | h | h | h | h | h | h | h
    · exact ⟨_, List.mem_cons_self, (lane_mem r.val 112 _ (k0_off12_eq r) (k0_off12_inb r) y).mpr ⟨hr, h.1, h.2⟩⟩
    · exact ⟨_, List.mem_cons_of_mem _ (List.mem_cons_self), (lane_mem r.val 96 _ (k0_off11_eq r) (k0_off11_inb r) y).mpr ⟨hr, h.1, h.2⟩⟩
    · exact ⟨_, List.mem_cons_of_mem _ (List.mem_cons_of_mem _ (List.mem_cons_self)), (lane_mem r.val 80 _ (k0_off10_eq r) (k0_off10_inb r) y).mpr ⟨hr, h.1, h.2⟩⟩
    · exact ⟨_, List.mem_cons_of_mem _ (List.mem_cons_of_mem _ (List.mem_cons_of_mem _ (List.mem_cons_self))), (lane_mem r.val 64 _ (k0_off9_eq r) (k0_off9_inb r) y).mpr ⟨hr, h.1, h.2⟩⟩
    · exact ⟨_, List.mem_cons_of_mem _ (List.mem_cons_of_mem _ (List.mem_cons_of_mem _ (List.mem_cons_of_mem _ (List.mem_cons_self)))), (lane_mem r.val 48 _ (k0_off8_eq r) (k0_off8_inb r) y).mpr ⟨hr, h.1, h.2⟩⟩
    · exact ⟨_, List.mem_cons_of_mem _ (List.mem_cons_of_mem _ (List.mem_cons_of_mem _ (List.mem_cons_of_mem _ (List.mem_cons_of_mem _ (List.mem_cons_self))))), (lane_mem r.val 32 _ (k0_off7_eq r) (k0_off7_inb r) y).mpr ⟨hr, h.1, h.2⟩⟩
    · exact ⟨_, List.mem_cons_of_mem _ (List.mem_cons_of_mem _ (List.mem_cons_of_mem _ (List.mem_cons_of_mem _ (List.mem_cons_of_mem _ (List.mem_cons_of_mem _ (List.mem_cons_self)))))), (lane_mem r.val 16 _ (k0_off6_eq r) (k0_off6_inb r) y).mpr ⟨hr, h.1, h.2⟩⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (lane_mem r.val 0 _ (k0_off5_eq r) (k0_off5_inb r) y).mpr ⟨hr, h.1, h.2⟩⟩

set_option maxHeartbeats 4000000 in
/-- The task of a worker that copies no rows of the table (its number is 25 or more). -/
theorem tile_neg (hF : (K (F := F)).Facts) (hpre : PreOK m) (q : PosShare TreeShare) (O : CellTallies nD τ sig (HIx 1)) (W : Waits sig (HIx 1)) (hO : ∀ g, O g none = 0)
    (hce : ∀ (k : Fin k0_t1_loop.trips)
      (hA : ∀ x, (((offs0 k).view.read (Elt F) (J0 m d L)) x).toNat < S10000x128.size (gathers_S10000x128_S80x128).axis)
      (hB : ∀ x, (((offs1 k).view.read (Elt F) (J1 m d L)) x).toNat < S10000x128.size (gathers_S10000x128_S80x128).axis)
      (x : S80x128.Idx), Cert.Pool.mid (GA m d L k hA x) (GB m d L k hB x) = G m d ((outChunk L k).view.emb x))
    (k0_h1 : ¬ k0_cond1 L = 1#1) :
    iprop(levAts (K (F := F)).L (K (F := F)).lev ∗ emp ∗ (reads m d q ∗ outPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pool_kernel L xV (Memref.isWhole_whole _) i0V (Memref.isWhole_whole _) i1V (Memref.isWhole_whole _) oV (Memref.isWhole_whole _)
            sI0 (Memref.isWhole_whole _) sI1 (Memref.isWhole_whole _) sA (Memref.isWhole_whole _) sB (Memref.isWhole_whole _) sO (Memref.isWhole_whole _)
            cc0_scratch5 cc0_scratch6 cc0_scoped0 cc0_scoped1 cc0_scoped2 cc0_scoped3)
          fun _ => iprop((reads m d q ∗ outPieces d L (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hin0' := hin0 m d L hpre
  have hin1' := hin1 m d L hpre
  simp only [cc0__pool_kernel_eq_skeleton]; unfold cc0__pool_kernel_skel
  rw [(K (F := F)).scopedBufs_V hF d (cV L) (jV L), SparseCore.Cfg.scopedSems0_V (Val := Elt F) d (cV L) (jV L), ownSems0_V, ownBufs_V,
    outPieces_neg d L _ k0_h1]
  unfold reads
  iintro ⟨#Hlv, -, ⟨⟨Hx, Hi0, Hi1⟩, ⟨-, Hchunks⟩⟩, ⟨⟨%f0, Hs0⟩, ⟨%f1, Hs1⟩, ⟨%fa, Hsa⟩, ⟨%fb, Hsb⟩, ⟨%fo, Hso⟩, Hbufs⟩,
    ⟨Hg0, Hg1, Hh, Hc0, Hc1, Hco, Hsems⟩, HO⟩
  ihave Hmw := ((K (F := F)).mayWaits_none (thr := V d (cV L) (jV L)) hO) $$ Hlv
  ihave Hx := (Entails.of_eq (pts_x (F := F) d L q _).symm) $$ Hx
  ihave Hi0 := (Entails.of_eq (pts_i0 (F := F) d L q _).symm) $$ Hi0
  ihave Hi1 := (Entails.of_eq (pts_i1 (F := F) d L q _).symm) $$ Hi1
  ihave Hs0 := (Entails.of_eq (pts_sI0 (F := F) d L _).symm) $$ Hs0
  ihave Hs1 := (Entails.of_eq (pts_sI1 (F := F) d L _).symm) $$ Hs1
  ihave Hsa := (Entails.of_eq (pts_sA (F := F) d L _).symm) $$ Hsa
  ihave Hsb := (Entails.of_eq (pts_sB (F := F) d L _).symm) $$ Hsb
  ihave Hso := (Entails.of_eq (pts_sO (F := F) d L _).symm) $$ Hso
  sl_exec
  sl_unfold_run_names
  rw [write_sI0, write_sI1]
  ihave Hx := (Entails.of_eq (x_halves (F := F) d L q _)) $$ Hx
  icases Hx with ⟨Hx1, Hx2⟩
  sl_for (invChunk m d L q O W) $$ [Hmw Hx1 Hx2 Hs0 Hs1 Hsa Hsb Hso Hg0 Hg1 Hco Hchunks HO]
  case region =>
    intro k _
    unfold invChunk
    rw [Cert.Lib.ChunkFamilies.todo_peel _ k.val k.isLt]
    iintro ⟨#Hmw, Hx1, Hx2, Hs0, Hs1, ⟨%fa, Hsa⟩, ⟨%fb, Hsb⟩, ⟨%fo, Hso⟩, Hg0, Hg1, Hco, ⟨Hck, Htodo⟩, Hdone, %W', %hW', HO⟩
    unfold chunkAt
    ihave Hck := (Entails.of_eq (pts_chunk (F := F) d L k _).symm) $$ Hck
    sl_exec
    ihave Hsa := (Entails.of_eq (pts_sA_whole (F := F) d L _ _)) $$ Hsa
    ihave Hsb := (Entails.of_eq (pts_sB_whole (F := F) d L _ _)) $$ Hsb
    sl_for (invRow (F := F) d L (GA m d L k (hin0' k)) (GB m d L k (hin1' k))) $$ [Hsa Hsb Hso]
    case region => intro r acc; exact row_region d L _ _ r acc
    · unfold invRow
      isplitl [Hsa]; · iexact Hsa
      isplitl [Hsb]; · iexact Hsb
      iexists fo; isplitl [Hso]; · iexact Hso
      ipureintro; exact RowsDone.zero _ _ _
    iintro %acc HI
    unfold invRow
    icases HI with ⟨Hsa, Hsb, %fo', Hso, %hfo⟩
    sl_exec
    sl_step
    have hx80 : ∀ x : S80x128.Idx, (x 0).val < Scf.trips k0_t2_loop.lb k0_t2_loop.ub k0_t2_loop.st := fun x => by
      have h1 : (x 0).val < 80 := (x 0).isLt
      have h2 : k0_t2_loop.trips = 80 := by decide
      exact lt_of_lt_of_eq h1 h2.symm
    isplitr; · iexact Hmw
    isplitl [Hx1]; · iexact Hx1
    isplitl [Hx2]; · iexact Hx2
    isplitl [Hs0]; · iexact Hs0
    isplitl [Hs1]; · iexact Hs1
    isplitl [Hsa]; · iexists _; iexact Hsa
    isplitl [Hsb]; · iexists _; iexact Hsb
    isplitl [Hso]; · iexists _; iexact Hso
    isplitl [Hg0]; · iexact Hg0
    isplitl [Hg1]; · iexact Hg1
    isplitl [Hco]; · iexact Hco
    isplitl [Htodo]; · iexact Htodo
    isplitl [Hdone Hck]
    · rw [Cert.Lib.ChunkFamilies.done_push _ k.val k.isLt]
      isplitl [Hdone]; · iexact Hdone
      iapply (Entails.of_eq (pointsTo_congr (g := G m d) ?hcong))
      rotate_left
      · iexact Hck
      · refine chunk_congr (F := F) d L k _ _ _ ?_
        intro x
        exact (hfo x (hx80 x)).trans (hce k _ _ x)
    iexists _; isplitr
    rotate_left
    · iexact HO
    · ipureintro; intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact hW' p hp
  · unfold invChunk
    rw [Cert.Lib.ChunkFamilies.todo_zero, Cert.Lib.ChunkFamilies.done_zero]
    isplitr; · iexact Hmw
    isplitl [Hx1]; · iexact Hx1
    isplitl [Hx2]; · iexact Hx2
    isplitl [Hs0]; · iexact Hs0
    isplitl [Hs1]; · iexact Hs1
    isplitl [Hsa]; · iexists _; iexact Hsa
    isplitl [Hsb]; · iexists _; iexact Hsb
    isplitl [Hso]; · iexists _; iexact Hso
    isplitl [Hg0]; · iexact Hg0
    isplitl [Hg1]; · iexact Hg1
    isplitl [Hco]; · iexact Hco
    isplitl [Hchunks]; · unfold chunkAt; iexact Hchunks
    isplitr; · iempintro
    iexists _; isplitr
    rotate_left
    · iexact HO
    · ipureintro; intro p hp
      rcases Finset.mem_insert.mp hp with hp | hp
      · subst hp; exact .inr rfl
      rcases Finset.mem_insert.mp hp with hp | hp
      · subst hp; exact .inr rfl
      · exact .inl hp
  iintro %_ HI
  unfold invChunk
  icases HI with ⟨-, Hx1, Hx2, Hs0, Hs1, ⟨%fa', Hsa⟩, ⟨%fb', Hsb⟩, ⟨%fo', Hso⟩, Hg0, Hg1, Hco, -, Hdone, %W', %hW', HO⟩
  ihave Hdone := (Entails.of_eq (Cert.Lib.ChunkFamilies.done_top _ _ (le_refl _))) $$ Hdone
  sl_exec
  sl_step
  isplitl [Hx1 Hx2 Hi0 Hi1 Hdone]
  · isplitl [Hx1 Hx2 Hi0 Hi1]
    · isplitl [Hx1 Hx2]
      · iapply (Entails.of_eq (pts_x (F := F) d L q _))
        iapply (Entails.of_eq (x_halves (F := F) d L q _).symm)
        isplitl [Hx1]; · iexact Hx1
        iexact Hx2
      isplitl [Hi0]; · iexact Hi0
      iexact Hi1
    · rw [outPieces_neg d L _ k0_h1]
      isplitr; · iempintro
      unfold chunkAt
      iexact Hdone
  isplitl [Hs0 Hs1 Hsa Hsb Hso Hbufs]
  · isplitl [Hs0]; · iexists _; iexact Hs0
    isplitl [Hs1]; · iexists _; iexact Hs1
    isplitl [Hsa]; · iexists _; iexact Hsa
    isplitl [Hsb]; · iexists _; iexact Hsb
    isplitl [Hso]; · iexists _; iexact Hso
    iexact Hbufs
  isplitl [Hg0 Hg1 Hh Hc0 Hc1 Hco Hsems]
  · isplitl [Hg0]; · iexact Hg0
    isplitl [Hg1]; · iexact Hg1
    isplitl [Hh]; · iexact Hh
    isplitl [Hc0]; · iexact Hc0
    isplitl [Hc1]; · iexact Hc1
    isplitl [Hco]; · iexact Hco
    iexact Hsems
  iexists W'; isplitr
  · ipureintro; exact hW'
  · iexact HO

set_option maxHeartbeats 4000000 in
/-- The task of a worker below 25: its 400 rows of the table first, then the same. -/
theorem tile_pos (hF : (K (F := F)).Facts) (hpre : PreOK m) (q : PosShare TreeShare) (O : CellTallies nD τ sig (HIx 1)) (W : Waits sig (HIx 1)) (hO : ∀ g, O g none = 0)
    (hce : ∀ (k : Fin k0_t1_loop.trips)
      (hA : ∀ x, (((offs0 k).view.read (Elt F) (J0 m d L)) x).toNat < S10000x128.size (gathers_S10000x128_S80x128).axis)
      (hB : ∀ x, (((offs1 k).view.read (Elt F) (J1 m d L)) x).toNat < S10000x128.size (gathers_S10000x128_S80x128).axis)
      (x : S80x128.Idx), Cert.Pool.mid (GA m d L k hA x) (GB m d L k hB x) = G m d ((outChunk L k).view.emb x))
    (hhe : ∀ (h : k0_cond1 L = 1#1) (x : S400x128.Idx),
      ((xV : Memref sig .scVector .hbm S10000x128 .f32).slice (Rect.unit (s := S10000x128) (k0_off2 L) S400x128.size (k0_off2_inb L h)) (fun _ => rfl)).view.read (Elt F) (m (xLoc d)) x
        = G m d ((outHead L h).view.emb x))
    (k0_h1 : k0_cond1 L = 1#1) :
    iprop(levAts (K (F := F)).L (K (F := F)).lev ∗ emp ∗ (reads m d q ∗ outPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pool_kernel L xV (Memref.isWhole_whole _) i0V (Memref.isWhole_whole _) i1V (Memref.isWhole_whole _) oV (Memref.isWhole_whole _)
            sI0 (Memref.isWhole_whole _) sI1 (Memref.isWhole_whole _) sA (Memref.isWhole_whole _) sB (Memref.isWhole_whole _) sO (Memref.isWhole_whole _)
            cc0_scratch5 cc0_scratch6 cc0_scoped0 cc0_scoped1 cc0_scoped2 cc0_scoped3)
          fun _ => iprop((reads m d q ∗ outPieces d L (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hin0' := hin0 m d L hpre
  have hin1' := hin1 m d L hpre
  simp only [cc0__pool_kernel_eq_skeleton]; unfold cc0__pool_kernel_skel
  rw [(K (F := F)).scopedBufs_V hF d (cV L) (jV L), SparseCore.Cfg.scopedSems0_V (Val := Elt F) d (cV L) (jV L), ownSems0_V, ownBufs_V,
    outPieces_pos d L _ k0_h1]
  unfold reads
  iintro ⟨#Hlv, -, ⟨⟨Hx, Hi0, Hi1⟩, ⟨Hhead, Hchunks⟩⟩, ⟨⟨%f0, Hs0⟩, ⟨%f1, Hs1⟩, ⟨%fa, Hsa⟩, ⟨%fb, Hsb⟩, ⟨%fo, Hso⟩, Hbufs⟩,
    ⟨Hg0, Hg1, Hh, Hc0, Hc1, Hco, Hsems⟩, HO⟩
  ihave Hmw := ((K (F := F)).mayWaits_none (thr := V d (cV L) (jV L)) hO) $$ Hlv
  ihave Hx := (Entails.of_eq (pts_x (F := F) d L q _).symm) $$ Hx
  ihave Hhead := (Entails.of_eq (pts_head (F := F) d L k0_h1 _).symm) $$ Hhead
  ihave Hi0 := (Entails.of_eq (pts_i0 (F := F) d L q _).symm) $$ Hi0
  ihave Hi1 := (Entails.of_eq (pts_i1 (F := F) d L q _).symm) $$ Hi1
  ihave Hs0 := (Entails.of_eq (pts_sI0 (F := F) d L _).symm) $$ Hs0
  ihave Hs1 := (Entails.of_eq (pts_sI1 (F := F) d L _).symm) $$ Hs1
  ihave Hsa := (Entails.of_eq (pts_sA (F := F) d L _).symm) $$ Hsa
  ihave Hsb := (Entails.of_eq (pts_sB (F := F) d L _).symm) $$ Hsb
  ihave Hso := (Entails.of_eq (pts_sO (F := F) d L _).symm) $$ Hso
  sl_exec
  sl_unfold_run_names
  rw [write_sI0, write_sI1]
  ihave Hx := (Entails.of_eq (x_halves (F := F) d L q _)) $$ Hx
  icases Hx with ⟨Hx1, Hx2⟩
  sl_for (invChunk m d L q O W) $$ [Hmw Hx1 Hx2 Hs0 Hs1 Hsa Hsb Hso Hg0 Hg1 Hco Hchunks HO]
  case region =>
    intro k _
    unfold invChunk
    rw [Cert.Lib.ChunkFamilies.todo_peel _ k.val k.isLt]
    iintro ⟨#Hmw, Hx1, Hx2, Hs0, Hs1, ⟨%fa, Hsa⟩, ⟨%fb, Hsb⟩, ⟨%fo, Hso⟩, Hg0, Hg1, Hco, ⟨Hck, Htodo⟩, Hdone, %W', %hW', HO⟩
    unfold chunkAt
    ihave Hck := (Entails.of_eq (pts_chunk (F := F) d L k _).symm) $$ Hck
    sl_exec
    ihave Hsa := (Entails.of_eq (pts_sA_whole (F := F) d L _ _)) $$ Hsa
    ihave Hsb := (Entails.of_eq (pts_sB_whole (F := F) d L _ _)) $$ Hsb
    sl_for (invRow (F := F) d L (GA m d L k (hin0' k)) (GB m d L k (hin1' k))) $$ [Hsa Hsb Hso]
    case region => intro r acc; exact row_region d L _ _ r acc
    · unfold invRow
      isplitl [Hsa]; · iexact Hsa
      isplitl [Hsb]; · iexact Hsb
      iexists fo; isplitl [Hso]; · iexact Hso
      ipureintro; exact RowsDone.zero _ _ _
    iintro %acc HI
    unfold invRow
    icases HI with ⟨Hsa, Hsb, %fo', Hso, %hfo⟩
    sl_exec
    sl_step
    have hx80 : ∀ x : S80x128.Idx, (x 0).val < Scf.trips k0_t2_loop.lb k0_t2_loop.ub k0_t2_loop.st := fun x => by
      have h1 : (x 0).val < 80 := (x 0).isLt
      have h2 : k0_t2_loop.trips = 80 := by decide
      exact lt_of_lt_of_eq h1 h2.symm
    isplitr; · iexact Hmw
    isplitl [Hx1]; · iexact Hx1
    isplitl [Hx2]; · iexact Hx2
    isplitl [Hs0]; · iexact Hs0
    isplitl [Hs1]; · iexact Hs1
    isplitl [Hsa]; · iexists _; iexact Hsa
    isplitl [Hsb]; · iexists _; iexact Hsb
    isplitl [Hso]; · iexists _; iexact Hso
    isplitl [Hg0]; · iexact Hg0
    isplitl [Hg1]; · iexact Hg1
    isplitl [Hco]; · iexact Hco
    isplitl [Htodo]; · iexact Htodo
    isplitl [Hdone Hck]
    · rw [Cert.Lib.ChunkFamilies.done_push _ k.val k.isLt]
      isplitl [Hdone]; · iexact Hdone
      iapply (Entails.of_eq (pointsTo_congr (g := G m d) ?hcong))
      rotate_left
      · iexact Hck
      · refine chunk_congr (F := F) d L k _ _ _ ?_
        intro x
        exact (hfo x (hx80 x)).trans (hce k _ _ x)
    iexists _; isplitr
    rotate_left
    · iexact HO
    · ipureintro; intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact hW' p hp
  · unfold invChunk
    rw [Cert.Lib.ChunkFamilies.todo_zero, Cert.Lib.ChunkFamilies.done_zero]
    isplitr; · iexact Hmw
    isplitl [Hx1]; · iexact Hx1
    isplitl [Hx2]; · iexact Hx2
    isplitl [Hs0]; · iexact Hs0
    isplitl [Hs1]; · iexact Hs1
    isplitl [Hsa]; · iexists _; iexact Hsa
    isplitl [Hsb]; · iexists _; iexact Hsb
    isplitl [Hso]; · iexists _; iexact Hso
    isplitl [Hg0]; · iexact Hg0
    isplitl [Hg1]; · iexact Hg1
    isplitl [Hco]; · iexact Hco
    isplitl [Hchunks]; · unfold chunkAt; iexact Hchunks
    isplitr; · iempintro
    iexists _; isplitr
    rotate_left
    · iexact HO
    · ipureintro; intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact .inl hp
  iintro %_ HI
  unfold invChunk
  icases HI with ⟨-, Hx1, Hx2, Hs0, Hs1, ⟨%fa', Hsa⟩, ⟨%fb', Hsb⟩, ⟨%fo', Hso⟩, Hg0, Hg1, Hco, -, Hdone, %W', %hW', HO⟩
  ihave Hdone := (Entails.of_eq (Cert.Lib.ChunkFamilies.done_top _ _ (le_refl _))) $$ Hdone
  sl_exec
  sl_step
  isplitl [Hx1 Hx2 Hi0 Hi1 Hdone Hhead]
  · isplitl [Hx1 Hx2 Hi0 Hi1]
    · isplitl [Hx1 Hx2]
      · iapply (Entails.of_eq (pts_x (F := F) d L q _))
        iapply (Entails.of_eq (x_halves (F := F) d L q _).symm)
        isplitl [Hx1]; · iexact Hx1
        iexact Hx2
      isplitl [Hi0]; · iexact Hi0
      iexact Hi1
    · rw [outPieces_pos d L _ k0_h1]
      isplitl [Hhead]
      · iapply (Entails.of_eq (pointsTo_congr (g := G m d) ?hcongHead))
        rotate_left
        · iexact Hhead
        · refine head_congr (F := F) d L k0_h1 _ _ _ ?_
          intro x
          exact hhe k0_h1 x
      unfold chunkAt
      iexact Hdone
  isplitl [Hs0 Hs1 Hsa Hsb Hso Hbufs]
  · isplitl [Hs0]; · iexists _; iexact Hs0
    isplitl [Hs1]; · iexists _; iexact Hs1
    isplitl [Hsa]; · iexists _; iexact Hsa
    isplitl [Hsb]; · iexists _; iexact Hsb
    isplitl [Hso]; · iexists _; iexact Hso
    iexact Hbufs
  isplitl [Hg0 Hg1 Hh Hc0 Hc1 Hco Hsems]
  · isplitl [Hg0]; · iexact Hg0
    isplitl [Hg1]; · iexact Hg1
    isplitl [Hh]; · iexact Hh
    isplitl [Hc0]; · iexact Hc0
    isplitl [Hc1]; · iexact Hc1
    isplitl [Hco]; · iexact Hco
    iexact Hsems
  iexists W'; isplitr
  · ipureintro; exact hW'
  · iexact HO

/-- The task, for every worker. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ (reads m d q ∗ outPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pool_kernel L xV (Memref.isWhole_whole _) i0V (Memref.isWhole_whole _) i1V (Memref.isWhole_whole _) oV (Memref.isWhole_whole _)
            sI0 (Memref.isWhole_whole _) sI1 (Memref.isWhole_whole _) sA (Memref.isWhole_whole _) sB (Memref.isWhole_whole _) sO (Memref.isWhole_whole _)
            cc0_scratch5 cc0_scratch6 cc0_scoped0 cc0_scoped1 cc0_scoped2 cc0_scoped3)
          fun _ => iprop((reads m d q ∗ outPieces d L (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases k0_h1 : k0_cond1 L = 1#1
  · exact tile_pos m d L hF hpre q O W hO (chunk_entry m d L hpre) (head_entry m d L) k0_h1
  · exact tile_neg m d L hF hpre q O W hO (chunk_entry m d L hpre) k0_h1

end Tile

/-! ## The launch theorem's obligation -/

theorem defs₀_vector (c : Fin τ.nSC) (s : Fin τ.nSub) :
    defs₀ (F := F) (.scVector c s) 0 ()
      = SparseCore.onTile hcore0 hsub0 (fun c s => cc0__pool_kernel (coordsV c s)
          xV (Memref.isWhole_whole _) i0V (Memref.isWhole_whole _) i1V (Memref.isWhole_whole _) oV (Memref.isWhole_whole _)
          sI0 (Memref.isWhole_whole _) sI1 (Memref.isWhole_whole _) sA (Memref.isWhole_whole _) sB (Memref.isWhole_whole _) sO (Memref.isWhole_whole _)
          cc0_scratch5 cc0_scratch6 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre _ O W hO).trans (wp_mono frame _ _ fun _ => obl_post)

end Cert.Proof.KernelIdealRun

end
-- ==== Proof.KernelIdealRun.lean ====
import proofs.«208565_g47476568490134_cont_8to1_c_213_4_alg».proof.Proof.KernelIdealLaunch
import proofs.«208565_g47476568490134_cont_8to1_c_213_4_alg».proof.Proof.KernelIdealBody

/-!
# The kernel's run

Every weakly fair execution of the device's threads — the TensorCore's host operations and call,
the two sequencers, the thirty-two vector subcores and the DMA engine — terminates without a fault;
at the end the result holds the table followed by the midpoints of the listed pairs of rows, and the
table and the pairs are unchanged. The launch theorem is applied to the task proved for every worker.
-/

noncomputable section

namespace Cert.Proof.KernelIdealRun

open Cert.KernelIdeal Cert.KernelIdeal.Gen
open Idealize.ShloMosaic Idealize.SL.Sem

variable {F : FTy → Type} [FloatOps F]

theorem run [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩
      (fun r => ∀ c : Dev nD, r.2.mem (oLoc c) = G m c ∧ r.2.mem (xLoc c) = m (xLoc c) ∧ r.2.mem (pLoc c) = m (pLoc c)) :=
  run_main (F := F) m ρ (tileObl m hpre)

end Cert.Proof.KernelIdealRun

end
-- ==== Proof.KernelSetup.lean ====
import proofs.«208565_g47476568490134_cont_8to1_c_213_4_alg».proof.Kernel
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic
import proofs.«208565_g47476568490134_cont_8to1_c_213_4_alg».proof.Proof.Gen.Kernel
import proofs.«208565_g47476568490134_cont_8to1_c_213_4_alg».proof.Proof.Gen.Kernel.Skeleton
import proofs.«208565_g47476568490134_cont_8to1_c_213_4_alg».proof.Proof.PoolSpec

/-!
# The pooling kernel as the launch theorem sees it

Thirty-two vector subcores share the work: subcore `s` of SparseCore `c` is worker `w = 2 s + c`.
Worker `w` copies rows `[400 w, 400 w + 400)` of the table into the result when `w < 25`, and for
each of its 125 chunks `k` writes the 80 midpoint rows `[10000 + 10000 w + 80 k, … + 80)` of the
result. Every worker reads the table and the two index columns, so those go out as read shares;
the result goes out cut into exactly the pieces each worker writes, and comes back at the
specified contents.
-/

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the buffers and their contents -/

variable (m : (ℓ : Loc nD τ sig) → Buf (Elt F) ℓ) (ρ : Dev nD → PrngReg)

/-- The table `x`, the pairs `pool_idx`, its two columns as the host hands them to the kernel, and the result. -/
abbrev xLoc (d : Dev nD) : Loc nD τ sig := (SparseCore.T d).loc main_arg0
abbrev pLoc (d : Dev nD) : Loc nD τ sig := (SparseCore.T d).loc main_arg1
abbrev i0Loc (d : Dev nD) : Loc nD τ sig := (SparseCore.T d).loc main_v1
abbrev i1Loc (d : Dev nD) : Loc nD τ sig := (SparseCore.T d).loc main_v3
abbrev oLoc (d : Dev nD) : Loc nD τ sig := (SparseCore.T d).loc main_v4

abbrev xV : Memref sig .scVector .hbm S10000x128 .f32 := Memref.whole main_arg0_scv
abbrev i0V : Memref sig .scVector .hbm S320000 .i32 := Memref.whole main_v1_scv
abbrev i1V : Memref sig .scVector .hbm S320000 .i32 := Memref.whole main_v3_scv
abbrev oV : Memref sig .scVector .hbm S330000x128 .f32 := Memref.whole main_v4_scv
/-- A worker's scratch: its 10000 indices of each column, the two gathered blocks, the block of midpoints. -/
abbrev sI0 : Memref sig .scVector .vmem S10000 .i32 := Memref.whole cc0_scratch0
abbrev sI1 : Memref sig .scVector .vmem S10000 .i32 := Memref.whole cc0_scratch1
abbrev sA : Memref sig .scVector .vmem S80x128 .f32 := Memref.whole cc0_scratch2
abbrev sB : Memref sig .scVector .vmem S80x128 .f32 := Memref.whole cc0_scratch3
abbrev sO : Memref sig .scVector .vmem S80x128 .f32 := Memref.whole cc0_scratch4

/-- Column `j` of the pairs: entry `e` is word `j` of pair `e`. -/
def col (p : IVec S320000x2 32) (j : Fin 2) : IVec S320000 32 :=
  fun e => p (ix2 (⟨(e 0).val, (e 0).isLt⟩ : Fin 320000) j)

variable [FloatOps F]

/-- What the result holds at the end: the table followed by the midpoints of the listed pairs of rows. -/
def G (d : Dev nD) : Buf (Elt F) (oLoc d) := Cert.Pool.pooled (F := F) (m (xLoc d)) (m (pLoc d))

/-- What the proof asks of the launch memory: every word of the pairs names a row of the table. -/
def PreOK : Prop := ∀ (d : Dev nD) j, ((m (pLoc d) : IVec S320000x2 32) j).toNat < 10000

/-! ## The pieces of the result a worker writes -/

def coordsV (c : Fin (grid0.bound 0)) (s : Fin (grid0.bound 1)) : grid0.Coords :=
  fun | 0 => c | 1 => s | ⟨_ + 2, h⟩ => absurd h (Nat.not_lt.2 (Nat.le_add_left _ _))

/-- The 400 rows of the table a worker below 25 copies, as the kernel slices them out of the result. -/
abbrev outHead (L : grid0.Coords) (h : k0_cond1 L = 1#1) : Memref sig .scVector .hbm S400x128 .f32 :=
  (oV : Memref sig .scVector .hbm S330000x128 .f32).slice (Rect.unit (s := S330000x128) (k0_off1 L) S400x128.size (k0_off1_inb L h)) (fun _ => rfl)
/-- Chunk `k`'s 80 midpoint rows, as the kernel slices them out of the result. -/
abbrev outChunk (L : grid0.Coords) (k : Fin k0_t1_loop.trips) : Memref sig .scVector .hbm S80x128 .f32 :=
  (oV : Memref sig .scVector .hbm S330000x128 .f32).slice (Rect.unit (s := S330000x128) (k0_off13 L k) S80x128.size (k0_off13_inb L k)) (fun _ => rfl)

/-- The result's elements worker `L` owns, at contents `f`. -/
def outPieces (d : Dev nD) (L : grid0.Coords) (f : Buf (Elt F) (oLoc d)) : sProp 𝕄 :=
  iprop((if h : k0_cond1 L = 1#1 then (oLoc d ↦[(outHead L h).view.set]{fullShare} f : sProp 𝕄) else iprop(emp))
    ∗ bigSep Finset.univ fun k : Fin k0_t1_loop.trips => (oLoc d ↦[(outChunk L k).view.set]{fullShare} f : sProp 𝕄))

/-! ## The read shares -/

/-- A SparseCore's share of what every worker reads, and a worker's share of that. -/
abbrev shC (c : Fin 2) : PosShare TreeShare := pieceOf fullShare 2 (by decide) c
abbrev shT (c : Fin 2) (i : Fin 16) : PosShare TreeShare := pieceOf (shC c) 16 (by decide) i

/-- The table and the two index columns, whole, at share `q`. -/
def reads (d : Dev nD) (q : PosShare TreeShare) : sProp 𝕄 :=
  iprop((xLoc d ↦{q} m (xLoc d)) ∗ (i0Loc d ↦{q} col (m (pLoc d)) 0) ∗ (i1Loc d ↦{q} col (m (pLoc d)) 1))

/-! ## What the handshakes carry -/

/-- The one call hands each SparseCore its share of the reads and its sixteen workers' pieces of the result, each
    worker its share and its pieces, and brings them back, the pieces at the specified contents. -/
def P : (K (F := F)).Pay (nD := nD) (Val := Elt F) (Name := ℕ) (U := UU) where
  st := fun q d c => match q with
    | 0 => iprop(reads m d (shC (Fin.cast nCore_zero c))
        ∗ bigSep Finset.univ fun i : Fin 16 => outPieces d (coordsV (Fin.cast nCore_zero c) i) (m (oLoc d)))
  dn := fun q d c => match q with
    | 0 => iprop(reads m d (shC (Fin.cast nCore_zero c))
        ∗ bigSep Finset.univ fun i : Fin 16 => outPieces d (coordsV (Fin.cast nCore_zero c) i) (G m d))
  go := fun q d c i => match q with
    | 0 => iprop(reads m d (shT (Fin.cast nCore_zero c) (Fin.cast nSub_zero i))
        ∗ outPieces d (coordsV (Fin.cast nCore_zero c) (Fin.cast nSub_zero i)) (m (oLoc d)))
  td := fun q d c i => match q with
    | 0 => iprop(reads m d (shT (Fin.cast nCore_zero c) (Fin.cast nSub_zero i))
        ∗ outPieces d (coordsV (Fin.cast nCore_zero c) (Fin.cast nSub_zero i)) (G m d))
  x := fun _ _ => iprop(emp)

instance outPieces_storable (d : Dev nD) (L : grid0.Coords) (f : Buf (Elt F) (oLoc d)) :
    BI.Storable (upEmb : UEmb _ 𝕄) (outPieces (F := F) d L f) := by
  unfold outPieces; split <;> infer_instance

instance reads_storable (d : Dev nD) (q : PosShare TreeShare) : BI.Storable (upEmb : UEmb _ 𝕄) (reads (F := F) m d q) := by
  unfold reads; infer_instance

/-- A separating conjunction of storable assertions over a finite family is storable. -/
theorem storable_family {I : Type} (s : Finset I) (Φ : I → sProp 𝕄) (h : ∀ i, BI.Storable (upEmb : UEmb _ 𝕄) (Φ i)) :
    BI.Storable (upEmb : UEmb _ 𝕄) (bigSep s Φ) := by
  classical
  induction s using Finset.induction_on with
  | empty => exact BI.Storable.emp _
  | insert i s hi ih => rw [BI.bigSep_insert hi]; exact @BI.Storable.sep _ _ _ _ _ _ _ _ (h i) ih

instance outAll_storable (d : Dev nD) (c : Fin (grid0.bound 0)) (f : Buf (Elt F) (oLoc d)) :
    BI.Storable (upEmb : UEmb _ 𝕄) (bigSep Finset.univ fun i : Fin 16 => outPieces (F := F) d (coordsV c i) f) :=
  storable_family _ _ fun i => outPieces_storable d (coordsV c i) f

instance P_storable : (P (F := F) m).IsStorable where
  st q d c := match q with
    | 0 => (inferInstance : BI.Storable (upEmb : UEmb _ 𝕄) iprop(reads m d (shC (Fin.cast nCore_zero c))
        ∗ bigSep Finset.univ fun i : Fin 16 => outPieces d (coordsV (Fin.cast nCore_zero c) i) (m (oLoc d))))
  dn q d c := match q with
    | 0 => (inferInstance : BI.Storable (upEmb : UEmb _ 𝕄) iprop(reads m d (shC (Fin.cast nCore_zero c))
        ∗ bigSep Finset.univ fun i : Fin 16 => outPieces d (coordsV (Fin.cast nCore_zero c) i) (G m d)))
  go q d c i := match q with
    | 0 => (inferInstance : BI.Storable (upEmb : UEmb _ 𝕄) iprop(reads m d (shT (Fin.cast nCore_zero c) (Fin.cast nSub_zero i))
        ∗ outPieces d (coordsV (Fin.cast nCore_zero c) (Fin.cast nSub_zero i)) (m (oLoc d))))
  td q d c i := match q with
    | 0 => (inferInstance : BI.Storable (upEmb : UEmb _ 𝕄) iprop(reads m d (shT (Fin.cast nCore_zero c) (Fin.cast nSub_zero i))
        ∗ outPieces d (coordsV (Fin.cast nCore_zero c) (Fin.cast nSub_zero i)) (G m d)))

end Cert.Proof.KernelRun

end
-- ==== Proof.KernelPieces.lean ====
import proofs.«208565_g47476568490134_cont_8to1_c_213_4_alg».proof.Proof.KernelSetup

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-!
# The result, cut into the pieces the workers write

Worker `w = 2 s + c` owns rows `[400 w, 400 w + 400)` of the result when `w < 25` and, for each chunk `k < 125`,
rows `[10000 + 10000 w + 80 k, … + 80)`. Membership in a piece is two inequalities on the row coordinate; the pieces
are pairwise disjoint and cover every row: a row `r < 10000` lies in worker `r / 400`'s first piece
(`25 · 400 = 10000`), a row `r ≥ 10000` with `e = r - 10000` in worker `e / 10000`'s chunk `(e % 10000) / 80`
(`32 · 125 · 80 = 320000`).
-/

theorem trips_eq : k0_t1_loop.trips = 125 := by decide

/-- The kernel's test `w < 25`, in closed form over the grid. -/
theorem cond1_iff : ∀ L : grid0.Coords, k0_cond1 L = 1#1 ↔ 2 * (L 1).val + (L 0).val < 25 := by decide +kernel

/-- An element lies in a worker's first piece when its row lies in the worker's 400 rows of the table. -/
theorem mem_head (L : grid0.Coords) (h : k0_cond1 L = 1#1) (x : S330000x128.Idx) :
    x ∈ (outHead L h).view.set ↔ 800 * (L 1).val + 400 * (L 0).val ≤ (x 0).val ∧ (x 0).val < 800 * (L 1).val + 400 * (L 0).val + 400 := by
  show x ∈ ((View.whole main_v4_scv).slice (Rect.unit (s := S330000x128) (k0_off1 L) S400x128.size (k0_off1_inb L h))).set ↔ _
  rw [View.set_slice_whole, Rect.mem_set_unit, k0_off1_eq]
  show (∀ a : Fin 2, _) ↔ _
  rw [Fin.forall_fin_two]
  have h1 : (x 1).val < 128 := (x 1).isLt
  simp only [Matrix.cons_val_zero, Matrix.cons_val_one]
  constructor
  · rintro ⟨⟨a, b⟩, -⟩; exact ⟨a, b⟩
  · rintro ⟨a, b⟩; exact ⟨⟨a, b⟩, Nat.zero_le _, by omega⟩

/-- An element lies in chunk `k` of a worker when its row lies in that chunk's 80 rows. -/
theorem mem_chunk (L : grid0.Coords) (k : Fin k0_t1_loop.trips) (x : S330000x128.Idx) :
    x ∈ (outChunk L k).view.set ↔ 20000 * (L 1).val + 10000 * (L 0).val + 80 * k.val + 10000 ≤ (x 0).val
      ∧ (x 0).val < 20000 * (L 1).val + 10000 * (L 0).val + 80 * k.val + 10000 + 80 := by
  show x ∈ ((View.whole main_v4_scv).slice (Rect.unit (s := S330000x128) (k0_off13 L k) S80x128.size (k0_off13_inb L k))).set ↔ _
  rw [View.set_slice_whole, Rect.mem_set_unit, k0_off13_eq]
  show (∀ a : Fin 2, _) ↔ _
  rw [Fin.forall_fin_two]
  have h1 : (x 1).val < 128 := (x 1).isLt
  simp only [Matrix.cons_val_zero, Matrix.cons_val_one]
  constructor
  · rintro ⟨⟨a, b⟩, -⟩; exact ⟨a, b⟩
  · rintro ⟨a, b⟩; exact ⟨⟨a, b⟩, Nat.zero_le _, by omega⟩

/-- The pieces' names: a worker (SparseCore, subcore) and either its first piece (`none`) or one of its chunks. -/
abbrev PT : Type := Fin 2 × Fin 16 × Option (Fin k0_t1_loop.trips)

/-- The elements of a piece; a worker from 25 on has no first piece. -/
def pset (t : PT) : Finset S330000x128.Idx :=
  match t.2.2 with
  | none => if h : k0_cond1 (coordsV t.1 t.2.1) = 1#1 then (outHead (coordsV t.1 t.2.1) h).view.set else ∅
  | some k => (outChunk (coordsV t.1 t.2.1) k).view.set

theorem pset_none (c : Fin 2) (i : Fin 16) :
    pset (c, i, none) = if h : k0_cond1 (coordsV c i) = 1#1 then (outHead (coordsV c i) h).view.set else ∅ := rfl
theorem pset_some (c : Fin 2) (i : Fin 16) (k : Fin k0_t1_loop.trips) : pset (c, i, some k) = (outChunk (coordsV c i) k).view.set := rfl

theorem mem_pset_none (c : Fin 2) (i : Fin 16) (x : S330000x128.Idx) :
    x ∈ pset (c, i, none) ↔ 2 * i.val + c.val < 25 ∧ 400 * (2 * i.val + c.val) ≤ (x 0).val ∧ (x 0).val < 400 * (2 * i.val + c.val) + 400 := by
  have e0 : ((coordsV c i) 0).val = c.val := rfl
  have e1 : ((coordsV c i) 1).val = i.val := rfl
  rw [pset_none]
  by_cases h : k0_cond1 (coordsV c i) = 1#1
  · rw [dif_pos h, mem_head]
    have h' := (cond1_iff _).1 h
    omega
  · rw [dif_neg h]
    have h' := mt (cond1_iff _).2 h
    simp only [Finset.notMem_empty, false_iff]
    omega

theorem mem_pset_some (c : Fin 2) (i : Fin 16) (k : Fin k0_t1_loop.trips) (x : S330000x128.Idx) :
    x ∈ pset (c, i, some k) ↔ 10000 + 10000 * (2 * i.val + c.val) + 80 * k.val ≤ (x 0).val
      ∧ (x 0).val < 10000 + 10000 * (2 * i.val + c.val) + 80 * k.val + 80 := by
  have e0 : ((coordsV c i) 0).val = c.val := rfl
  have e1 : ((coordsV c i) 1).val = i.val := rfl
  rw [pset_some, mem_chunk]
  omega

/-- Two different pieces share no element: a common row would give both the same worker and the same chunk. -/
theorem pset_disjoint : ∀ t ∈ (Finset.univ : Finset PT), ∀ t' ∈ (Finset.univ : Finset PT), t ≠ t' → Disjoint (pset t) (pset t') := by
  rintro ⟨c, i, o⟩ - ⟨c', i', o'⟩ - hne
  rw [Finset.disjoint_left]
  intro x hx hx'
  apply hne
  have hc := c.isLt
  have hc' := c'.isLt
  have hi := i.isLt
  have hi' := i'.isLt
  cases o with
  | none =>
    cases o' with
    | none =>
      rw [mem_pset_none] at hx hx'
      obtain rfl : c = c' := Fin.ext (by omega)
      obtain rfl : i = i' := Fin.ext (by omega)
      rfl
    | some k' =>
      rw [mem_pset_none] at hx; rw [mem_pset_some] at hx'
      omega
  | some k =>
    have hk : k.val < 125 := Nat.lt_of_lt_of_le k.isLt (le_of_eq trips_eq)
    cases o' with
    | none =>
      rw [mem_pset_some] at hx; rw [mem_pset_none] at hx'
      omega
    | some k' =>
      have hk' : k'.val < 125 := Nat.lt_of_lt_of_le k'.isLt (le_of_eq trips_eq)
      rw [mem_pset_some] at hx hx'
      obtain rfl : c = c' := Fin.ext (by omega)
      obtain rfl : i = i' := Fin.ext (by omega)
      obtain rfl : k = k' := Fin.ext (by omega)
      rfl

/-- Every element lies in a piece. -/
theorem pset_cover : (Finset.univ : Finset PT).biUnion pset = Finset.univ := by
  rw [Finset.eq_univ_iff_forall]
  intro x
  rw [Finset.mem_biUnion]
  have hx0 : (x 0).val < 330000 := (x 0).isLt
  by_cases hr : (x 0).val < 10000
  · refine ⟨(⟨((x 0).val / 400) % 2, by omega⟩, ⟨((x 0).val / 400) / 2, by omega⟩, none), Finset.mem_univ _, ?_⟩
    rw [mem_pset_none]; dsimp only; omega
  · refine ⟨(⟨(((x 0).val - 10000) / 10000) % 2, by omega⟩, ⟨(((x 0).val - 10000) / 10000) / 2, by omega⟩,
      some ⟨(((x 0).val - 10000) % 10000) / 80, by rw [trips_eq]; omega⟩), Finset.mem_univ _, ?_⟩
    rw [mem_pset_some]; dsimp only; omega

/-- A family over the pieces of one worker is its first piece's member and its chunks'. -/
theorem bigSep_option {α : Type} [Fintype α] (Φ : Option α → sProp 𝕄) :
    bigSep Finset.univ Φ = iprop(Φ none ∗ bigSep Finset.univ fun a => Φ (some a)) := by
  classical
  rw [show (Finset.univ : Finset (Option α)) = insert none (Finset.univ.map Function.Embedding.some) from by
      ext o; cases o <;> simp, bigSep_insert (by simp), bigSep_map]
  rfl

/-- The result whole is every worker's pieces of it. -/
theorem out_split (d : Dev nD) (f : Buf (Elt F) (oLoc d)) :
    (oLoc d ↦{fullShare} f : sProp 𝕄)
      = bigSep Finset.univ fun c : Fin 2 => bigSep Finset.univ fun i : Fin 16 => outPieces (F := F) d (coordsV c i) f := by
  have h1 : (oLoc d ↦{fullShare} f : sProp 𝕄) = bigSep Finset.univ fun t : PT => oLoc d ↦[pset t]{fullShare} f := by
    rw [← pointsTo_biUnion Finset.univ (ℓ := oLoc d) pset pset_disjoint, pset_cover]; try rfl
  rw [h1, bigSep_univ_prod]
  refine bigSep_congr fun c _ => ?_
  rw [bigSep_univ_prod]
  refine bigSep_congr fun i _ => ?_
  rw [bigSep_option]
  have e1 : (oLoc d ↦[pset (c, i, none)]{fullShare} f : sProp 𝕄)
      = (if h : k0_cond1 (coordsV c i) = 1#1 then (oLoc d ↦[(outHead (coordsV c i) h).view.set]{fullShare} f : sProp 𝕄) else iprop(emp)) := by
    rw [pset_none]
    by_cases h : k0_cond1 (coordsV c i) = 1#1
    · rw [dif_pos h, dif_pos h]
    · rw [dif_neg h, dif_neg h, pointsTo_empty]
  unfold outPieces
  rw [e1]
  simp only [pset_some]

end Cert.Proof.KernelRun

end
-- ==== Proof.KernelLaunch.lean ====
import proofs.«208565_g47476568490134_cont_8to1_c_213_4_alg».proof.Proof.KernelPieces
import Idealize.ShloMosaic.Lib.Pipeline.Value

/-!
# The launch of the pooling kernel

The TensorCore cuts the pairs into their two columns (a slice and a reshape each), hands the two SparseCores their shares
of the table and the columns and their workers' pieces of the result, and takes them back, the result at the specified
contents. A SparseCore hands each of its sixteen workers a share of its share and that worker's pieces.
-/

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after after_cons after_nil)

variable {F : FTy → Type}

local notation "𝕄" => MT nD τ sig (HIx 1) (Elt F) ℕ UU ℕ

variable (m : (ℓ : Loc nD τ sig) → Buf (Elt F) ℓ) (ρ : Dev nD → PrngReg)

/-! ## The two columns, as the host computes them -/

/-- The reshape of the slice of the pairs at column `n`, read at entry `e`, is word `n` of pair `e`: the entry has
    the row-major position of `(e, 0)` in the slice, which is `(e, n)` of the pairs. -/
theorem col_read (p : IVec S320000x2 32) (n : Nat) (hn : n < 2) (hs : S320000x2.Slices ![0, n] S320000x1)
    (hc : S320000x1.ShapeCasts S320000) (e : S320000.Idx) :
    shapeCast S320000 (extractStridedSlice S320000x1 ![0, n] p hs) hc e = col p ⟨n, hn⟩ e := by
  have he : (e 0).val < 320000 := (e 0).isLt
  refine (shapeCast_apply _ hc e (ix2 (⟨(e 0).val, he⟩ : Fin 320000) (0 : Fin 1)) ?_).trans ?_
  · rw [Shape.rowMajor_val_two, Shape.rowMajor_val_one]
    show (e 0).val * 1 + 0 = (e 0).val
    omega
  · exact extractStridedSlice_apply _ p hs _ (ix2 (⟨(e 0).val, he⟩ : Fin 320000) (⟨n, hn⟩ : Fin 2)) fun a =>
      match a with
      | ⟨0, _⟩ => by show (e 0).val = 0 + (e 0).val; omega
      | ⟨1, _⟩ => by show n = n + 0; rfl

/-! ## A share of the reads, cut -/

variable [FloatOps F]

/-- The reads at a share are the reads at its pieces. -/
theorem reads_pieces (d : Dev nD) (q : PosShare TreeShare) {o : ℕ} (ho : 0 < o) :
    reads (F := F) m d q = bigSep Finset.univ fun j : Fin o => reads (F := F) m d (pieceOf q o ho j) := by
  unfold reads
  have hx : (xLoc d ↦{q} m (xLoc d) : sProp 𝕄) = bigSep Finset.univ fun j : Fin o => xLoc d ↦{pieceOf q o ho j} m (xLoc d) :=
    pointsTo_piecesOf _ _ ho q
  have h0 : (i0Loc d ↦{q} col (m (pLoc d)) 0 : sProp 𝕄) = bigSep Finset.univ fun j : Fin o => i0Loc d ↦{pieceOf q o ho j} col (m (pLoc d)) 0 :=
    pointsTo_piecesOf _ _ ho q
  have h1 : (i1Loc d ↦{q} col (m (pLoc d)) 1 : sProp 𝕄) = bigSep Finset.univ fun j : Fin o => i1Loc d ↦{pieceOf q o ho j} col (m (pLoc d)) 1 :=
    pointsTo_piecesOf _ _ ho q
  rw [bigSep_sep', bigSep_sep', ← hx, ← h0, ← h1]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem P_st (d : Dev nD) (c : Fin ((K (F := F)).nCore 0)) :
    (P (F := F) m).st 0 d c = iprop(reads m d (shC (Fin.cast nCore_zero c))
      ∗ bigSep Finset.univ fun i : Fin 16 => outPieces d (coordsV (Fin.cast nCore_zero c) i) (m (oLoc d))) := rfl
theorem P_dn (d : Dev nD) (c : Fin ((K (F := F)).nCore 0)) :
    (P (F := F) m).dn 0 d c = iprop(reads m d (shC (Fin.cast nCore_zero c))
      ∗ bigSep Finset.univ fun i : Fin 16 => outPieces d (coordsV (Fin.cast nCore_zero c) i) (G m d)) := rfl
theorem P_go (d : Dev nD) (c : Fin ((K (F := F)).nCore 0)) (i : Fin ((K (F := F)).nSub 0)) :
    (P (F := F) m).go 0 d c i = iprop(reads m d (shT (Fin.cast nCore_zero c) (Fin.cast nSub_zero i))
      ∗ outPieces d (coordsV (Fin.cast nCore_zero c) (Fin.cast nSub_zero i)) (m (oLoc d))) := rfl
theorem P_td (d : Dev nD) (c : Fin ((K (F := F)).nCore 0)) (i : Fin ((K (F := F)).nSub 0)) :
    (P (F := F) m).td 0 d c i = iprop(reads m d (shT (Fin.cast nCore_zero c) (Fin.cast nSub_zero i))
      ∗ outPieces d (coordsV (Fin.cast nCore_zero c) (Fin.cast nSub_zero i)) (G m d)) := rfl

/-! ## A SparseCore's share among its workers -/

/-- A SparseCore's share of the reads is its sixteen workers' shares; the pieces of the result are already per worker.
    The split is an equality, and the join is the same equality at the specified contents. -/
theorem vecSplit : (K (F := F)).VecSplit' (P m) 0 := by
  intro d c
  have hgo : (bigSep Finset.univ fun i : Fin ((K (F := F)).nSub 0) => (P (F := F) m).go 0 d c i)
      = bigSep Finset.univ fun i : Fin 16 => iprop(reads m d (shT (Fin.cast nCore_zero c) i) ∗ outPieces d (coordsV (Fin.cast nCore_zero c) i) (m (oLoc d))) :=
    bigSep_tasks (F := F) fun i => iprop(reads m d (shT (Fin.cast nCore_zero c) i) ∗ outPieces d (coordsV (Fin.cast nCore_zero c) i) (m (oLoc d)))
  have htd : (bigSep Finset.univ fun i : Fin ((K (F := F)).nSub 0) => (P (F := F) m).td 0 d c i)
      = bigSep Finset.univ fun i : Fin 16 => iprop(reads m d (shT (Fin.cast nCore_zero c) i) ∗ outPieces d (coordsV (Fin.cast nCore_zero c) i) (G m d)) :=
    bigSep_tasks (F := F) fun i => iprop(reads m d (shT (Fin.cast nCore_zero c) i) ∗ outPieces d (coordsV (Fin.cast nCore_zero c) i) (G m d))
  rw [hgo, htd, P_st, P_dn, bigSep_sep', bigSep_sep', ← reads_pieces m d (shC (Fin.cast nCore_zero c)) (o := 16) (by decide)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = iprop(emp) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## @main on the TensorCore -/

abbrev rX : DevRef τ sig := Proc.devRef .tc (main_arg0 : Ref sig .tc)
abbrev rP : DevRef τ sig := Proc.devRef .tc (main_arg1 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

/-- The TensorCore's arrays, all unscoped: the table, the pairs, the two slices, the two columns, the result. -/
abbrev S7 : Finset (DevRef τ sig) := {rX, rP, r0, r1, r2, r3, r4}

/-- The host's four operations: column 0 sliced out of the pairs and flattened, then column 1. -/
abbrev op0 : HloOp τ sig (Elt F) :=
  StableHlo.unary main_arg1 main_v0 ((extractStridedSlice S320000x1 ![0, 0] · slices_S320000x2_S320000x1_0_0) : (⟨S320000x2, .i32⟩ : BufTy).Contents (Elt F) → (⟨S320000x1, .i32⟩ : BufTy).Contents (Elt F))
abbrev op1 : HloOp τ sig (Elt F) := StableHlo.reshape main_v0 main_v1 rfl shapeCasts_S320000x1_S320000
abbrev op2 : HloOp τ sig (Elt F) :=
  StableHlo.unary main_arg1 main_v2 ((extractStridedSlice S320000x1 ![0, 1] · slices_S320000x2_S320000x1_0_1) : (⟨S320000x2, .i32⟩ : BufTy).Contents (Elt F) → (⟨S320000x1, .i32⟩ : BufTy).Contents (Elt F))
abbrev op3 : HloOp τ sig (Elt F) := StableHlo.reshape main_v2 main_v3 rfl shapeCasts_S320000x1_S320000

omit [FloatOps F] in
theorem held_S7 (d : Dev nD) (W : Valuation τ sig (Elt F)) :
    (held (T d) S7 W : sProp 𝕄) = iprop((xLoc d ↦{fullShare} W rX) ∗ (pLoc d ↦{fullShare} W rP) ∗ ((SparseCore.T d).loc main_v0 ↦{fullShare} W r0)
      ∗ (i0Loc d ↦{fullShare} W r1) ∗ ((SparseCore.T d).loc main_v2 ↦{fullShare} W r2) ∗ (i1Loc d ↦{fullShare} W r3) ∗ (oLoc d ↦{fullShare} W r4)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ ((SparseCore.T d).loc main_v0 ↦{fullShare} W main_v0)
      ∗ (i0Loc d ↦{fullShare} W main_v1) ∗ ((SparseCore.T d).loc main_v2 ↦{fullShare} W main_v2) ∗ (i1Loc d ↦{fullShare} W main_v3) ∗ (oLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and what the four operations make of it. -/
def V0 (d : Dev nD) : Valuation τ sig (Elt F) := fun b => m (d, b)
def V4 (d : Dev nD) : Valuation τ sig (Elt F) := after [op0, op1, op2, op3] (V0 m d)

theorem unscoped_held (d : Dev nD) : (unscopedBufs d (fun b => m ((SparseCore.T d).loc b)) : sProp 𝕄) = held (T d) S7 (V0 m d) := by
  rw [unscopedBufs_eq, held_S7]; rfl

theorem V4_x (d : Dev nD) : V4 m d rX = m (xLoc d) := by
  unfold V4; after_results; rfl
theorem V4_p (d : Dev nD) : V4 m d rP = m (pLoc d) := by
  unfold V4; after_results; rfl
theorem V4_o (d : Dev nD) : V4 m d r4 = m (oLoc d) := by
  unfold V4; after_results; rfl
theorem V4_1 (d : Dev nD) : V4 m d r1 = col (m (pLoc d)) 0 := by
  unfold V4; after_results
  funext e
  exact col_read (m (pLoc d)) 0 (by decide) _ _ e
theorem V4_3 (d : Dev nD) : V4 m d r3 = col (m (pLoc d)) 1 := by
  unfold V4; after_results
  funext e
  exact col_read (m (pLoc d)) 1 (by decide) _ _ e

/-- After the four operations: the table, the pairs and the result as launched, the two columns in their buffers. -/
theorem held_V4 (d : Dev nD) :
    (held (T d) S7 (V4 m d) : sProp 𝕄) = iprop((xLoc d ↦{fullShare} m (xLoc d)) ∗ (pLoc d ↦{fullShare} m (pLoc d)) ∗ ((SparseCore.T d).loc main_v0 ↦{fullShare} V4 m d r0)
      ∗ (i0Loc d ↦{fullShare} col (m (pLoc d)) 0) ∗ ((SparseCore.T d).loc main_v2 ↦{fullShare} V4 m d r2) ∗ (i1Loc d ↦{fullShare} col (m (pLoc d)) 1)
      ∗ (oLoc d ↦{fullShare} m (oLoc d))) := by
  rw [held_S7, V4_x, V4_p, V4_1, V4_3, V4_o]

theorem held_V4' (d : Dev nD) :
    (held (T d) S7 ((op3 (F := F)).result ((op2 (F := F)).result ((op1 (F := F)).result ((op0 (F := F)).result (V0 m d))))) : sProp 𝕄)
      = iprop((xLoc d ↦{fullShare} m (xLoc d)) ∗ (pLoc d ↦{fullShare} m (pLoc d)) ∗ ((SparseCore.T d).loc main_v0 ↦{fullShare} V4 m d r0)
      ∗ (i0Loc d ↦{fullShare} col (m (pLoc d)) 0) ∗ ((SparseCore.T d).loc main_v2 ↦{fullShare} V4 m d r2) ∗ (i1Loc d ↦{fullShare} col (m (pLoc d)) 1)
      ∗ (oLoc d ↦{fullShare} m (oLoc d))) := held_V4 m d

theorem h0 : (op0 (F := F)).bufs ⊆ S7 := show ({rP, r0} : Finset (DevRef τ sig)) ⊆ S7 by decide
theorem h1 : (op1 (F := F)).bufs ⊆ S7 := show ({r0, r1} : Finset (DevRef τ sig)) ⊆ S7 by decide
theorem h2 : (op2 (F := F)).bufs ⊆ S7 := show ({rP, r2} : Finset (DevRef τ sig)) ⊆ S7 by decide
theorem h3 : (op3 (F := F)).bufs ⊆ S7 := show ({r2, r3} : Finset (DevRef τ sig)) ⊆ S7 by decide

/-- What the call takes for the two SparseCores — the reads and the result, whole — and what it hands back. -/
theorem st0_eq (d : Dev nD) :
    (bigSep Finset.univ fun c : Fin ((K (F := F)).nCore 0) => (P m).st 0 d c) = iprop(reads m d fullShare ∗ (oLoc d ↦{fullShare} m (oLoc d))) := by
  refine (bigSep_cores (F := F) fun c => iprop(reads m d (shC c) ∗ bigSep Finset.univ fun i : Fin 16 => outPieces d (coordsV c i) (m (oLoc d)))).trans ?_
  rw [bigSep_sep', ← reads_pieces m d fullShare (o := 2) (by decide), ← out_split]
theorem dn0_eq (d : Dev nD) :
    (bigSep Finset.univ fun c : Fin ((K (F := F)).nCore 0) => (P m).dn 0 d c) = iprop(reads m d fullShare ∗ (oLoc d ↦{fullShare} G m d)) := by
  refine (bigSep_cores (F := F) fun c => iprop(reads m d (shC c) ∗ bigSep Finset.univ fun i : Fin 16 => outPieces d (coordsV c i) (G m d))).trans ?_
  rw [bigSep_sep', ← reads_pieces m d fullShare (o := 2) (by decide), ← out_split]

/-- What @main leaves the claim: the table and the pairs as launched, the result at the specified contents. -/
abbrev FIN (d : Dev nD) : sProp 𝕄 := iprop((xLoc d ↦{fullShare} m (xLoc d)) ∗ (pLoc d ↦{fullShare} m (pLoc d)) ∗ (oLoc d ↦{fullShare} G m d))

/-- @main on device `d`'s TensorCore: the two columns cut out of the pairs, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S7) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S7) h1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S7) h2 (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S7) h3
    (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  ihave Hh := (Entails.of_eq (held_V4' (F := F) m d)) $$ Hheld
  icases Hh with ⟨Hx, Hp, -, H1, -, H3, Ho⟩
  -- the call: the reads and the result to the two SparseCores and back
  iapply ((K (F := F)).wp_run (D (F := F)) 𝒱 (EH := EH) (P := P m) κ d 0) $$ [Hst Hx Hp H1 H3 Ho]
  isplitr; · iexact Hctx
  isplitl [Hst]; · iexact Hst
  isplitl [Hx H1 H3 Ho]
  · rw [st0_eq]; unfold reads
    isplitl [Hx H1 H3]
    · isplitl [Hx]; · iexact Hx
      isplitl [H1]; · iexact H1
      iexact H3
    · iexact Ho
  iintro ⟨Hst, Hdn⟩
  ihave Hdn' := (Entails.of_eq (dn0_eq m d)) $$ Hdn
  unfold reads
  icases Hdn' with ⟨⟨Hx, -, -⟩, Ho⟩
  imodintro
  isplitl [Hst]; · iexact Hst
  isplitl [Hx]; · iexact Hx
  isplitl [Hp]; · iexact Hp
  iexact Ho

def fq (d : Dev nD) (s' : Phys nD τ sig (Elt F)) : Prop :=
  s'.mem.mem (oLoc d) = G m d ∧ s'.mem.mem (xLoc d) = m (xLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Hx, Hp, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the device's threads ends with the result at the specified contents and the two
    arguments as launched, given one worker's task proved at a symbolic place. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (oLoc c) = G m c ∧ r.2.mem (xLoc c) = m (xLoc c) ∧ r.2.mem (pLoc c) = m (pLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KernelRun

end
-- ==== Proof.KernelRows.lean ====
import proofs.«208565_g47476568490134_cont_8to1_c_213_4_alg».proof.Proof.Gen.Kernel.Skeleton
import proofs.«208565_g47476568490134_cont_8to1_c_213_4_alg».proof.Proof.PoolSpec
import Idealize.ShloMosaic.Lib.Writes
import Idealize.ShloMosaic.Lib.ValueIdx
import Idealize.ShloMosaic.Lib.Pipeline.Value

/-!
# One block of 80 midpoint rows

The kernel fills its 80 × 128 block of midpoints row by row, each row in eight stores of 16 lanes:
lanes `[16 j, 16 j + 16)` of row `r` receive `(a + b) · ½` of the same lanes of row `r` of the two
gathered blocks `A` and `B`. A 16-lane group travels as a 1 × 16 row, is flattened to 16 entries
for the arithmetic and cast back; the casts keep each entry in its lane. Hence after the trips
below `n` every row below `n` of the block holds the midpoints of `A` and `B`, whatever the block
held before, and one more trip extends this to `n + 1`.
-/

noncomputable section

namespace Cert.Proof.KernelRun

open Cert.Kernel Cert.Kernel.Gen
open Idealize.ShloMosaic Idealize.ShloMosaic.ValueIdx

variable {F : FTy → Type} [FloatOps F]

/-- The lane of a 1 × 16 row index, as an index of the flat 16-vector. -/
abbrev lane (x : S1x16.Idx) : S16.Idx := ix1 (⟨(x 1).val, (x 1).isLt⟩ : Fin 16)

theorem rowMajor_lane (x : S1x16.Idx) : (S1x16.rowMajor x).val = (S16.rowMajor (lane x)).val := by
  rw [Shape.rowMajor_val_two, Shape.rowMajor_val_one]
  have h1 : (x 0).val < 1 := (x 0).isLt
  have h0 : (x 0).val = 0 := by omega
  show (x 0).val * 16 + (x 1).val = (x 1).val
  omega

/-- A 1 × 16 row flattened reads, at a lane, the row's entry in that lane. -/
theorem flat_apply (v : Vec F S1x16 .f32) (x : S1x16.Idx) : shapeCast S16 v shapeCasts_S1x16_S16 (lane x) = v x :=
  shapeCast_apply v shapeCasts_S1x16_S16 (lane x) x (rowMajor_lane x)

/-- A flat 16-vector cast to a 1 × 16 row reads, at an index, the vector's entry in that lane. -/
theorem unflat_apply (w : FVec F S16 .f32) (x : S1x16.Idx) : shapeCast S1x16 w shapeCasts_S16_S1x16 x = w (lane x) :=
  shapeCast_apply w shapeCasts_S16_S1x16 x (lane x) (rowMajor_lane x).symm

/-- The stored 16 lanes are the midpoints of the two loaded groups, lane by lane. -/
theorem pay3_apply (va vb : Vec F S1x16 .f32) (x : S1x16.Idx) : k0_pay3 va vb x = Cert.Pool.mid (va x) (vb x) := by
  unfold k0_pay3
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay4_apply (va vb : Vec F S1x16 .f32) (x : S1x16.Idx) : k0_pay4 va vb x = Cert.Pool.mid (va x) (vb x) := by
  unfold k0_pay4
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay5_apply (va vb : Vec F S1x16 .f32) (x : S1x16.Idx) : k0_pay5 va vb x = Cert.Pool.mid (va x) (vb x) := by
  unfold k0_pay5
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay8_apply (va vb : Vec F S1x16 .f32) (x : S1x16.Idx) : k0_pay8 va vb x = Cert.Pool.mid (va x) (vb x) := by
  unfold k0_pay8
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay9_apply (va vb : Vec F S1x16 .f32) (x : S1x16.Idx) : k0_pay9 va vb x = Cert.Pool.mid (va x) (vb x) := by
  unfold k0_pay9
  rw [unflat_apply]
  show FloatOps.mulf (FloatOps.addf (shapeCast S16 va shapeCasts_S1x16_S16 (lane x)) (shapeCast S16 vb shapeCasts_S1x16_S16 (lane x))) _ = _
  rw [flat_apply, flat_apply]; rfl
theorem pay2_apply (va vb : Vec F S1x16 .f32) (x : S1x16.Idx) : k0_pay2 va vb x = Cert.Pool.mid (va x) (vb x) := by
  unfold k0_pay2
  rw [unflat_apply]
  show FloatOps.mulf (FloatOps.addf (shapeCast S16 va shapeCasts_S1x16_S16 (lane x)) (shapeCast S16 vb shapeCasts_S1x16_S16 (lane x))) _ = _
  rw [flat_apply, flat_apply]; rfl
/-- The fourth group's first operand is flattened in one part of the body and used in the next. -/
theorem pay7_apply (va vb : Vec F S1x16 .f32) (x : S1x16.Idx) : k0_pay7 (k0_pay6 va) vb x = Cert.Pool.mid (va x) (vb x) := by
  unfold k0_pay7 k0_pay6
  rw [unflat_apply]
  show FloatOps.mulf (FloatOps.addf (shapeCast S16 va shapeCasts_S1x16_S16 (lane x)) (shapeCast S16 vb shapeCasts_S1x16_S16 (lane x))) _ = _
  rw [flat_apply, flat_apply]; rfl
/-- The seventh group's sum and the constant are formed in one part of the body and multiplied in the next. -/
theorem pay1_apply (va vb : Vec F S1x16 .f32) (x : S1x16.Idx) : k0_pay1 (k0_pay10 va vb) (k0_pay11 (F := F)) x = Cert.Pool.mid (va x) (vb x) := by
  unfold k0_pay1 k0_pay10 k0_pay11
  rw [unflat_apply]
  show FloatOps.mulf (FloatOps.addf (shapeCast S16 va shapeCasts_S1x16_S16 (lane x)) (shapeCast S16 vb shapeCasts_S1x16_S16 (lane x))) _ = _
  rw [flat_apply, flat_apply]; rfl

/-- Rows below `n` of the block `fo` hold the midpoints of the blocks `A` and `B`. -/
def RowsDone (A B fo : S80x128.Idx → F .f32) (n : ℕ) : Prop :=
  ∀ y : S80x128.Idx, (y 0).val < n → fo y = Cert.Pool.mid (A y) (B y)

theorem RowsDone.zero (A B fo : S80x128.Idx → F .f32) : RowsDone A B fo 0 := fun _ h => absurd h (Nat.not_lt_zero _)

/-- Stores that all lie in row `r`, cover it, and each store the midpoints, extend the finished rows from `r` to `r + 1`. -/
theorem RowsDone.step {sig : RefSig} {κ : Kind} {sp : Space} (v : View sig κ sp S80x128 .f32)
    (A B : S80x128.Idx → F .f32) (f : v.ty.Contents (Elt F)) (r : ℕ)
    (L : List (View.Piece (Elt F) S80x128 .f32))
    (hpay : ∀ p ∈ L, ∀ x : p.1.shape.Idx, p.2 x = Cert.Pool.mid (A (p.1.emb x)) (B (p.1.emb x)))
    (hrow : ∀ p ∈ L, ∀ y : S80x128.Idx, y ∈ p.1.set → (y 0).val = r)
    (hcov : ∀ y : S80x128.Idx, (y 0).val = r → ∃ p ∈ L, y ∈ p.1.set)
    (h : RowsDone A B (v.read (Elt F) f) r) :
    RowsDone A B (v.read (Elt F) (v.writes (Elt F) f L)) (r + 1) := by
  intro y hy
  by_cases hr : (y 0).val = r
  · exact View.read_writes_apply_of_pieces (v := v) (f := f) (fun y => Cert.Pool.mid (A y) (B y)) L hpay y (hcov y hr)
  · rw [View.read_writes_apply_of_forall_not_mem (v := v) (f := f) y L fun p hp hm => hr (hrow p hp y hm)]
    exact h y (by omega)

end Cert.Proof.KernelRun

end
-- ==== Proof.KernelTileDefs.lean ====
import proofs.«208565_g47476568490134_cont_8to1_c_213_4_alg».proof.Proof.KernelSetup
import proofs.«208565_g47476568490134_cont_8to1_c_213_4_alg».proof.Proof.LibChunkFamilies
import proofs.«208565_g47476568490134_cont_8to1_c_213_4_alg».proof.Proof.KernelRows
import Idealize.ShloMosaic.Lib.Writes

/-!
# One worker's task: its storage, its invariants

A vector subcore's own storage is the kernel's five scratch buffers and six DMA semaphores. The
task copies its 10000 words of each index column into two scratches, then runs 125 chunks; a chunk
gathers 80 rows of the table under each column's words into two blocks (two gathers in flight at
once, each reading the table under its own half of the worker's read share), fills the third block
with the midpoints row by row, and copies it out to the chunk's 80 rows of the result.
The chunk loop's invariant keeps the chunks not yet written at the launch contents and the written
ones at the specified contents; the row loop's keeps the rows below the current one at the midpoints.
-/

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- One of the subcore's DMA semaphores, as a cell of the device. -/
abbrev cell (d : Dev nD) (L : grid0.Coords) (s : DmaSems sig S_) : GSem nD τ sig := (V d (cV L) (jV L), .dma s.sem)

omit [FloatOps F] in
/-- A vector subcore's own semaphores at zero are the kernel's six DMA semaphores at zero and the rest. -/
theorem ownSems0_V :
    (ownSems0 (V d (cV L) (jV L)) : sProp 𝕄)
      = iprop(semVal (cell d L cc0_scratch5) 0 ∗ semVal (cell d L cc0_scratch6) 0 ∗ semVal (cell d L cc0_scoped0) 0 ∗ semVal (cell d L cc0_scoped1) 0 ∗ semVal (cell d L cc0_scoped2) 0 ∗ semVal (cell d L cc0_scoped3) 0
          ∗ bigSep (((((((ownCells (V d (cV L) (jV L))).erase (cell d L cc0_scratch5)).erase (cell d L cc0_scratch6)).erase (cell d L cc0_scoped0)).erase (cell d L cc0_scoped1)).erase (cell d L cc0_scoped2)).erase (cell d L cc0_scoped3)) fun g => semVal g 0) := by
  unfold SparseCore.Cfg.ownSems0
  rw [SparseCore.bigSep_erase' ((mem_ownCells (g := cell d L cc0_scratch5)).mpr ⟨rfl, by show (SemLoc.dma cc0_scratch5.sem : SemLoc sig).isScoped .scVector = true; decide⟩),
    SparseCore.bigSep_erase' (Finset.mem_erase.mpr ⟨fun e => absurd (Prod.mk.inj e).2 (show (SemLoc.dma cc0_scratch6.sem : SemLoc sig) ≠ SemLoc.dma cc0_scratch5.sem by decide), (mem_ownCells (g := cell d L cc0_scratch6)).mpr ⟨rfl, by show (SemLoc.dma cc0_scratch6.sem : SemLoc sig).isScoped .scVector = true; decide⟩⟩),
    SparseCore.bigSep_erase' (Finset.mem_erase.mpr ⟨fun e => absurd (Prod.mk.inj e).2 (show (SemLoc.dma cc0_scoped0.sem : SemLoc sig) ≠ SemLoc.dma cc0_scratch6.sem by decide), Finset.mem_erase.mpr ⟨fun e => absurd (Prod.mk.inj e).2 (show (SemLoc.dma cc0_scoped0.sem : SemLoc sig) ≠ SemLoc.dma cc0_scratch5.sem by decide), (mem_ownCells (g := cell d L cc0_scoped0)).mpr ⟨rfl, by show (SemLoc.dma cc0_scoped0.sem : SemLoc sig).isScoped .scVector = true; decide⟩⟩⟩),
    SparseCore.bigSep_erase' (Finset.mem_erase.mpr ⟨fun e => absurd (Prod.mk.inj e).2 (show (SemLoc.dma cc0_scoped1.sem : SemLoc sig) ≠ SemLoc.dma cc0_scoped0.sem by decide), Finset.mem_erase.mpr ⟨fun e => absurd (Prod.mk.inj e).2 (show (SemLoc.dma cc0_scoped1.sem : SemLoc sig) ≠ SemLoc.dma cc0_scratch6.sem by decide), Finset.mem_erase.mpr ⟨fun e => absurd (Prod.mk.inj e).2 (show (SemLoc.dma cc0_scoped1.sem : SemLoc sig) ≠ SemLoc.dma cc0_scratch5.sem by decide), (mem_ownCells (g := cell d L cc0_scoped1)).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (show (SemLoc.dma cc0_scoped2.sem : SemLoc sig) ≠ SemLoc.dma cc0_scoped1.sem by decide), Finset.mem_erase.mpr ⟨fun e => absurd (Prod.mk.inj e).2 (show (SemLoc.dma cc0_scoped2.sem : SemLoc sig) ≠ SemLoc.dma cc0_scoped0.sem by decide), Finset.mem_erase.mpr ⟨fun e => absurd (Prod.mk.inj e).2 (show (SemLoc.dma cc0_scoped2.sem : SemLoc sig) ≠ SemLoc.dma cc0_scratch6.sem by decide), Finset.mem_erase.mpr ⟨fun e => absurd (Prod.mk.inj e).2 (show (SemLoc.dma cc0_scoped2.sem : SemLoc sig) ≠ SemLoc.dma cc0_scratch5.sem by decide), (mem_ownCells (g := cell d L cc0_scoped2)).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (show (SemLoc.dma cc0_scoped3.sem : SemLoc sig) ≠ SemLoc.dma cc0_scoped2.sem by decide), Finset.mem_erase.mpr ⟨fun e => absurd (Prod.mk.inj e).2 (show (SemLoc.dma cc0_scoped3.sem : SemLoc sig) ≠ SemLoc.dma cc0_scoped1.sem by decide), Finset.mem_erase.mpr ⟨fun e => absurd (Prod.mk.inj e).2 (show (SemLoc.dma cc0_scoped3.sem : SemLoc sig) ≠ SemLoc.dma cc0_scoped0.sem by decide), Finset.mem_erase.mpr ⟨fun e => absurd (Prod.mk.inj e).2 (show (SemLoc.dma cc0_scoped3.sem : SemLoc sig) ≠ SemLoc.dma cc0_scratch6.sem by decide), Finset.mem_erase.mpr ⟨fun e => absurd (Prod.mk.inj e).2 (show (SemLoc.dma cc0_scoped3.sem : SemLoc sig) ≠ SemLoc.dma cc0_scratch5.sem by decide), (mem_ownCells (g := cell d L cc0_scoped3)).mpr ⟨rfl, by show (SemLoc.dma cc0_scoped3.sem : SemLoc sig).isScoped .scVector = true; decide⟩⟩⟩⟩⟩⟩)]

omit [FloatOps F] in
/-- A vector subcore's own buffers are the kernel's five scratch buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

omit [FloatOps F] in
theorem pts_x (q : PosShare TreeShare) (f : Buf (Elt F) (xLoc d)) :
    ((xV : Memref sig .scVector .hbm S10000x128 .f32).view.loc (V d (cV L) (jV L)) ↦{q} f : sProp 𝕄) = xLoc d ↦{q} f := rfl
omit [FloatOps F] in
theorem pts_i0 (q : PosShare TreeShare) (f : Buf (Elt F) (i0Loc d)) :
    ((i0V : Memref sig .scVector .hbm S320000 .i32).view.loc (V d (cV L) (jV L)) ↦{q} f : sProp 𝕄) = i0Loc d ↦{q} f := rfl
omit [FloatOps F] in
theorem pts_i1 (q : PosShare TreeShare) (f : Buf (Elt F) (i1Loc d)) :
    ((i1V : Memref sig .scVector .hbm S320000 .i32).view.loc (V d (cV L) (jV L)) ↦{q} f : sProp 𝕄) = i1Loc d ↦{q} f := rfl
omit [FloatOps F] in
theorem pts_sI0 (f : Buf (Elt F) ((V d (cV L) (jV L)).loc cc0_scratch0)) :
    ((sI0 : Memref sig .scVector .vmem S10000 .i32).view.loc (V d (cV L) (jV L)) ↦{fullShare} f : sProp 𝕄) = (V d (cV L) (jV L)).loc cc0_scratch0 ↦{fullShare} f := rfl
omit [FloatOps F] in
theorem pts_sI1 (f : Buf (Elt F) ((V d (cV L) (jV L)).loc cc0_scratch1)) :
    ((sI1 : Memref sig .scVector .vmem S10000 .i32).view.loc (V d (cV L) (jV L)) ↦{fullShare} f : sProp 𝕄) = (V d (cV L) (jV L)).loc cc0_scratch1 ↦{fullShare} f := rfl
omit [FloatOps F] in
theorem pts_sA (f : Buf (Elt F) ((V d (cV L) (jV L)).loc cc0_scratch2)) :
    ((sA : Memref sig .scVector .vmem S80x128 .f32).view.loc (V d (cV L) (jV L)) ↦{fullShare} f : sProp 𝕄) = (V d (cV L) (jV L)).loc cc0_scratch2 ↦{fullShare} f := rfl
omit [FloatOps F] in
theorem pts_sB (f : Buf (Elt F) ((V d (cV L) (jV L)).loc cc0_scratch3)) :
    ((sB : Memref sig .scVector .vmem S80x128 .f32).view.loc (V d (cV L) (jV L)) ↦{fullShare} f : sProp 𝕄) = (V d (cV L) (jV L)).loc cc0_scratch3 ↦{fullShare} f := rfl
omit [FloatOps F] in
theorem pts_sO (f : Buf (Elt F) ((V d (cV L) (jV L)).loc cc0_scratch4)) :
    ((sO : Memref sig .scVector .vmem S80x128 .f32).view.loc (V d (cV L) (jV L)) ↦{fullShare} f : sProp 𝕄) = (V d (cV L) (jV L)).loc cc0_scratch4 ↦{fullShare} f := rfl
omit [FloatOps F] in
theorem pts_chunk (k : Fin k0_t1_loop.trips) (f : Buf (Elt F) (oLoc d)) :
    ((outChunk L k).view.loc (V d (cV L) (jV L)) ↦[(outChunk L k).view.set]{fullShare} f : sProp 𝕄) = oLoc d ↦[(outChunk L k).view.set]{fullShare} f := rfl
omit [FloatOps F] in
theorem pts_head (h : k0_cond1 L = 1#1) (f : Buf (Elt F) (oLoc d)) :
    ((outHead L h).view.loc (V d (cV L) (jV L)) ↦[(outHead L h).view.set]{fullShare} f : sProp 𝕄) = oLoc d ↦[(outHead L h).view.set]{fullShare} f := rfl

omit [FloatOps F] in
theorem outPieces_pos (f : Buf (Elt F) (oLoc d)) (h : k0_cond1 L = 1#1) :
    (outPieces (F := F) d L f : sProp 𝕄) = iprop((oLoc d ↦[(outHead L h).view.set]{fullShare} f : sProp 𝕄)
      ∗ bigSep Finset.univ fun k : Fin k0_t1_loop.trips => (oLoc d ↦[(outChunk L k).view.set]{fullShare} f : sProp 𝕄)) := by
  unfold outPieces; rw [dif_pos h]
omit [FloatOps F] in
theorem outPieces_neg (f : Buf (Elt F) (oLoc d)) (h : ¬ k0_cond1 L = 1#1) :
    (outPieces (F := F) d L f : sProp 𝕄) = iprop(emp
      ∗ bigSep Finset.univ fun k : Fin k0_t1_loop.trips => (oLoc d ↦[(outChunk L k).view.set]{fullShare} f : sProp 𝕄)) := by
  unfold outPieces; rw [dif_neg h]

/-! ## The loops' invariants -/

/-- The worker's 10000 words of each index column, as the kernel slices them out of the column. -/
abbrev idxSlice0 (L : grid0.Coords) : Memref sig .scVector .hbm S10000 .i32 :=
  (i0V : Memref sig .scVector .hbm S320000 .i32).slice (Rect.unit (s := S320000) (k0_off3 L) S10000.size (k0_off3_inb L)) (fun _ => rfl)
abbrev idxSlice1 (L : grid0.Coords) : Memref sig .scVector .hbm S10000 .i32 :=
  (i1V : Memref sig .scVector .hbm S320000 .i32).slice (Rect.unit (s := S320000) (k0_off3 L) S10000.size (k0_off3_inb L)) (fun _ => rfl)

/-- What the worker's two index scratches hold once its copies have landed. -/
def J0 : Buf (Elt F) ((V d (cV L) (jV L)).loc cc0_scratch0) := (idxSlice0 L).view.read (Elt F) (col (m (pLoc d)) 0)
def J1 : Buf (Elt F) ((V d (cV L) (jV L)).loc cc0_scratch1) := (idxSlice1 L).view.read (Elt F) (col (m (pLoc d)) 1)

/-- Chunk `k`'s 80 words of a scratch, as the kernel slices them for a gather's offsets. -/
abbrev offs0 (k : Fin k0_t1_loop.trips) : Memref sig .scVector .vmem S80 .i32 :=
  (sI0 : Memref sig .scVector .vmem S10000 .i32).slice (Rect.unit (s := S10000) (k0_off4 k) S80.size (k0_off4_inb k)) (fun _ => rfl)
abbrev offs1 (k : Fin k0_t1_loop.trips) : Memref sig .scVector .vmem S80 .i32 :=
  (sI1 : Memref sig .scVector .vmem S10000 .i32).slice (Rect.unit (s := S10000) (k0_off4 k) S80.size (k0_off4_inb k)) (fun _ => rfl)

omit [FloatOps F] in
theorem write_sI0 (f w : Buf (Elt F) ((V d (cV L) (jV L)).loc cc0_scratch0)) :
    View.write (Elt F) (sI0 : Memref sig .scVector .vmem S10000 .i32).view f w Finset.univ = w := View.write_whole_univ _ _ _
omit [FloatOps F] in
theorem write_sI1 (f w : Buf (Elt F) ((V d (cV L) (jV L)).loc cc0_scratch1)) :
    View.write (Elt F) (sI1 : Memref sig .scVector .vmem S10000 .i32).view f w Finset.univ = w := View.write_whole_univ _ _ _
omit [FloatOps F] in
theorem write_sA (f w : Buf (Elt F) ((V d (cV L) (jV L)).loc cc0_scratch2)) :
    View.write (Elt F) (sA : Memref sig .scVector .vmem S80x128 .f32).view f w Finset.univ = w := View.write_whole_univ _ _ _
omit [FloatOps F] in
theorem write_sB (f w : Buf (Elt F) ((V d (cV L) (jV L)).loc cc0_scratch3)) :
    View.write (Elt F) (sB : Memref sig .scVector .vmem S80x128 .f32).view f w Finset.univ = w := View.write_whole_univ _ _ _

omit [FloatOps F] in
/-- A read share of the table is its two halves: the two gathers of a chunk read the table at once, each under its own half. -/
theorem x_halves (q : PosShare TreeShare) (f : Buf (Elt F) (xLoc d)) :
    ((xV : Memref sig .scVector .hbm S10000x128 .f32).view.loc (V d (cV L) (jV L)) ↦{q} f : sProp 𝕄)
      = iprop(((xV : Memref sig .scVector .hbm S10000x128 .f32).view.loc (V d (cV L) (jV L)) ↦{q.left} f)
          ∗ ((xV : Memref sig .scVector .hbm S10000x128 .f32).view.loc (V d (cV L) (jV L)) ↦{q.right} f)) :=
  BI.Entails.antisymm (pointsTo_share (PosShare.mem_left_op_right q)).1 (pointsTo_share (PosShare.mem_left_op_right q)).2

/-- Chunk `k`'s piece of the result at contents `f`. -/
def chunkAt (f : Buf (Elt F) (oLoc d)) (k : Fin k0_t1_loop.trips) : sProp 𝕄 :=
  (oLoc d ↦[(outChunk L k).view.set]{fullShare} f : sProp 𝕄)

/-- Before row `n` of a chunk: the two gathered blocks as they landed, the block of midpoints finished below row `n`. -/
def invRow (A : Buf (Elt F) ((V d (cV L) (jV L)).loc cc0_scratch2)) (B : Buf (Elt F) ((V d (cV L) (jV L)).loc cc0_scratch3))
    (n : Nat) (_ : Unit) : sProp 𝕄 :=
  iprop(((sA : Memref sig .scVector .vmem S80x128 .f32).view.loc (V d (cV L) (jV L)) ↦{fullShare} A)
    ∗ ((sB : Memref sig .scVector .vmem S80x128 .f32).view.loc (V d (cV L) (jV L)) ↦{fullShare} B)
    ∗ ∃ fo : Buf (Elt F) ((V d (cV L) (jV L)).loc cc0_scratch4),
        ((sO : Memref sig .scVector .vmem S80x128 .f32).view.loc (V d (cV L) (jV L)) ↦{fullShare} fo) ∗ ⌜RowsDone (F := F) A B fo n⌝)

/-- Before chunk `n`: the table's share, the index scratches at the worker's words, the three blocks at some contents, the
    semaphores at zero, the chunks from `n` on still at the launch contents and those below `n` at the specified ones. -/
def invChunk (q : PosShare TreeShare) (O : CellTallies nD τ sig (HIx 1)) (W : Waits sig (HIx 1)) (n : Nat) (_ : Unit) : sProp 𝕄 :=
  iprop(Transfers.MayWaits (V d (cV L) (jV L)) (none : HIx 1) O
    ∗ ((xV : Memref sig .scVector .hbm S10000x128 .f32).view.loc (V d (cV L) (jV L)) ↦{q.left} m (xLoc d))
    ∗ ((xV : Memref sig .scVector .hbm S10000x128 .f32).view.loc (V d (cV L) (jV L)) ↦{q.right} m (xLoc d))
    ∗ ((sI0 : Memref sig .scVector .vmem S10000 .i32).view.loc (V d (cV L) (jV L)) ↦{fullShare} J0 m d L)
    ∗ ((sI1 : Memref sig .scVector .vmem S10000 .i32).view.loc (V d (cV L) (jV L)) ↦{fullShare} J1 m d L)
    ∗ (∃ fa, (sA : Memref sig .scVector .vmem S80x128 .f32).view.loc (V d (cV L) (jV L)) ↦{fullShare} fa)
    ∗ (∃ fb, (sB : Memref sig .scVector .vmem S80x128 .f32).view.loc (V d (cV L) (jV L)) ↦{fullShare} fb)
    ∗ (∃ fo, (sO : Memref sig .scVector .vmem S80x128 .f32).view.loc (V d (cV L) (jV L)) ↦{fullShare} fo)
    ∗ semVal (cell d L cc0_scratch5) 0 ∗ semVal (cell d L cc0_scratch6) 0 ∗ semVal (cell d L cc0_scoped3) 0
    ∗ Cert.Lib.ChunkFamilies.todo (chunkAt (F := F) d L (m (oLoc d))) n
    ∗ Cert.Lib.ChunkFamilies.done (chunkAt (F := F) d L (G m d)) n
    ∗ ∃ W', ⌜∀ p ∈ W', p ∈ W ∨ p.2 = none⌝ ∗ owes (V d (cV L) (jV L)) O W')

omit [FloatOps F] in
/-- A 1 × 16 store at row `r`, lanes from `c`, holds exactly the entries of row `r` in lanes `[c, c + 16)`. -/
theorem lane_mem (r c : ℕ) (off : Fin 2 → ℕ) (hoff : off = ![r, c]) (inb : ∀ a, off a + S1x16.size a ≤ S80x128.size a) (y : S80x128.Idx) :
    y ∈ (Rect.unit (s := S80x128) off S1x16.size inb).set ↔ (y 0).val = r ∧ c ≤ (y 1).val ∧ (y 1).val < c + 16 := by
  subst hoff
  rw [Rect.mem_set_unit]
  constructor
  · intro h
    have h0 := h 0
    have h1 := h 1
    have e0 : (![r, c] : Fin 2 → ℕ) 0 = r := rfl
    have e1 : (![r, c] : Fin 2 → ℕ) 1 = c := rfl
    have s0 : S1x16.size 0 = 1 := rfl
    have s1 : S1x16.size 1 = 16 := rfl
    rw [e0, s0] at h0; rw [e1, s1] at h1
    omega
  · rintro ⟨h0, h1, h2⟩ a
    match a with
    | ⟨0, _⟩ => show r ≤ (y 0).val ∧ (y 0).val < r + 1; omega
    | ⟨1, _⟩ => show c ≤ (y 1).val ∧ (y 1).val < c + 16; omega

/-- The step of the finished rows, at the midpoint scratch: its view is the whole buffer, which reads as its contents. -/
theorem rows_step_sO (A B fo : S80x128.Idx → F .f32) (r : ℕ) (Lp : List (View.Piece (Elt F) S80x128 .f32))
    (hpay : ∀ p ∈ Lp, ∀ x : p.1.shape.Idx, p.2 x = Cert.Pool.mid (A (p.1.emb x)) (B (p.1.emb x)))
    (hrow : ∀ p ∈ Lp, ∀ y : S80x128.Idx, y ∈ p.1.set → (y 0).val = r)
    (hcov : ∀ y : S80x128.Idx, (y 0).val = r → ∃ p ∈ Lp, y ∈ p.1.set)
    (h : RowsDone A B fo r) :
    RowsDone A B ((sO : Memref sig .scVector .vmem S80x128 .f32).view.writes (Elt F) fo Lp) (r + 1) :=
  RowsDone.step (sO : Memref sig .scVector .vmem S80x128 .f32).view A B fo r Lp hpay hrow hcov h

end Tile
end Cert.Proof.KernelRun
end
-- ==== Proof.KernelTileValue.lean ====
import proofs.«208565_g47476568490134_cont_8to1_c_213_4_alg».proof.Proof.KernelTileDefs
import proofs.«208565_g47476568490134_cont_8to1_c_213_4_alg».proof.Proof.LibReadWritesWhole
import Idealize.ShloMosaic.Lib.SparseCore.Stream

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-!
## What a chunk's blocks hold, entry by entry

Worker `L` works on the pairs `[wOff L, wOff L + 10000)`. Word `j` of its first index scratch is
word 0 of pair `wOff L + j`; chunk `k`'s offsets are words `[80 k, 80 k + 80)` of the scratch; so row
`p` of the first gathered block is the table's row named by word 0 of pair `wOff L + 80 k + p`, and the
same for the second block and word 1. The words lie below 10000, so the row they name is the row
the specification reads.
-/

/-- The pairs, as an array of words. -/
abbrev pairs : IVec S320000x2 32 := m (pLoc d)
/-- The table, as an array of entries. -/
abbrev table : FVec F S10000x128 .f32 := m (xLoc d)

/-- The first pair the worker reads. -/
def wOff (L : grid0.Coords) : ℕ := 20000 * (L 1).val + 10000 * (L 0).val

omit [FloatOps F] in
theorem wOff_le : wOff L + 10000 ≤ 320000 := by
  have h0 : (L 0).val < 2 := (L 0).isLt
  have h1 : (L 1).val < 16 := (L 1).isLt
  unfold wOff; omega

omit [FloatOps F] in
theorem trips1_le (k : Fin k0_t1_loop.trips) : k.val < 125 := Nat.lt_of_lt_of_le k.isLt k0_t1_abs.2.1

/-- Pair number `wOff L + j`, for a position `j` in the worker's 10000. -/
abbrev pairAt (j : ℕ) (hj : j < 10000) : Fin 320000 := ⟨wOff L + j, by have := wOff_le L; omega⟩

omit [FloatOps F] in
theorem J0_apply (j : S10000.Idx) :
    J0 m d L j = pairs m d (ix2 (pairAt L (j 0).val (j 0).isLt) (0 : Fin 2)) := by
  refine ((View.read_apply _ _).trans (cast_eq _ _)).trans ?_
  show col (m (pLoc d)) 0 ((idxSlice0 L).view.emb j) = _
  unfold col
  refine congrArg (pairs m d) (congrArg (fun t : Fin 320000 => ix2 t (0 : Fin 2)) (Fin.ext ?_))
  show k0_off3 L 0 + 1 * (j 0).val = wOff L + (j 0).val
  rw [k0_off3_eq]
  show (20000 * (L 1).val + 10000 * (L 0).val) + 1 * (j 0).val = wOff L + (j 0).val
  unfold wOff; omega

omit [FloatOps F] in
theorem J1_apply (j : S10000.Idx) :
    J1 m d L j = pairs m d (ix2 (pairAt L (j 0).val (j 0).isLt) (1 : Fin 2)) := by
  refine ((View.read_apply _ _).trans (cast_eq _ _)).trans ?_
  show col (m (pLoc d)) 1 ((idxSlice1 L).view.emb j) = _
  unfold col
  refine congrArg (pairs m d) (congrArg (fun t : Fin 320000 => ix2 t (1 : Fin 2)) (Fin.ext ?_))
  show k0_off3 L 0 + 1 * (j 0).val = wOff L + (j 0).val
  rw [k0_off3_eq]
  show (20000 * (L 1).val + 10000 * (L 0).val) + 1 * (j 0).val = wOff L + (j 0).val
  unfold wOff; omega

omit [FloatOps F] in
/-- Chunk `k`'s offsets read word `80 k + x` of the scratch. -/
theorem offs0_read (k : Fin k0_t1_loop.trips) (f : Buf (Elt F) ((V d (cV L) (jV L)).loc cc0_scratch0)) (x : S80.Idx) :
    (offs0 k).view.read (Elt F) f x = f ((offs0 k).view.emb x) := (View.read_apply _ _).trans (cast_eq _ _)
omit [FloatOps F] in
theorem offs1_read (k : Fin k0_t1_loop.trips) (f : Buf (Elt F) ((V d (cV L) (jV L)).loc cc0_scratch1)) (x : S80.Idx) :
    (offs1 k).view.read (Elt F) f x = f ((offs1 k).view.emb x) := (View.read_apply _ _).trans (cast_eq _ _)
omit [FloatOps F] in
theorem offs0_emb (k : Fin k0_t1_loop.trips) (x : S80.Idx) : (((offs0 k).view.emb x) 0).val = 80 * k.val + (x 0).val := by
  show k0_off4 k 0 + 1 * (x 0).val = _
  rw [k0_off4_eq]
  show 80 * k.val + 1 * (x 0).val = _
  omega
omit [FloatOps F] in
theorem offs1_emb (k : Fin k0_t1_loop.trips) (x : S80.Idx) : (((offs1 k).view.emb x) 0).val = 80 * k.val + (x 0).val := by
  show k0_off4 k 0 + 1 * (x 0).val = _
  rw [k0_off4_eq]
  show 80 * k.val + 1 * (x 0).val = _
  omega

omit [FloatOps F] in
/-- The words a gather reads as offsets name rows of the table. -/
theorem hin0 (hpre : PreOK m) (k : Fin k0_t1_loop.trips) (x : S80.Idx) :
    (((offs0 k).view.read (Elt F) (J0 m d L)) x).toNat < 10000 := by
  rw [offs0_read, J0_apply]; exact hpre d _
omit [FloatOps F] in
theorem hin1 (hpre : PreOK m) (k : Fin k0_t1_loop.trips) (x : S80.Idx) :
    (((offs1 k).view.read (Elt F) (J1 m d L)) x).toNat < 10000 := by
  rw [offs1_read, J1_apply]; exact hpre d _

/-! ## The gathered blocks -/

/-- The table as the kernel slices it for a gather's source: the whole of it. -/
abbrev xSlice : Memref sig .scVector .hbm S10000x128 .f32 :=
  (xV : Memref sig .scVector .hbm S10000x128 .f32).slice (Rect.unit (s := S10000x128) ![0, 0] S10000x128.size inb_S10000x128_S10000x128_0_0) (fun _ => rfl)

/-- What chunk `k`'s first gather delivers: row `p` is the table's row named by word `80 k + p` of the first index scratch. -/
def GA (k : Fin k0_t1_loop.trips) (h : ∀ x, (((offs0 k).view.read (Elt F) (J0 m d L)) x).toNat < S10000x128.size (gathers_S10000x128_S80x128).axis) :
    S80x128.Idx → F .f32 :=
  SparseCore.gatherPayload gathers_S10000x128_S80x128 ((xSlice).view.read (Elt F) (m (xLoc d)))
    (SparseCore.rows ((offs0 k).view.read (Elt F) (J0 m d L)) rfl h)
/-- The same for the second gather and the second index scratch. -/
def GB (k : Fin k0_t1_loop.trips) (h : ∀ x, (((offs1 k).view.read (Elt F) (J1 m d L)) x).toNat < S10000x128.size (gathers_S10000x128_S80x128).axis) :
    S80x128.Idx → F .f32 :=
  SparseCore.gatherPayload gathers_S10000x128_S80x128 ((xSlice).view.read (Elt F) (m (xLoc d)))
    (SparseCore.rows ((offs1 k).view.read (Elt F) (J1 m d L)) rfl h)

omit [FloatOps F] in
/-- One write through the whole rectangle of a gathered block reads back as what was written. -/
theorem writes_whole_sA (f : Buf (Elt F) ((V d (cV L) (jV L)).loc cc0_scratch2)) (w : S80x128.Idx → F .f32) :
    (sA : Memref sig .scVector .vmem S80x128 .f32).view.writes (Elt F) f [⟨Rect.whole S80x128, w⟩] = w :=
  Cert.Lib.ReadWritesWhole.read_writes_whole (sA : Memref sig .scVector .vmem S80x128 .f32).view f w
omit [FloatOps F] in
theorem writes_whole_sB (f : Buf (Elt F) ((V d (cV L) (jV L)).loc cc0_scratch3)) (w : S80x128.Idx → F .f32) :
    (sB : Memref sig .scVector .vmem S80x128 .f32).view.writes (Elt F) f [⟨Rect.whole S80x128, w⟩] = w :=
  Cert.Lib.ReadWritesWhole.read_writes_whole (sB : Memref sig .scVector .vmem S80x128 .f32).view f w

end Tile
end Cert.Proof.KernelRun
end
-- ==== Proof.KernelChunkValue.lean ====
import proofs.«208565_g47476568490134_cont_8to1_c_213_4_alg».proof.Proof.KernelTileValue

/-!
# The value of one chunk

Element `x` of chunk `k` of worker `L` is row `10000 + e`, column `x 1`, of the result, with
`e = wOff L + 80 k + x 0` a pair number. The first gathered block holds there the table at the row named
by word 0 of pair `e` (offset `x 0` of the chunk's 80-word list is word `80 k + x 0` of the scratch,
which is word 0 of pair `e`), the second the same with word 1; the words lie below 10000, so the row
each names is the row the specification reads, and the midpoint of the two entries is the
specified entry.
-/

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- At rank one the index at row-major position `p` has coordinate `p`. -/
theorem rm1_symm_val {n : ℕ} (p : Fin (⟨1, ![n]⟩ : Shape).numel) : (((⟨1, ![n]⟩ : Shape).rowMajor.symm p) 0).val = p.val := by
  have h := Shape.rowMajor_val_one ((⟨1, ![n]⟩ : Shape).rowMajor.symm p)
  rw [Equiv.apply_symm_apply] at h
  exact h.symm

theorem chunkPair_lt (k : Fin k0_t1_loop.trips) (x : S80x128.Idx) : 80 * k.val + (x 0).val < 10000 := by
  have h1 := trips1_le k
  have h2 : (x 0).val < 80 := idx2_lt0 x
  omega

/-- The pair whose midpoint is row `x 0` of chunk `k`. -/
abbrev chunkPair (k : Fin k0_t1_loop.trips) (x : S80x128.Idx) : Fin 320000 := pairAt L (80 * k.val + (x 0).val) (chunkPair_lt k x)

/-- The row the first gather reads for element `x`: word 0 of the element's pair. -/
theorem rowsA_val (k : Fin k0_t1_loop.trips)
    (hA : ∀ x, (((offs0 k).view.read (Elt F) (J0 m d L)) x).toNat < S10000x128.size (gathers_S10000x128_S80x128).axis) (x : S80x128.Idx) :
    (SparseCore.rows ((offs0 k).view.read (Elt F) (J0 m d L)) rfl hA (x (gathers_S10000x128_S80x128).axis')).val
      = (pairs m d (ix2 (chunkPair L k x) (0 : Fin 2))).toNat := by
  show (((offs0 k).view.read (Elt F) (J0 m d L)) (S80.rowMajor.symm ((x (gathers_S10000x128_S80x128).axis').cast rfl))).toNat = _
  rw [offs0_read, J0_apply]
  refine congrArg (fun e : Fin 320000 => (pairs m d (ix2 e (0 : Fin 2))).toNat) (Fin.ext ?_)
  show wOff L + (((offs0 k).view.emb (S80.rowMajor.symm ((x (gathers_S10000x128_S80x128).axis').cast rfl))) 0).val = wOff L + (80 * k.val + (x 0).val)
  rw [offs0_emb, rm1_symm_val]
  rfl

/-- The same for the second gather and word 1. -/
theorem rowsB_val (k : Fin k0_t1_loop.trips)
    (hB : ∀ x, (((offs1 k).view.read (Elt F) (J1 m d L)) x).toNat < S10000x128.size (gathers_S10000x128_S80x128).axis) (x : S80x128.Idx) :
    (SparseCore.rows ((offs1 k).view.read (Elt F) (J1 m d L)) rfl hB (x (gathers_S10000x128_S80x128).axis')).val
      = (pairs m d (ix2 (chunkPair L k x) (1 : Fin 2))).toNat := by
  show (((offs1 k).view.read (Elt F) (J1 m d L)) (S80.rowMajor.symm ((x (gathers_S10000x128_S80x128).axis').cast rfl))).toNat = _
  rw [offs1_read, J1_apply]
  refine congrArg (fun e : Fin 320000 => (pairs m d (ix2 e (1 : Fin 2))).toNat) (Fin.ext ?_)
  show wOff L + (((offs1 k).view.emb (S80.rowMajor.symm ((x (gathers_S10000x128_S80x128).axis').cast rfl))) 0).val = wOff L + (80 * k.val + (x 0).val)
  rw [offs1_emb, rm1_symm_val]
  rfl

/-- The table read through the gather's source slice (the whole of it) at the gather's source index for element `x`,
    when the row the offset list names for `x` is the row `w` names: the table at that row, column `x 1`. -/
theorem gather_entry (hpre : PreOK m) (r : Fin (S80x128.size (gathers_S10000x128_S80x128).axis') → Fin (S10000x128.size (gathers_S10000x128_S80x128).axis))
    (x : S80x128.Idx) (e : Fin 320000) (j : Fin 2) (hr : (r (x (gathers_S10000x128_S80x128).axis')).val = (pairs m d (ix2 e j)).toNat) :
    SparseCore.gatherPayload gathers_S10000x128_S80x128 ((xSlice).view.read (Elt F) (m (xLoc d))) r x
      = table m d (ix2 (Cert.Pool.rowSel (pairs m d (ix2 e j))) (⟨(x 1).val, idx2_lt1 x⟩ : Fin 128)) := by
  show (xSlice).view.read (Elt F) (m (xLoc d)) ((gathers_S10000x128_S80x128).idx r x) = _
  refine ((View.read_apply _ _).trans (cast_eq _ _)).trans ?_
  refine congrArg (table m d) (funext fun a => Fin.ext ?_)
  match a with
  | ⟨0, _⟩ =>
    show 0 + 1 * (((gathers_S10000x128_S80x128).idx r x) (gathers_S10000x128_S80x128).axis).val = (Cert.Pool.rowSel (pairs m d (ix2 e j))).val
    rw [Shape.Gathers.idx_axis, hr, Cert.Pool.rowSel_of_lt (hpre d _)]
    show 0 + 1 * (pairs m d (ix2 e j)).toNat = (pairs m d (ix2 e j)).toNat
    omega
  | ⟨1, h1⟩ =>
    show 0 + 1 * (((gathers_S10000x128_S80x128).idx r x) ⟨1, h1⟩).val = (x 1).val
    rw [Shape.Gathers.idx_of_ne gathers_S10000x128_S80x128 r x ⟨1, h1⟩ Nat.one_ne_zero]
    show 0 + 1 * (x 1).val = (x 1).val
    omega

/-- Element `x` of the first gathered block is the table at the row word 0 of the element's pair names. -/
theorem GA_apply (hpre : PreOK m) (k : Fin k0_t1_loop.trips)
    (hA : ∀ x, (((offs0 k).view.read (Elt F) (J0 m d L)) x).toNat < S10000x128.size (gathers_S10000x128_S80x128).axis) (x : S80x128.Idx) :
    GA m d L k hA x = table m d (ix2 (Cert.Pool.rowSel (pairs m d (ix2 (chunkPair L k x) (0 : Fin 2)))) (⟨(x 1).val, idx2_lt1 x⟩ : Fin 128)) :=
  gather_entry m d hpre _ x (chunkPair L k x) 0 (rowsA_val m d L k hA x)

/-- Element `x` of the second gathered block is the table at the row word 1 of the element's pair names. -/
theorem GB_apply (hpre : PreOK m) (k : Fin k0_t1_loop.trips)
    (hB : ∀ x, (((offs1 k).view.read (Elt F) (J1 m d L)) x).toNat < S10000x128.size (gathers_S10000x128_S80x128).axis) (x : S80x128.Idx) :
    GB m d L k hB x = table m d (ix2 (Cert.Pool.rowSel (pairs m d (ix2 (chunkPair L k x) (1 : Fin 2)))) (⟨(x 1).val, idx2_lt1 x⟩ : Fin 128)) :=
  gather_entry m d hpre _ x (chunkPair L k x) 1 (rowsB_val m d L k hB x)

theorem chunkRow_lt (k : Fin k0_t1_loop.trips) (x : S80x128.Idx) : 10000 + (chunkPair L k x).val < 330000 := by
  have h := (chunkPair L k x).isLt
  omega

/-- Element `x` of chunk `k` sits at row `10000 + e`, `e` the element's pair, and column `x 1` of the result. -/
theorem chunk_emb (k : Fin k0_t1_loop.trips) (x : S80x128.Idx) :
    (outChunk L k).view.emb x = ix2 (⟨10000 + (chunkPair L k x).val, chunkRow_lt L k x⟩ : Fin 330000) (⟨(x 1).val, idx2_lt1 x⟩ : Fin 128) := by
  funext a
  apply Fin.ext
  match a with
  | ⟨0, _⟩ =>
    show k0_off13 L k 0 + 1 * (x 0).val = 10000 + (wOff L + (80 * k.val + (x 0).val))
    rw [k0_off13_eq]
    show (20000 * (L 1).val + 10000 * (L 0).val + 80 * k.val + 10000) + 1 * (x 0).val = 10000 + (wOff L + (80 * k.val + (x 0).val))
    unfold wOff; omega
  | ⟨1, _⟩ =>
    show k0_off13 L k 1 + 1 * (x 1).val = (x 1).val
    rw [k0_off13_eq]
    show 0 + 1 * (x 1).val = (x 1).val
    omega

/-- The midpoint of the two gathered entries is the specified entry of the result. -/
theorem chunk_entry (hpre : PreOK m) (k : Fin k0_t1_loop.trips)
    (hA : ∀ x, (((offs0 k).view.read (Elt F) (J0 m d L)) x).toNat < S10000x128.size (gathers_S10000x128_S80x128).axis)
    (hB : ∀ x, (((offs1 k).view.read (Elt F) (J1 m d L)) x).toNat < S10000x128.size (gathers_S10000x128_S80x128).axis)
    (x : S80x128.Idx) :
    Cert.Pool.mid (GA m d L k hA x) (GB m d L k hB x) = G m d ((outChunk L k).view.emb x) := by
  rw [GA_apply m d L hpre k hA x, GB_apply m d L hpre k hB x]
  refine Eq.trans ?_ (congrArg (G m d) (chunk_emb L k x).symm)
  exact (Cert.Pool.pooled_mid (m (xLoc d)) (m (pLoc d)) (chunkPair L k x) (⟨(x 1).val, idx2_lt1 x⟩ : Fin 128)).symm

end Tile
end Cert.Proof.KernelRun
end
-- ==== Proof.KernelHeadValue.lean ====
import proofs.«208565_g47476568490134_cont_8to1_c_213_4_alg».proof.Proof.KernelChunkValue
import proofs.«208565_g47476568490134_cont_8to1_c_213_4_alg».proof.Proof.KernelPieces

/-!
# The value of the copied rows

A worker `w = 2 s + c` below 25 copies rows `[400 w, 400 w + 400)` of the table onto the same rows of the
result. Such a row lies below 10000, where the specified result is the table itself, at the same
row and column the copy reads.
-/

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- The 400 rows of the table a worker below 25 copies, as the kernel slices them out of the table. -/
abbrev xHead (L : grid0.Coords) (h : k0_cond1 L = 1#1) : Memref sig .scVector .hbm S400x128 .f32 :=
  (xV : Memref sig .scVector .hbm S10000x128 .f32).slice (Rect.unit (s := S10000x128) (k0_off2 L) S400x128.size (k0_off2_inb L h)) (fun _ => rfl)

/-- A copied row is a row of the table: `400 w + x 0 < 10000` when `w < 25`. -/
theorem head_row_lt (h : k0_cond1 L = 1#1) (x : S400x128.Idx) : 800 * (L 1).val + 400 * (L 0).val + (x 0).val < 10000 := by
  have h' := (cond1_iff L).1 h
  have hx : (x 0).val < 400 := idx2_lt0 x
  omega

theorem head_row_lt' (h : k0_cond1 L = 1#1) (x : S400x128.Idx) : 800 * (L 1).val + 400 * (L 0).val + (x 0).val < 330000 := by
  have h' := head_row_lt L h x
  omega

/-- Element `x` of the copied rows, in the table: row `400 w + x 0`, column `x 1`. -/
theorem xHead_emb (h : k0_cond1 L = 1#1) (x : S400x128.Idx) :
    (xHead L h).view.emb x
      = ix2 (⟨800 * (L 1).val + 400 * (L 0).val + (x 0).val, head_row_lt L h x⟩ : Fin 10000) (⟨(x 1).val, idx2_lt1 x⟩ : Fin 128) := by
  funext a
  apply Fin.ext
  match a with
  | ⟨0, _⟩ =>
    show k0_off2 L 0 + 1 * (x 0).val = 800 * (L 1).val + 400 * (L 0).val + (x 0).val
    rw [k0_off2_eq]
    show (800 * (L 1).val + 400 * (L 0).val) + 1 * (x 0).val = 800 * (L 1).val + 400 * (L 0).val + (x 0).val
    omega
  | ⟨1, _⟩ =>
    show k0_off2 L 1 + 1 * (x 1).val = (x 1).val
    rw [k0_off2_eq]
    show 0 + 1 * (x 1).val = (x 1).val
    omega

/-- The same element in the result: the same row and column. -/
theorem outHead_emb (h : k0_cond1 L = 1#1) (x : S400x128.Idx) :
    (outHead L h).view.emb x
      = ix2 (⟨800 * (L 1).val + 400 * (L 0).val + (x 0).val, head_row_lt' L h x⟩ : Fin 330000) (⟨(x 1).val, idx2_lt1 x⟩ : Fin 128) := by
  funext a
  apply Fin.ext
  match a with
  | ⟨0, _⟩ =>
    show k0_off1 L 0 + 1 * (x 0).val = 800 * (L 1).val + 400 * (L 0).val + (x 0).val
    rw [k0_off1_eq]
    show (800 * (L 1).val + 400 * (L 0).val) + 1 * (x 0).val = 800 * (L 1).val + 400 * (L 0).val + (x 0).val
    omega
  | ⟨1, _⟩ =>
    show k0_off1 L 1 + 1 * (x 1).val = (x 1).val
    rw [k0_off1_eq]
    show 0 + 1 * (x 1).val = (x 1).val
    omega

/-- What the copy reads is the specified entry of the result where it lands. -/
theorem head_entry (h : k0_cond1 L = 1#1) (x : S400x128.Idx) :
    (xHead L h).view.read (Elt F) (m (xLoc d)) x = G m d ((outHead L h).view.emb x) := by
  refine ((View.read_apply _ _).trans (cast_eq _ _)).trans ?_
  refine (congrArg (table m d) (xHead_emb L h x)).trans ?_
  refine Eq.trans ?_ (congrArg (G m d) (outHead_emb L h x).symm)
  exact (Cert.Pool.pooled_table (m (xLoc d)) (m (pLoc d))
    (⟨800 * (L 1).val + 400 * (L 0).val + (x 0).val, head_row_lt L h x⟩ : Fin 10000) (⟨(x 1).val, idx2_lt1 x⟩ : Fin 128)).symm

end Tile
end Cert.Proof.KernelRun
end
-- ==== Proof.KernelBody.lean ====
import proofs.«208565_g47476568490134_cont_8to1_c_213_4_alg».proof.Proof.KernelTileValue
import proofs.«208565_g47476568490134_cont_8to1_c_213_4_alg».proof.Proof.KernelChunkValue
import proofs.«208565_g47476568490134_cont_8to1_c_213_4_alg».proof.Proof.KernelHeadValue

/-!
# One worker's task, proved

The task of vector subcore `(c, s)`, from its share of the reads, its pieces of the result at the
launch contents and its own storage, to the same with the pieces at the specified contents.
A worker below 25 first copies its 400 rows of the table; every worker then copies its 10000
words of each index column into its scratches and runs its 125 chunks. In a chunk the two gathers
are issued, both awaited, the 80 rows of midpoints computed (`row_region`), and the block copied
out; the written block is the specified result on the chunk's elements because each gathered
row is the table's row its word names and the midpoint of two entries is what the specification
puts there.
-/

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

omit [FloatOps F] in
theorem pts_sA_whole (f : Buf (Elt F) ((V d (cV L) (jV L)).loc cc0_scratch2)) (w : S80x128.Idx → F .f32) :
    ((sA : Memref sig .scVector .vmem S80x128 .f32).view.loc (V d (cV L) (jV L)) ↦{fullShare}
        (sA : Memref sig .scVector .vmem S80x128 .f32).view.writes (Elt F) f [⟨Rect.whole S80x128, w⟩] : sProp 𝕄)
      = ((sA : Memref sig .scVector .vmem S80x128 .f32).view.loc (V d (cV L) (jV L)) ↦{fullShare} w) := by
  rw [writes_whole_sA]
omit [FloatOps F] in
theorem pts_sB_whole (f : Buf (Elt F) ((V d (cV L) (jV L)).loc cc0_scratch3)) (w : S80x128.Idx → F .f32) :
    ((sB : Memref sig .scVector .vmem S80x128 .f32).view.loc (V d (cV L) (jV L)) ↦{fullShare}
        (sB : Memref sig .scVector .vmem S80x128 .f32).view.writes (Elt F) f [⟨Rect.whole S80x128, w⟩] : sProp 𝕄)
      = ((sB : Memref sig .scVector .vmem S80x128 .f32).view.loc (V d (cV L) (jV L)) ↦{fullShare} w) := by
  rw [writes_whole_sB]

omit [FloatOps F] in
/-- A chunk's piece written whole with a block that is the specified result entry by entry holds the specified result. -/
theorem chunk_congr (k : Fin k0_t1_loop.trips) (f₀ : Buf (Elt F) (oLoc d)) (w : S80x128.Idx → F .f32) (g : Buf (Elt F) (oLoc d))
    (hw : ∀ x, w x = g ((outChunk L k).view.emb x)) :
    ∀ i ∈ (outChunk L k).view.set, ((outChunk L k).view.writes (Elt F) f₀ [⟨Rect.whole S80x128, w⟩]) i = g i := by
  intro i hi
  obtain ⟨x, -, rfl⟩ := Finset.mem_map.mp hi
  have h1 := Cert.Lib.ReadWritesWhole.read_writes_whole_apply (outChunk L k).view f₀ w x
  rw [View.read_apply, cast_eq] at h1
  exact h1.trans (hw x)

omit [FloatOps F] in
/-- The head piece written whole with a block that is the specified result entry by entry holds the specified result. -/
theorem head_congr (h : k0_cond1 L = 1#1) (f₀ : Buf (Elt F) (oLoc d)) (w : S400x128.Idx → F .f32) (g : Buf (Elt F) (oLoc d))
    (hw : ∀ x, w x = g ((outHead L h).view.emb x)) :
    ∀ i ∈ (outHead L h).view.set, ((outHead L h).view.writes (Elt F) f₀ [⟨Rect.whole S400x128, w⟩]) i = g i := by
  intro i hi
  obtain ⟨x, -, rfl⟩ := Finset.mem_map.mp hi
  have h1 := Cert.Lib.ReadWritesWhole.read_writes_whole_apply (outHead L h).view f₀ w x
  rw [View.read_apply, cast_eq] at h1
  exact h1.trans (hw x)

set_option maxHeartbeats 2000000 in

/-- One row of a chunk: 24 loads and 8 stores of 16 lanes, from rows below `r` finished to rows below `r + 1`. -/
theorem row_region (A : Buf (Elt F) ((V d (cV L) (jV L)).loc cc0_scratch2)) (B : Buf (Elt F) ((V d (cV L) (jV L)).loc cc0_scratch3))
    (r : Fin k0_t2_loop.trips) (acc : Unit) :
    invRow (F := F) d L A B r.val acc
      ⊢ wp frame (wpE (defs₀ (F := F)) 𝒱₀ (V d (cV L) (jV L)) none) Set.univ
          (k0_t2_body L xV (Memref.isWhole_whole _) i0V (Memref.isWhole_whole _) i1V (Memref.isWhole_whole _) oV (Memref.isWhole_whole _)
            sI0 (Memref.isWhole_whole _) sI1 (Memref.isWhole_whole _) sA (Memref.isWhole_whole _) sB (Memref.isWhole_whole _) sO (Memref.isWhole_whole _)
            cc0_scratch5 cc0_scratch6 cc0_scoped0 cc0_scoped1 cc0_scoped2 cc0_scoped3 r acc)
          (invRow (F := F) d L A B (r.val + 1)) := by
  unfold k0_t2_body invRow
  iintro ⟨Ha, Hb, %fo, Ho, %hfo⟩
  sl_exec
  sl_step
  isplitl [Ha]; · iexact Ha
  isplitl [Hb]; · iexact Hb
  iexists _
  isplitl [Ho]; · iexact Ho
  ipureintro
  refine rows_step_sO A B fo r.val _ ?hpay ?hrow ?hcov hfo
  case hpay =>
    intro p hp
    simp only [List.mem_cons, List.not_mem_nil, or_false] at hp
    rcases hp with rfl | rfl | rfl | rfl | rfl | rfl | rfl | rfl
    · exact fun x => pay2_apply _ _ x
    · exact fun x => pay1_apply _ _ x
    · exact fun x => pay9_apply _ _ x
    · exact fun x => pay8_apply _ _ x
    · exact fun x => pay7_apply _ _ x
    · exact fun x => pay5_apply _ _ x
    · exact fun x => pay4_apply _ _ x
    · exact fun x => pay3_apply _ _ x
  case hrow =>
    intro p hp
    simp only [List.mem_cons, List.not_mem_nil, or_false] at hp
    rcases hp with rfl | rfl | rfl | rfl | rfl | rfl | rfl | rfl
    · exact fun y hy => ((lane_mem r.val 112 _ (k0_off12_eq r) (k0_off12_inb r) y).mp hy).1
    · exact fun y hy => ((lane_mem r.val 96 _ (k0_off11_eq r) (k0_off11_inb r) y).mp hy).1
    · exact fun y hy => ((lane_mem r.val 80 _ (k0_off10_eq r) (k0_off10_inb r) y).mp hy).1
    · exact fun y hy => ((lane_mem r.val 64 _ (k0_off9_eq r) (k0_off9_inb r) y).mp hy).1
    · exact fun y hy => ((lane_mem r.val 48 _ (k0_off8_eq r) (k0_off8_inb r) y).mp hy).1
    · exact fun y hy => ((lane_mem r.val 32 _ (k0_off7_eq r) (k0_off7_inb r) y).mp hy).1
    · exact fun y hy => ((lane_mem r.val 16 _ (k0_off6_eq r) (k0_off6_inb r) y).mp hy).1
    · exact fun y hy => ((lane_mem r.val 0 _ (k0_off5_eq r) (k0_off5_inb r) y).mp hy).1
  case hcov =>
    intro y hr
    have h128 : (y 1).val < 128 := (y 1).isLt
    rcases (by omega : (112 ≤ (y 1).val ∧ (y 1).val < 112 + 16) ∨ (96 ≤ (y 1).val ∧ (y 1).val < 96 + 16) ∨ (80 ≤ (y 1).val ∧ (y 1).val < 80 + 16)
        ∨ (64 ≤ (y 1).val ∧ (y 1).val < 64 + 16) ∨ (48 ≤ (y 1).val ∧ (y 1).val < 48 + 16) ∨ (32 ≤ (y 1).val ∧ (y 1).val < 32 + 16)
        ∨ (16 ≤ (y 1).val ∧ (y 1).val < 16 + 16) ∨ (0 ≤ (y 1).val ∧ (y 1).val < 0 + 16)) with h | h | h | h | h | h | h | h
    · exact ⟨_, List.mem_cons_self, (lane_mem r.val 112 _ (k0_off12_eq r) (k0_off12_inb r) y).mpr ⟨hr, h.1, h.2⟩⟩
    · exact ⟨_, List.mem_cons_of_mem _ (List.mem_cons_self), (lane_mem r.val 96 _ (k0_off11_eq r) (k0_off11_inb r) y).mpr ⟨hr, h.1, h.2⟩⟩
    · exact ⟨_, List.mem_cons_of_mem _ (List.mem_cons_of_mem _ (List.mem_cons_self)), (lane_mem r.val 80 _ (k0_off10_eq r) (k0_off10_inb r) y).mpr ⟨hr, h.1, h.2⟩⟩
    · exact ⟨_, List.mem_cons_of_mem _ (List.mem_cons_of_mem _ (List.mem_cons_of_mem _ (List.mem_cons_self))), (lane_mem r.val 64 _ (k0_off9_eq r) (k0_off9_inb r) y).mpr ⟨hr, h.1, h.2⟩⟩
    · exact ⟨_, List.mem_cons_of_mem _ (List.mem_cons_of_mem _ (List.mem_cons_of_mem _ (List.mem_cons_of_mem _ (List.mem_cons_self)))), (lane_mem r.val 48 _ (k0_off8_eq r) (k0_off8_inb r) y).mpr ⟨hr, h.1, h.2⟩⟩
    · exact ⟨_, List.mem_cons_of_mem _ (List.mem_cons_of_mem _ (List.mem_cons_of_mem _ (List.mem_cons_of_mem _ (List.mem_cons_of_mem _ (List.mem_cons_self))))), (lane_mem r.val 32 _ (k0_off7_eq r) (k0_off7_inb r) y).mpr ⟨hr, h.1, h.2⟩⟩
    · exact ⟨_, List.mem_cons_of_mem _ (List.mem_cons_of_mem _ (List.mem_cons_of_mem _ (List.mem_cons_of_mem _ (List.mem_cons_of_mem _ (List.mem_cons_of_mem _ (List.mem_cons_self)))))), (lane_mem r.val 16 _ (k0_off6_eq r) (k0_off6_inb r) y).mpr ⟨hr, h.1, h.2⟩⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (lane_mem r.val 0 _ (k0_off5_eq r) (k0_off5_inb r) y).mpr ⟨hr, h.1, h.2⟩⟩

set_option maxHeartbeats 4000000 in
/-- The task of a worker that copies no rows of the table (its number is 25 or more). -/
theorem tile_neg (hF : (K (F := F)).Facts) (hpre : PreOK m) (q : PosShare TreeShare) (O : CellTallies nD τ sig (HIx 1)) (W : Waits sig (HIx 1)) (hO : ∀ g, O g none = 0)
    (hce : ∀ (k : Fin k0_t1_loop.trips)
      (hA : ∀ x, (((offs0 k).view.read (Elt F) (J0 m d L)) x).toNat < S10000x128.size (gathers_S10000x128_S80x128).axis)
      (hB : ∀ x, (((offs1 k).view.read (Elt F) (J1 m d L)) x).toNat < S10000x128.size (gathers_S10000x128_S80x128).axis)
      (x : S80x128.Idx), Cert.Pool.mid (GA m d L k hA x) (GB m d L k hB x) = G m d ((outChunk L k).view.emb x))
    (k0_h1 : ¬ k0_cond1 L = 1#1) :
    iprop(levAts (K (F := F)).L (K (F := F)).lev ∗ emp ∗ (reads m d q ∗ outPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pool_kernel L xV (Memref.isWhole_whole _) i0V (Memref.isWhole_whole _) i1V (Memref.isWhole_whole _) oV (Memref.isWhole_whole _)
            sI0 (Memref.isWhole_whole _) sI1 (Memref.isWhole_whole _) sA (Memref.isWhole_whole _) sB (Memref.isWhole_whole _) sO (Memref.isWhole_whole _)
            cc0_scratch5 cc0_scratch6 cc0_scoped0 cc0_scoped1 cc0_scoped2 cc0_scoped3)
          fun _ => iprop((reads m d q ∗ outPieces d L (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hin0' := hin0 m d L hpre
  have hin1' := hin1 m d L hpre
  simp only [cc0__pool_kernel_eq_skeleton]; unfold cc0__pool_kernel_skel
  rw [(K (F := F)).scopedBufs_V hF d (cV L) (jV L), SparseCore.Cfg.scopedSems0_V (Val := Elt F) d (cV L) (jV L), ownSems0_V, ownBufs_V,
    outPieces_neg d L _ k0_h1]
  unfold reads
  iintro ⟨#Hlv, -, ⟨⟨Hx, Hi0, Hi1⟩, ⟨-, Hchunks⟩⟩, ⟨⟨%f0, Hs0⟩, ⟨%f1, Hs1⟩, ⟨%fa, Hsa⟩, ⟨%fb, Hsb⟩, ⟨%fo, Hso⟩, Hbufs⟩,
    ⟨Hg0, Hg1, Hh, Hc0, Hc1, Hco, Hsems⟩, HO⟩
  ihave Hmw := ((K (F := F)).mayWaits_none (thr := V d (cV L) (jV L)) hO) $$ Hlv
  ihave Hx := (Entails.of_eq (pts_x (F := F) d L q _).symm) $$ Hx
  ihave Hi0 := (Entails.of_eq (pts_i0 (F := F) d L q _).symm) $$ Hi0
  ihave Hi1 := (Entails.of_eq (pts_i1 (F := F) d L q _).symm) $$ Hi1
  ihave Hs0 := (Entails.of_eq (pts_sI0 (F := F) d L _).symm) $$ Hs0
  ihave Hs1 := (Entails.of_eq (pts_sI1 (F := F) d L _).symm) $$ Hs1
  ihave Hsa := (Entails.of_eq (pts_sA (F := F) d L _).symm) $$ Hsa
  ihave Hsb := (Entails.of_eq (pts_sB (F := F) d L _).symm) $$ Hsb
  ihave Hso := (Entails.of_eq (pts_sO (F := F) d L _).symm) $$ Hso
  sl_exec
  sl_unfold_run_names
  rw [write_sI0, write_sI1]
  ihave Hx := (Entails.of_eq (x_halves (F := F) d L q _)) $$ Hx
  icases Hx with ⟨Hx1, Hx2⟩
  sl_for (invChunk m d L q O W) $$ [Hmw Hx1 Hx2 Hs0 Hs1 Hsa Hsb Hso Hg0 Hg1 Hco Hchunks HO]
  case region =>
    intro k _
    unfold invChunk
    rw [Cert.Lib.ChunkFamilies.todo_peel _ k.val k.isLt]
    iintro ⟨#Hmw, Hx1, Hx2, Hs0, Hs1, ⟨%fa, Hsa⟩, ⟨%fb, Hsb⟩, ⟨%fo, Hso⟩, Hg0, Hg1, Hco, ⟨Hck, Htodo⟩, Hdone, %W', %hW', HO⟩
    unfold chunkAt
    ihave Hck := (Entails.of_eq (pts_chunk (F := F) d L k _).symm) $$ Hck
    sl_exec
    ihave Hsa := (Entails.of_eq (pts_sA_whole (F := F) d L _ _)) $$ Hsa
    ihave Hsb := (Entails.of_eq (pts_sB_whole (F := F) d L _ _)) $$ Hsb
    sl_for (invRow (F := F) d L (GA m d L k (hin0' k)) (GB m d L k (hin1' k))) $$ [Hsa Hsb Hso]
    case region => intro r acc; exact row_region d L _ _ r acc
    · unfold invRow
      isplitl [Hsa]; · iexact Hsa
      isplitl [Hsb]; · iexact Hsb
      iexists fo; isplitl [Hso]; · iexact Hso
      ipureintro; exact RowsDone.zero _ _ _
    iintro %acc HI
    unfold invRow
    icases HI with ⟨Hsa, Hsb, %fo', Hso, %hfo⟩
    sl_exec
    sl_step
    have hx80 : ∀ x : S80x128.Idx, (x 0).val < Scf.trips k0_t2_loop.lb k0_t2_loop.ub k0_t2_loop.st := fun x => by
      have h1 : (x 0).val < 80 := (x 0).isLt
      have h2 : k0_t2_loop.trips = 80 := by decide
      exact lt_of_lt_of_eq h1 h2.symm
    isplitr; · iexact Hmw
    isplitl [Hx1]; · iexact Hx1
    isplitl [Hx2]; · iexact Hx2
    isplitl [Hs0]; · iexact Hs0
    isplitl [Hs1]; · iexact Hs1
    isplitl [Hsa]; · iexists _; iexact Hsa
    isplitl [Hsb]; · iexists _; iexact Hsb
    isplitl [Hso]; · iexists _; iexact Hso
    isplitl [Hg0]; · iexact Hg0
    isplitl [Hg1]; · iexact Hg1
    isplitl [Hco]; · iexact Hco
    isplitl [Htodo]; · iexact Htodo
    isplitl [Hdone Hck]
    · rw [Cert.Lib.ChunkFamilies.done_push _ k.val k.isLt]
      isplitl [Hdone]; · iexact Hdone
      iapply (Entails.of_eq (pointsTo_congr (g := G m d) ?hcong))
      rotate_left
      · iexact Hck
      · refine chunk_congr (F := F) d L k _ _ _ ?_
        intro x
        exact (hfo x (hx80 x)).trans (hce k _ _ x)
    iexists _; isplitr
    rotate_left
    · iexact HO
    · ipureintro; intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact hW' p hp
  · unfold invChunk
    rw [Cert.Lib.ChunkFamilies.todo_zero, Cert.Lib.ChunkFamilies.done_zero]
    isplitr; · iexact Hmw
    isplitl [Hx1]; · iexact Hx1
    isplitl [Hx2]; · iexact Hx2
    isplitl [Hs0]; · iexact Hs0
    isplitl [Hs1]; · iexact Hs1
    isplitl [Hsa]; · iexists _; iexact Hsa
    isplitl [Hsb]; · iexists _; iexact Hsb
    isplitl [Hso]; · iexists _; iexact Hso
    isplitl [Hg0]; · iexact Hg0
    isplitl [Hg1]; · iexact Hg1
    isplitl [Hco]; · iexact Hco
    isplitl [Hchunks]; · unfold chunkAt; iexact Hchunks
    isplitr; · iempintro
    iexists _; isplitr
    rotate_left
    · iexact HO
    · ipureintro; intro p hp
      rcases Finset.mem_insert.mp hp with hp | hp
      · subst hp; exact .inr rfl
      rcases Finset.mem_insert.mp hp with hp | hp
      · subst hp; exact .inr rfl
      · exact .inl hp
  iintro %_ HI
  unfold invChunk
  icases HI with ⟨-, Hx1, Hx2, Hs0, Hs1, ⟨%fa', Hsa⟩, ⟨%fb', Hsb⟩, ⟨%fo', Hso⟩, Hg0, Hg1, Hco, -, Hdone, %W', %hW', HO⟩
  ihave Hdone := (Entails.of_eq (Cert.Lib.ChunkFamilies.done_top _ _ (le_refl _))) $$ Hdone
  sl_exec
  sl_step
  isplitl [Hx1 Hx2 Hi0 Hi1 Hdone]
  · isplitl [Hx1 Hx2 Hi0 Hi1]
    · isplitl [Hx1 Hx2]
      · iapply (Entails.of_eq (pts_x (F := F) d L q _))
        iapply (Entails.of_eq (x_halves (F := F) d L q _).symm)
        isplitl [Hx1]; · iexact Hx1
        iexact Hx2
      isplitl [Hi0]; · iexact Hi0
      iexact Hi1
    · rw [outPieces_neg d L _ k0_h1]
      isplitr; · iempintro
      unfold chunkAt
      iexact Hdone
  isplitl [Hs0 Hs1 Hsa Hsb Hso Hbufs]
  · isplitl [Hs0]; · iexists _; iexact Hs0
    isplitl [Hs1]; · iexists _; iexact Hs1
    isplitl [Hsa]; · iexists _; iexact Hsa
    isplitl [Hsb]; · iexists _; iexact Hsb
    isplitl [Hso]; · iexists _; iexact Hso
    iexact Hbufs
  isplitl [Hg0 Hg1 Hh Hc0 Hc1 Hco Hsems]
  · isplitl [Hg0]; · iexact Hg0
    isplitl [Hg1]; · iexact Hg1
    isplitl [Hh]; · iexact Hh
    isplitl [Hc0]; · iexact Hc0
    isplitl [Hc1]; · iexact Hc1
    isplitl [Hco]; · iexact Hco
    iexact Hsems
  iexists W'; isplitr
  · ipureintro; exact hW'
  · iexact HO

set_option maxHeartbeats 4000000 in
/-- The task of a worker below 25: its 400 rows of the table first, then the same. -/
theorem tile_pos (hF : (K (F := F)).Facts) (hpre : PreOK m) (q : PosShare TreeShare) (O : CellTallies nD τ sig (HIx 1)) (W : Waits sig (HIx 1)) (hO : ∀ g, O g none = 0)
    (hce : ∀ (k : Fin k0_t1_loop.trips)
      (hA : ∀ x, (((offs0 k).view.read (Elt F) (J0 m d L)) x).toNat < S10000x128.size (gathers_S10000x128_S80x128).axis)
      (hB : ∀ x, (((offs1 k).view.read (Elt F) (J1 m d L)) x).toNat < S10000x128.size (gathers_S10000x128_S80x128).axis)
      (x : S80x128.Idx), Cert.Pool.mid (GA m d L k hA x) (GB m d L k hB x) = G m d ((outChunk L k).view.emb x))
    (hhe : ∀ (h : k0_cond1 L = 1#1) (x : S400x128.Idx),
      ((xV : Memref sig .scVector .hbm S10000x128 .f32).slice (Rect.unit (s := S10000x128) (k0_off2 L) S400x128.size (k0_off2_inb L h)) (fun _ => rfl)).view.read (Elt F) (m (xLoc d)) x
        = G m d ((outHead L h).view.emb x))
    (k0_h1 : k0_cond1 L = 1#1) :
    iprop(levAts (K (F := F)).L (K (F := F)).lev ∗ emp ∗ (reads m d q ∗ outPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pool_kernel L xV (Memref.isWhole_whole _) i0V (Memref.isWhole_whole _) i1V (Memref.isWhole_whole _) oV (Memref.isWhole_whole _)
            sI0 (Memref.isWhole_whole _) sI1 (Memref.isWhole_whole _) sA (Memref.isWhole_whole _) sB (Memref.isWhole_whole _) sO (Memref.isWhole_whole _)
            cc0_scratch5 cc0_scratch6 cc0_scoped0 cc0_scoped1 cc0_scoped2 cc0_scoped3)
          fun _ => iprop((reads m d q ∗ outPieces d L (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hin0' := hin0 m d L hpre
  have hin1' := hin1 m d L hpre
  simp only [cc0__pool_kernel_eq_skeleton]; unfold cc0__pool_kernel_skel
  rw [(K (F := F)).scopedBufs_V hF d (cV L) (jV L), SparseCore.Cfg.scopedSems0_V (Val := Elt F) d (cV L) (jV L), ownSems0_V, ownBufs_V,
    outPieces_pos d L _ k0_h1]
  unfold reads
  iintro ⟨#Hlv, -, ⟨⟨Hx, Hi0, Hi1⟩, ⟨Hhead, Hchunks⟩⟩, ⟨⟨%f0, Hs0⟩, ⟨%f1, Hs1⟩, ⟨%fa, Hsa⟩, ⟨%fb, Hsb⟩, ⟨%fo, Hso⟩, Hbufs⟩,
    ⟨Hg0, Hg1, Hh, Hc0, Hc1, Hco, Hsems⟩, HO⟩
  ihave Hmw := ((K (F := F)).mayWaits_none (thr := V d (cV L) (jV L)) hO) $$ Hlv
  ihave Hx := (Entails.of_eq (pts_x (F := F) d L q _).symm) $$ Hx
  ihave Hhead := (Entails.of_eq (pts_head (F := F) d L k0_h1 _).symm) $$ Hhead
  ihave Hi0 := (Entails.of_eq (pts_i0 (F := F) d L q _).symm) $$ Hi0
  ihave Hi1 := (Entails.of_eq (pts_i1 (F := F) d L q _).symm) $$ Hi1
  ihave Hs0 := (Entails.of_eq (pts_sI0 (F := F) d L _).symm) $$ Hs0
  ihave Hs1 := (Entails.of_eq (pts_sI1 (F := F) d L _).symm) $$ Hs1
  ihave Hsa := (Entails.of_eq (pts_sA (F := F) d L _).symm) $$ Hsa
  ihave Hsb := (Entails.of_eq (pts_sB (F := F) d L _).symm) $$ Hsb
  ihave Hso := (Entails.of_eq (pts_sO (F := F) d L _).symm) $$ Hso
  sl_exec
  sl_unfold_run_names
  rw [write_sI0, write_sI1]
  ihave Hx := (Entails.of_eq (x_halves (F := F) d L q _)) $$ Hx
  icases Hx with ⟨Hx1, Hx2⟩
  sl_for (invChunk m d L q O W) $$ [Hmw Hx1 Hx2 Hs0 Hs1 Hsa Hsb Hso Hg0 Hg1 Hco Hchunks HO]
  case region =>
    intro k _
    unfold invChunk
    rw [Cert.Lib.ChunkFamilies.todo_peel _ k.val k.isLt]
    iintro ⟨#Hmw, Hx1, Hx2, Hs0, Hs1, ⟨%fa, Hsa⟩, ⟨%fb, Hsb⟩, ⟨%fo, Hso⟩, Hg0, Hg1, Hco, ⟨Hck, Htodo⟩, Hdone, %W', %hW', HO⟩
    unfold chunkAt
    ihave Hck := (Entails.of_eq (pts_chunk (F := F) d L k _).symm) $$ Hck
    sl_exec
    ihave Hsa := (Entails.of_eq (pts_sA_whole (F := F) d L _ _)) $$ Hsa
    ihave Hsb := (Entails.of_eq (pts_sB_whole (F := F) d L _ _)) $$ Hsb
    sl_for (invRow (F := F) d L (GA m d L k (hin0' k)) (GB m d L k (hin1' k))) $$ [Hsa Hsb Hso]
    case region => intro r acc; exact row_region d L _ _ r acc
    · unfold invRow
      isplitl [Hsa]; · iexact Hsa
      isplitl [Hsb]; · iexact Hsb
      iexists fo; isplitl [Hso]; · iexact Hso
      ipureintro; exact RowsDone.zero _ _ _
    iintro %acc HI
    unfold invRow
    icases HI with ⟨Hsa, Hsb, %fo', Hso, %hfo⟩
    sl_exec
    sl_step
    have hx80 : ∀ x : S80x128.Idx, (x 0).val < Scf.trips k0_t2_loop.lb k0_t2_loop.ub k0_t2_loop.st := fun x => by
      have h1 : (x 0).val < 80 := (x 0).isLt
      have h2 : k0_t2_loop.trips = 80 := by decide
      exact lt_of_lt_of_eq h1 h2.symm
    isplitr; · iexact Hmw
    isplitl [Hx1]; · iexact Hx1
    isplitl [Hx2]; · iexact Hx2
    isplitl [Hs0]; · iexact Hs0
    isplitl [Hs1]; · iexact Hs1
    isplitl [Hsa]; · iexists _; iexact Hsa
    isplitl [Hsb]; · iexists _; iexact Hsb
    isplitl [Hso]; · iexists _; iexact Hso
    isplitl [Hg0]; · iexact Hg0
    isplitl [Hg1]; · iexact Hg1
    isplitl [Hco]; · iexact Hco
    isplitl [Htodo]; · iexact Htodo
    isplitl [Hdone Hck]
    · rw [Cert.Lib.ChunkFamilies.done_push _ k.val k.isLt]
      isplitl [Hdone]; · iexact Hdone
      iapply (Entails.of_eq (pointsTo_congr (g := G m d) ?hcong))
      rotate_left
      · iexact Hck
      · refine chunk_congr (F := F) d L k _ _ _ ?_
        intro x
        exact (hfo x (hx80 x)).trans (hce k _ _ x)
    iexists _; isplitr
    rotate_left
    · iexact HO
    · ipureintro; intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact hW' p hp
  · unfold invChunk
    rw [Cert.Lib.ChunkFamilies.todo_zero, Cert.Lib.ChunkFamilies.done_zero]
    isplitr; · iexact Hmw
    isplitl [Hx1]; · iexact Hx1
    isplitl [Hx2]; · iexact Hx2
    isplitl [Hs0]; · iexact Hs0
    isplitl [Hs1]; · iexact Hs1
    isplitl [Hsa]; · iexists _; iexact Hsa
    isplitl [Hsb]; · iexists _; iexact Hsb
    isplitl [Hso]; · iexists _; iexact Hso
    isplitl [Hg0]; · iexact Hg0
    isplitl [Hg1]; · iexact Hg1
    isplitl [Hco]; · iexact Hco
    isplitl [Hchunks]; · unfold chunkAt; iexact Hchunks
    isplitr; · iempintro
    iexists _; isplitr
    rotate_left
    · iexact HO
    · ipureintro; intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact .inl hp
  iintro %_ HI
  unfold invChunk
  icases HI with ⟨-, Hx1, Hx2, Hs0, Hs1, ⟨%fa', Hsa⟩, ⟨%fb', Hsb⟩, ⟨%fo', Hso⟩, Hg0, Hg1, Hco, -, Hdone, %W', %hW', HO⟩
  ihave Hdone := (Entails.of_eq (Cert.Lib.ChunkFamilies.done_top _ _ (le_refl _))) $$ Hdone
  sl_exec
  sl_step
  isplitl [Hx1 Hx2 Hi0 Hi1 Hdone Hhead]
  · isplitl [Hx1 Hx2 Hi0 Hi1]
    · isplitl [Hx1 Hx2]
      · iapply (Entails.of_eq (pts_x (F := F) d L q _))
        iapply (Entails.of_eq (x_halves (F := F) d L q _).symm)
        isplitl [Hx1]; · iexact Hx1
        iexact Hx2
      isplitl [Hi0]; · iexact Hi0
      iexact Hi1
    · rw [outPieces_pos d L _ k0_h1]
      isplitl [Hhead]
      · iapply (Entails.of_eq (pointsTo_congr (g := G m d) ?hcongHead))
        rotate_left
        · iexact Hhead
        · refine head_congr (F := F) d L k0_h1 _ _ _ ?_
          intro x
          exact hhe k0_h1 x
      unfold chunkAt
      iexact Hdone
  isplitl [Hs0 Hs1 Hsa Hsb Hso Hbufs]
  · isplitl [Hs0]; · iexists _; iexact Hs0
    isplitl [Hs1]; · iexists _; iexact Hs1
    isplitl [Hsa]; · iexists _; iexact Hsa
    isplitl [Hsb]; · iexists _; iexact Hsb
    isplitl [Hso]; · iexists _; iexact Hso
    iexact Hbufs
  isplitl [Hg0 Hg1 Hh Hc0 Hc1 Hco Hsems]
  · isplitl [Hg0]; · iexact Hg0
    isplitl [Hg1]; · iexact Hg1
    isplitl [Hh]; · iexact Hh
    isplitl [Hc0]; · iexact Hc0
    isplitl [Hc1]; · iexact Hc1
    isplitl [Hco]; · iexact Hco
    iexact Hsems
  iexists W'; isplitr
  · ipureintro; exact hW'
  · iexact HO

/-- The task, for every worker. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp ∗ (reads m d q ∗ outPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pool_kernel L xV (Memref.isWhole_whole _) i0V (Memref.isWhole_whole _) i1V (Memref.isWhole_whole _) oV (Memref.isWhole_whole _)
            sI0 (Memref.isWhole_whole _) sI1 (Memref.isWhole_whole _) sA (Memref.isWhole_whole _) sB (Memref.isWhole_whole _) sO (Memref.isWhole_whole _)
            cc0_scratch5 cc0_scratch6 cc0_scoped0 cc0_scoped1 cc0_scoped2 cc0_scoped3)
          fun _ => iprop((reads m d q ∗ outPieces d L (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases k0_h1 : k0_cond1 L = 1#1
  · exact tile_pos m d L hF hpre q O W hO (chunk_entry m d L hpre) (head_entry m d L) k0_h1
  · exact tile_neg m d L hF hpre q O W hO (chunk_entry m d L hpre) k0_h1

end Tile

/-! ## The launch theorem's obligation -/

theorem defs₀_vector (c : Fin τ.nSC) (s : Fin τ.nSub) :
    defs₀ (F := F) (.scVector c s) 0 ()
      = SparseCore.onTile hcore0 hsub0 (fun c s => cc0__pool_kernel (coordsV c s)
          xV (Memref.isWhole_whole _) i0V (Memref.isWhole_whole _) i1V (Memref.isWhole_whole _) oV (Memref.isWhole_whole _)
          sI0 (Memref.isWhole_whole _) sI1 (Memref.isWhole_whole _) sA (Memref.isWhole_whole _) sB (Memref.isWhole_whole _) sO (Memref.isWhole_whole _)
          cc0_scratch5 cc0_scratch6 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre _ O W hO).trans (wp_mono frame _ _ fun _ => obl_post)

end Cert.Proof.KernelRun

end
-- ==== Proof.KernelRun.lean ====
import proofs.«208565_g47476568490134_cont_8to1_c_213_4_alg».proof.Proof.KernelLaunch
import proofs.«208565_g47476568490134_cont_8to1_c_213_4_alg».proof.Proof.KernelBody

/-!
# The kernel's run

Every weakly fair execution of the device's threads — the TensorCore's host operations and call,
the two sequencers, the thirty-two vector subcores and the DMA engine — terminates without a fault;
at the end the result holds the table followed by the midpoints of the listed pairs of rows, and the
table and the pairs are unchanged. The launch theorem is applied to the task proved for every worker.
-/

noncomputable section

namespace Cert.Proof.KernelRun

open Cert.Kernel Cert.Kernel.Gen
open Idealize.ShloMosaic Idealize.SL.Sem

variable {F : FTy → Type} [FloatOps F]

theorem run [∀ e, Nonempty (Elt F e)] (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩
      (fun r => ∀ c : Dev nD, r.2.mem (oLoc c) = G m c ∧ r.2.mem (xLoc c) = m (xLoc c) ∧ r.2.mem (pLoc c) = m (pLoc c)) :=
  run_main (F := F) m ρ (tileObl m hpre)

end Cert.Proof.KernelRun

end
-- ==== Proof.lean ====
/-
  The pooled-midpoints kernel against its reference.

  The reference returns the table `x` (10000 rows of 128) followed by one row per listed pair of row
  numbers, the midpoint `0.5 · (x[i₀] + x[i₁])` of the two named rows. The kernel computes the same on
  the SparseCores: thirty-two vector subcores each copy a slab of the table's rows into the result and
  gather, chunk by chunk, the two named rows of eighty pairs, store `(a + b) · 0.5` and copy the block
  out. Under the precondition every word of the pairs lies in `[0, 9999]`, so every gathered row exists,
  the reference's index wrap and range mask do nothing, and both sides read the rows the words name.

  * Each program runs: the kernel's run is the launch theorem over the task of one worker
    (Proof/KernelIdealRun.lean, and its word-level twin Proof/KernelRun.lean, the same text at the other
    float instance); the reference's run lists its host operations (Proof/RefRun.lean).
  * The idealization rewrote nothing, so `preserves` has no conjunct.
  * At the ideal instance both results are `Cert.Pool.pooled x idx` (Proof/PoolSpec.lean): the kernel's by
    carrying the value through its two loops, the reference's by reading its operations at an index;
    the midpoint needs only that `·` commutes and `0 + a = a` on the extended reals, so the float half
    of the precondition is never used.
  The five conjuncts are assembled in Proof/Assembly.lean from the two kernel runs.
-/
import proofs.«208565_g47476568490134_cont_8to1_c_213_4_alg».proof.Defs
import proofs.«208565_g47476568490134_cont_8to1_c_213_4_alg».proof.Proof.Gen.Kernel
import proofs.«208565_g47476568490134_cont_8to1_c_213_4_alg».proof.Proof.Gen.Kernel.Skeleton
import proofs.«208565_g47476568490134_cont_8to1_c_213_4_alg».proof.Proof.Gen.KernelIdeal
import proofs.«208565_g47476568490134_cont_8to1_c_213_4_alg».proof.Proof.Gen.KernelIdeal.Skeleton
import proofs.«208565_g47476568490134_cont_8to1_c_213_4_alg».proof.Proof.Gen.ReferenceIdeal
import proofs.«208565_g47476568490134_cont_8to1_c_213_4_alg».proof.Proof.Gen.Pre_input_domain
import proofs.«208565_g47476568490134_cont_8to1_c_213_4_alg».proof.Proof.Assembly
import proofs.«208565_g47476568490134_cont_8to1_c_213_4_alg».proof.Proof.KernelIdealRun
import proofs.«208565_g47476568490134_cont_8to1_c_213_4_alg».proof.Proof.KernelRun
import Idealize.ShloMosaic.Adequacy
import Idealize.ShloMosaic.Init

noncomputable section

namespace Cert.Proof

open Idealize.ShloMosaic Idealize.SL.Sem

/-- The word-level kernel runs and leaves its arguments unchanged: its run with the result's value dropped. -/
theorem runKernel (m : (ℓ : Loc Cert.Kernel.nD Cert.Kernel.τ Cert.Kernel.sig) → Buf (Elt Bits) ℓ) (g : Dev Cert.Kernel.nD → PrngReg)
    (h : Cert.Pre_Kernel m) :
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)) :=
  (θ_run (Cert.Kernel.defs (F := Bits)) _ _).mono (fun _ hr c => ⟨(hr c).2.1, (hr c).2.2⟩)
    (Cert.Proof.KernelRun.run (F := Bits) m g (fun d j => Cert.PreRange.idx_lt _ _ (h d) j))

/-- The idealized kernel runs, ends with the specified result and leaves its arguments unchanged. -/
theorem runKernelIdeal (m : (ℓ : Loc Cert.KernelIdeal.nD Cert.KernelIdeal.τ Cert.KernelIdeal.sig) → Buf (Elt Ideal) ℓ) (g : Dev Cert.KernelIdeal.nD → PrngReg)
    (h : Cert.Pre_KernelIdeal m) :
    θ_run (Cert.KernelIdeal.defs (F := Ideal)) (Cert.KernelIdeal.threads (F := Ideal)) ⟨m, fun _ => 0, g⟩ (fun r => ∀ c : Dev Cert.KernelIdeal.nD,
      r.2.mem (Cert.Proof.KernelIdealRun.oLoc c) = Cert.Proof.KernelIdealRun.G (F := Ideal) m c
      ∧ r.2.mem (Cert.Proof.KernelIdealRun.xLoc c) = m (Cert.Proof.KernelIdealRun.xLoc c)
      ∧ r.2.mem (Cert.Proof.KernelIdealRun.pLoc c) = m (Cert.Proof.KernelIdealRun.pLoc c)) :=
  Cert.Proof.KernelIdealRun.run (F := Ideal) m g (Cert.Proof.Assembly.preOK_ideal m h)

theorem claim : Cert.Claim := Cert.Proof.Assembly.claim_of runKernel runKernelIdeal

end Cert.Proof

end
